-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_temp" .f32 0x41649249#32 ((134217728 / 9395241 : ℝ) : EReal)
  ∧ IdealRules.named_const.Statement Cert.KernelIdeal.κ "inv_temp" .f32 0x41649249#32 ((134217728 / 9395241 : ℝ) : EReal)
  ∧ IdealRules.named_const.Statement Cert.KernelIdeal.κ "inv_temp" .f32 0x41649249#32 ((134217728 / 9395241 : ℝ) : EReal)
  ∧ IdealRules.named_const.Statement Cert.KernelIdeal.κ "inv_temp" .f32 0x41649249#32 ((134217728 / 9395241 : ℝ) : EReal)
  ∧ IdealRules.named_const.Statement Cert.KernelIdeal.κ "inv_temp" .f32 0x41649249#32 ((134217728 / 9395241 : ℝ) : EReal)
  ∧ IdealRules.named_const.Statement Cert.KernelIdeal.κ "inv_temp" .f32 0x41649249#32 ((134217728 / 9395241 : ℝ) : EReal)
  ∧ IdealRules.named_const.Statement Cert.KernelIdeal.κ "inv_temp" .f32 0x41649249#32 ((134217728 / 9395241 : ℝ) : EReal)
  ∧ IdealRules.named_const.Statement Cert.KernelIdeal.κ "inv_temp" .f32 0x41649249#32 ((134217728 / 9395241 : ℝ) : EReal)
  ∧ IdealRules.named_const.Statement Cert.KernelIdeal.κ "inv_temp" .f32 0x41649249#32 ((134217728 / 9395241 : ℝ) : EReal)
  ∧ IdealRules.named_const.Statement Cert.KernelIdeal.κ "inv_temp" .f32 0x41649249#32 ((134217728 / 9395241 : ℝ) : EReal)
  ∧ IdealRules.named_const.Statement Cert.KernelIdeal.κ "inv_temp" .f32 0x41649249#32 ((134217728 / 9395241 : ℝ) : EReal)
  ∧ IdealRules.named_const.Statement Cert.KernelIdeal.κ "inv_temp" .f32 0x41649249#32 ((134217728 / 9395241 : ℝ) : EReal)
  ∧ IdealRules.named_const.Statement Cert.KernelIdeal.κ "inv_temp" .f32 0x41649249#32 ((134217728 / 9395241 : ℝ) : EReal)
  ∧ IdealRules.named_const.Statement Cert.KernelIdeal.κ "inv_temp" .f32 0x41649249#32 ((134217728 / 9395241 : ℝ) : EReal)
  ∧ IdealRules.named_const.Statement Cert.KernelIdeal.κ "inv_temp" .f32 0x41649249#32 ((134217728 / 9395241 : ℝ) : EReal)
  ∧ IdealRules.named_const.Statement Cert.KernelIdeal.κ "inv_temp" .f32 0x41649249#32 ((134217728 / 9395241 : ℝ) : EReal)
  ∧ IdealRules.named_const.Statement Cert.KernelIdeal.κ "inv_temp" .f32 0x41649249#32 ((134217728 / 9395241 : ℝ) : EReal)
  ∧ IdealRules.named_const.Statement Cert.KernelIdeal.κ "inv_temp" .f32 0x41649249#32 ((134217728 / 9395241 : ℝ) : EReal)
  ∧ IdealRules.named_const.Statement Cert.KernelIdeal.κ "inv_temp" .f32 0x41649249#32 ((134217728 / 9395241 : ℝ) : EReal)
  ∧ IdealRules.named_const.Statement Cert.KernelIdeal.κ "inv_temp" .f32 0x41649249#32 ((134217728 / 9395241 : ℝ) : EReal)
  ∧ IdealRules.named_const.Statement Cert.KernelIdeal.κ "inv_temp" .f32 0x41649249#32 ((134217728 / 9395241 : ℝ) : EReal)
  ∧ IdealRules.named_const.Statement Cert.KernelIdeal.κ "inv_temp" .f32 0x41649249#32 ((134217728 / 9395241 : ℝ) : EReal)
  ∧ IdealRules.named_const.Statement Cert.KernelIdeal.κ "inv_temp" .f32 0x41649249#32 ((134217728 / 9395241 : ℝ) : EReal)
  ∧ IdealRules.named_const.Statement Cert.KernelIdeal.κ "inv_temp" .f32 0x41649249#32 ((134217728 / 9395241 : ℝ) : EReal)
  ∧ IdealRules.named_const.Statement Cert.KernelIdeal.κ "inv_temp" .f32 0x41649249#32 ((134217728 / 9395241 : ℝ) : EReal)
  ∧ IdealRules.named_const.Statement Cert.KernelIdeal.κ "inv_temp" .f32 0x41649249#32 ((134217728 / 9395241 : ℝ) : EReal)
  ∧ IdealRules.named_const.Statement Cert.KernelIdeal.κ "inv_temp" .f32 0x41649249#32 ((134217728 / 9395241 : ℝ) : EReal)
  ∧ IdealRules.named_const.Statement Cert.KernelIdeal.κ "inv_temp" .f32 0x41649249#32 ((134217728 / 9395241 : ℝ) : EReal)
  ∧ IdealRules.named_const.Statement Cert.KernelIdeal.κ "inv_temp" .f32 0x41649249#32 ((134217728 / 9395241 : ℝ) : EReal)
  ∧ IdealRules.named_const.Statement Cert.KernelIdeal.κ "inv_temp" .f32 0x41649249#32 ((134217728 / 9395241 : ℝ) : EReal)
  ∧ IdealRules.named_const.Statement Cert.KernelIdeal.κ "inv_temp" .f32 0x41649249#32 ((134217728 / 9395241 : ℝ) : EReal)
  ∧ IdealRules.named_const.Statement Cert.KernelIdeal.κ "inv_temp" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) (main_arg2 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S512x1 : Shape := ⟨2, ![512, 1]⟩
abbrev S512x128 : Shape := ⟨2, ![512, 128]⟩
abbrev S1x512 : Shape := ⟨2, ![1, 512]⟩
abbrev S512x512 : Shape := ⟨2, ![512, 512]⟩
abbrev S512 : Shape := ⟨1, ![512]⟩

abbrev nBuf : Space → Nat
  | .hbm => 46
  | .vmem => 11
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192, .i32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x128, .f32⟩
  | .hbm, ⟨12, _⟩ => ⟨S8192x128, .f32⟩
  | .hbm, ⟨13, _⟩ => ⟨S8192x128, .bf16⟩
  | .hbm, ⟨14, _⟩ => ⟨S8192x1, .i32⟩
  | .hbm, ⟨15, _⟩ => ⟨S1x8192, .i32⟩
  | .hbm, ⟨16, _⟩ => ⟨S8192x1, .i32⟩
  | .hbm, ⟨17, _⟩ => ⟨S1x8192, .i32⟩
  | .hbm, ⟨18, _⟩ => ⟨S8192x1, .f32⟩
  | .hbm, ⟨19, _⟩ => ⟨S8192x1, .f32⟩
  | .hbm, ⟨20, _⟩ => ⟨S8192, .f32⟩
  | .hbm, ⟨21, _⟩ => ⟨S8192, .f32⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S8192, .f32⟩
  | .hbm, ⟨26, _⟩ => ⟨S_, .f32⟩
  | .hbm, ⟨27, _⟩ => ⟨S8192, .f32⟩
  | .hbm, ⟨28, _⟩ => ⟨S8192, .i1⟩
  | .hbm, ⟨29, _⟩ => ⟨S8192, .i1⟩
  | .hbm, ⟨30, _⟩ => ⟨S8192, .i32⟩
  | .hbm, ⟨31, _⟩ => ⟨S_, .i32⟩
  | .hbm, ⟨32, _⟩ => ⟨S_, .i32⟩
  | .hbm, ⟨33, _⟩ => ⟨S_, .f32⟩
  | .hbm, ⟨34, _⟩ => ⟨S_, .f32⟩
  | .hbm, ⟨35, _⟩ => ⟨S8192, .f32⟩
  | .hbm, ⟨36, _⟩ => ⟨S8192, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .f32⟩
  | .hbm, ⟨45, _⟩ => ⟨S_, .f32⟩
  | .local _ .vmem, ⟨0, _⟩ => ⟨S8192x128, .bf16⟩
  | .local _ .vmem, ⟨1, _⟩ => ⟨S512x1, .i32⟩
  | .local _ .vmem, ⟨2, _⟩ => ⟨S512x1, .i32⟩
  | .local _ .vmem, ⟨3, _⟩ => ⟨S1x8192, .i32⟩
  | .local _ .vmem, ⟨4, _⟩ => ⟨S512x1, .i32⟩
  | .local _ .vmem, ⟨5, _⟩ => ⟨S512x1, .i32⟩
  | .local _ .vmem, ⟨6, _⟩ => ⟨S1x8192, .i32⟩
  | .local _ .vmem, ⟨7, _⟩ => ⟨S512x1, .f32⟩
  | .local _ .vmem, ⟨8, _⟩ => ⟨S512x1, .f32⟩
  | .local _ .vmem, ⟨9, _⟩ => ⟨S512x1, .f32⟩
  | .local _ .vmem, ⟨10, _⟩ => ⟨S512x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c : Ref sig .tc := ⟨.hbm, 31, rfl⟩
abbrev main_v20 : Ref sig .tc := ⟨.hbm, 32, rfl⟩
abbrev main_cst_2 : Ref sig .tc := ⟨.hbm, 33, rfl⟩
abbrev main_call1_v0 : Ref sig .tc := ⟨.hbm, 34, rfl⟩
abbrev main_call1_v1 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def k0_mult1 (i : grid0.Coords) : BitVec 32 :=
  let arg0 : BitVec 32 := BitVec.ofNat 32 (i 0).val
  let c512_i32 : BitVec 32 := 512#32
  let v0 : BitVec 32 := Scalar.muli arg0 c512_i32
  v0
def k0_off1 (i : grid0.Coords) : Fin 2 → Nat :=
  let arg0 : BitVec 32 := BitVec.ofNat 32 (i 0).val
  let c512_i32 : BitVec 32 := 512#32
  let v0 : BitVec 32 := Scalar.muli arg0 c512_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8192x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8192 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x8192 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  bitsLt_bf16_f32 : FTy.bits .bf16 < FTy.bits .f32
  shapeCasts_S8192_S8192x1 : S8192.ShapeCasts S8192x1
  shapeCasts_S8192_S1x8192 : S8192.ShapeCasts S1x8192
  h_S512x128 : 0 < S512x128.numel
  shapeCasts_S512x128_S512x128 : S512x128.ShapeCasts S512x128
  iota_S512x1_d0_w32 : S512x1.Iotas .tc 32 [0]
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S8192x128_S512x128_0_0 : ∀ a, (![0, 0] : Fin 2 → Nat) a + S512x128.size a ≤ S8192x128.size a
  inb_S1x8192_S1x512_0_0 : ∀ a, (![0, 0] : Fin 2 → Nat) a + S1x512.size a ≤ S1x8192.size a
  h_S1x512 : 0 < S1x512.numel
  shapeCasts_S1x512_S1x512 : S1x512.ShapeCasts S1x512
  iota_S1x512_d1_w32 : S1x512.Iotas .tc 32 [1]
  broadcasts_S512x1_S512x512 : S512x1.Broadcasts S512x512
  broadcasts_S1x512_S512x512 : S1x512.Broadcasts S512x512
  reduces_S512x512_S512 : S512x512.Reduces [1] S512
  shapeCasts_S512_S512x1 : S512.ShapeCasts S512x1
  inb_S8192x128_S512x128_512_0 : ∀ a, (![512, 0] : Fin 2 → Nat) a + S512x128.size a ≤ S8192x128.size a
  inb_S1x8192_S1x512_0_512 : ∀ a, (![0, 512] : Fin 2 → Nat) a + S1x512.size a ≤ S1x8192.size a
  inb_S8192x128_S512x128_1024_0 : ∀ a, (![1024, 0] : Fin 2 → Nat) a + S512x128.size a ≤ S8192x128.size a
  inb_S1x8192_S1x512_0_1024 : ∀ a, (![0, 1024] : Fin 2 → Nat) a + S1x512.size a ≤ S1x8192.size a
  inb_S8192x128_S512x128_1536_0 : ∀ a, (![1536, 0] : Fin 2 → Nat) a + S512x128.size a ≤ S8192x128.size a
  inb_S1x8192_S1x512_0_1536 : ∀ a, (![0, 1536] : Fin 2 → Nat) a + S1x512.size a ≤ S1x8192.size a
  inb_S8192x128_S512x128_2048_0 : ∀ a, (![2048, 0] : Fin 2 → Nat) a + S512x128.size a ≤ S8192x128.size a
  inb_S1x8192_S1x512_0_2048 : ∀ a, (![0, 2048] : Fin 2 → Nat) a + S1x512.size a ≤ S1x8192.size a
  inb_S8192x128_S512x128_2560_0 : ∀ a, (![2560, 0] : Fin 2 → Nat) a + S512x128.size a ≤ S8192x128.size a
  inb_S1x8192_S1x512_0_2560 : ∀ a, (![0, 2560] : Fin 2 → Nat) a + S1x512.size a ≤ S1x8192.size a
  inb_S8192x128_S512x128_3072_0 : ∀ a, (![3072, 0] : Fin 2 → Nat) a + S512x128.size a ≤ S8192x128.size a
  inb_S1x8192_S1x512_0_3072 : ∀ a, (![0, 3072] : Fin 2 → Nat) a + S1x512.size a ≤ S1x8192.size a
  inb_S8192x128_S512x128_3584_0 : ∀ a, (![3584, 0] : Fin 2 → Nat) a + S512x128.size a ≤ S8192x128.size a
  inb_S1x8192_S1x512_0_3584 : ∀ a, (![0, 3584] : Fin 2 → Nat) a + S1x512.size a ≤ S1x8192.size a
  inb_S8192x128_S512x128_4096_0 : ∀ a, (![4096, 0] : Fin 2 → Nat) a + S512x128.size a ≤ S8192x128.size a
  inb_S1x8192_S1x512_0_4096 : ∀ a, (![0, 4096] : Fin 2 → Nat) a + S1x512.size a ≤ S1x8192.size a
  inb_S8192x128_S512x128_4608_0 : ∀ a, (![4608, 0] : Fin 2 → Nat) a + S512x128.size a ≤ S8192x128.size a
  inb_S1x8192_S1x512_0_4608 : ∀ a, (![0, 4608] : Fin 2 → Nat) a + S1x512.size a ≤ S1x8192.size a
  inb_S8192x128_S512x128_5120_0 : ∀ a, (![5120, 0] : Fin 2 → Nat) a + S512x128.size a ≤ S8192x128.size a
  inb_S1x8192_S1x512_0_5120 : ∀ a, (![0, 5120] : Fin 2 → Nat) a + S1x512.size a ≤ S1x8192.size a
  inb_S8192x128_S512x128_5632_0 : ∀ a, (![5632, 0] : Fin 2 → Nat) a + S512x128.size a ≤ S8192x128.size a
  inb_S1x8192_S1x512_0_5632 : ∀ a, (![0, 5632] : Fin 2 → Nat) a + S1x512.size a ≤ S1x8192.size a
  inb_S8192x128_S512x128_6144_0 : ∀ a, (![6144, 0] : Fin 2 → Nat) a + S512x128.size a ≤ S8192x128.size a
  inb_S1x8192_S1x512_0_6144 : ∀ a, (![0, 6144] : Fin 2 → Nat) a + S1x512.size a ≤ S1x8192.size a
  inb_S8192x128_S512x128_6656_0 : ∀ a, (![6656, 0] : Fin 2 → Nat) a + S512x128.size a ≤ S8192x128.size a
  inb_S1x8192_S1x512_0_6656 : ∀ a, (![0, 6656] : Fin 2 → Nat) a + S1x512.size a ≤ S1x8192.size a
  inb_S8192x128_S512x128_7168_0 : ∀ a, (![7168, 0] : Fin 2 → Nat) a + S512x128.size a ≤ S8192x128.size a
  inb_S1x8192_S1x512_0_7168 : ∀ a, (![0, 7168] : Fin 2 → Nat) a + S1x512.size a ≤ S1x8192.size a
  inb_S8192x128_S512x128_7680_0 : ∀ a, (![7680, 0] : Fin 2 → Nat) a + S512x128.size a ≤ S8192x128.size a
  inb_S1x8192_S1x512_0_7680 : ∀ a, (![0, 7680] : Fin 2 → Nat) a + S1x512.size a ≤ S1x8192.size a
  shapeCasts_S8192x1_S8192 : S8192x1.ShapeCasts S8192
  bcast_S_S8192 : S_.BroadcastsInDim S8192 (![] : Fin 0 → Fin S8192.rank)
  natLt_1_32 : 1 < 32
  reducesTo_S8192_S_d0 : S8192.ReducesTo [0] S_
  dot_S512x128_S512x128_S512x512_1_1_0_0_n_n_wf : DotDims.WF S512x128 S512x128 S512x512 [1] [1] [0] [0] [] []
  hrank0 : 0 < grid0.rank
  k0_mult1_dvd : ∀ i : grid0.Coords, 512 ∣ (k0_mult1 i).toNat
  k0_off1_inb : ∀ i : grid0.Coords, ∀ a, (k0_off1 i) a + S512x128.size a ≤ S8192x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S8192x128.size a
  hwx0_0 : ∀ i : grid0.Coords, EltTy.bits .bf16 = 32 ∨ (Rect.block (s := S8192x128) S8192x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .i32 = 32 ∨ (Rect.block (s := S8192x1) S512x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .i32 = 32 ∨ (Rect.block (s := S1x8192) S1x8192.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S8192x1.size a
  hwx0_3 : ∀ i : grid0.Coords, EltTy.bits .i32 = 32 ∨ (Rect.block (s := S8192x1) S512x1.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x8192.size a ≤ S1x8192.size a
  hwx0_4 : ∀ i : grid0.Coords, EltTy.bits .i32 = 32 ∨ (Rect.block (s := S1x8192) S1x8192.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S8192x1.size a
  hwx0_5 : ∀ i : grid0.Coords, EltTy.bits .f32 = 32 ∨ (Rect.block (s := S8192x1) S512x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S8192x1.size a
  hwx0_6 : ∀ i : grid0.Coords, EltTy.bits .f32 = 32 ∨ (Rect.block (s := S8192x1) S512x1.size (cc0_transform_6 i) (hinb0_6 i)).WholeWords (EltTy.packing .f32)

variable [Facts₀]

def dot_S512x128_S512x128_S512x512_1_1_0_0_n_n : DotDims S512x128 S512x128 S512x512 where
  lhsContracting := [1]
  rhsContracting := [1]
  lhsNonContracting := [0]
  rhsNonContracting := [0]
  lhsBatch := []
  rhsBatch := []
  wf := dot_S512x128_S512x128_S512x512_1_1_0_0_n_n_wf

abbrev win0_0 : Pipeline.Window sig grid0 :=
  Pipeline.Window.ofSpec (Memref.whole main_v5) S8192x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v6) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x8192.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10_0) S512x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v10_1) S512x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S128x8192 : Shape := ⟨2, ![128, 8192]⟩
abbrev S8192x8192 : Shape := ⟨2, ![8192, 8192]⟩
abbrev S1x8192 : Shape := ⟨2, ![1, 8192]⟩

abbrev nBuf : Space → Nat
  | .hbm => 94
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192, .i32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x128, .f32⟩
  | .hbm, ⟨12, _⟩ => ⟨S8192x128, .f32⟩
  | .hbm, ⟨13, _⟩ => ⟨S128x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x1, .i32⟩
  | .hbm, ⟨19, _⟩ => ⟨S1x8192, .i32⟩
  | .hbm, ⟨20, _⟩ => ⟨S8192x8192, .i32⟩
  | .hbm, ⟨21, _⟩ => ⟨S8192x8192, .i32⟩
  | .hbm, ⟨22, _⟩ => ⟨S8192x8192, .i1⟩
  | .hbm, ⟨23, _⟩ => ⟨S8192x1, .i32⟩
  | .hbm, ⟨24, _⟩ => ⟨S1x8192, .i32⟩
  | .hbm, ⟨25, _⟩ => ⟨S8192x8192, .i32⟩
  | .hbm, ⟨26, _⟩ => ⟨S8192x8192, .i32⟩
  | .hbm, ⟨27, _⟩ => ⟨S8192x8192, .i1⟩
  | .hbm, ⟨28, _⟩ => ⟨S8192x8192, .i32⟩
  | .hbm, ⟨29, _⟩ => ⟨S8192x8192, .i32⟩
  | .hbm, ⟨30, _⟩ => ⟨S_, .i32⟩
  | .hbm, ⟨31, _⟩ => ⟨S8192x8192, .i32⟩
  | .hbm, ⟨32, _⟩ => ⟨S8192x8192, .i32⟩
  | .hbm, ⟨33, _⟩ => ⟨S8192x8192, .i1⟩
  | .hbm, ⟨34, _⟩ => ⟨S8192x8192, .i1⟩
  | .hbm, ⟨35, _⟩ => ⟨S_, .f32⟩
  | .hbm, ⟨36, _⟩ => ⟨S_, .f32⟩
  | .hbm, ⟨37, _⟩ => ⟨S8192x8192, .f32⟩
  | .hbm, ⟨38, _⟩ => ⟨S8192x8192, .f32⟩
  | .hbm, ⟨39, _⟩ => ⟨S8192x8192, .f32⟩
  | .hbm, ⟨40, _⟩ => ⟨S8192x8192, .f32⟩
  | .hbm, ⟨41, _⟩ => ⟨S8192x8192, .f32⟩
  | .hbm, ⟨42, _⟩ => ⟨S8192x8192, .f32⟩
  | .hbm, ⟨43, _⟩ => ⟨S_, .f32⟩
  | .hbm, ⟨44, _⟩ => ⟨S_, .f32⟩
  | .hbm, ⟨45, _⟩ => ⟨S8192x8192, .f32⟩
  | .hbm, ⟨46, _⟩ => ⟨S8192x8192, .f32⟩
  | .hbm, ⟨47, _⟩ => ⟨S_, .f32⟩
  | .hbm, ⟨48, _⟩ => ⟨S8192, .f32⟩
  | .hbm, ⟨49, _⟩ => ⟨S_, .f32⟩
  | .hbm, ⟨50, _⟩ => ⟨S8192, .f32⟩
  | .hbm, ⟨51, _⟩ => ⟨S8192, .f32⟩
  | .hbm, ⟨52, _⟩ => ⟨S8192x8192, .i1⟩
  | .hbm, ⟨53, _⟩ => ⟨S8192x1, .f32⟩
  | .hbm, ⟨54, _⟩ => ⟨S8192x8192, .f32⟩
  | .hbm, ⟨55, _⟩ => ⟨S8192x8192, .f32⟩
  | .hbm, ⟨56, _⟩ => ⟨S_, .f32⟩
  | .hbm, ⟨57, _⟩ => ⟨S8192x8192, .f32⟩
  | .hbm, ⟨58, _⟩ => ⟨S8192x8192, .f32⟩
  | .hbm, ⟨59, _⟩ => ⟨S8192x8192, .f32⟩
  | .hbm, ⟨60, _⟩ => ⟨S8192x8192, .i32⟩
  | .hbm, ⟨61, _⟩ => ⟨S_, .i32⟩
  | .hbm, ⟨62, _⟩ => ⟨S8192, .i32⟩
  | .hbm, ⟨63, _⟩ => ⟨S_, .f32⟩
  | .hbm, ⟨64, _⟩ => ⟨S_, .f32⟩
  | .hbm, ⟨65, _⟩ => ⟨S8192x8192, .f32⟩
  | .hbm, ⟨66, _⟩ => ⟨S8192x8192, .f32⟩
  | .hbm, ⟨67, _⟩ => ⟨S_, .f32⟩
  | .hbm, ⟨68, _⟩ => ⟨S8192, .f32⟩
  | .hbm, ⟨69, _⟩ => ⟨S_, .i32⟩
  | .hbm, ⟨70, _⟩ => ⟨S8192, .i32⟩
  | .hbm, ⟨71, _⟩ => ⟨S8192, .i32⟩
  | .hbm, ⟨72, _⟩ => ⟨S8192, .f32⟩
  | .hbm, ⟨73, _⟩ => ⟨S8192, .f32⟩
  | .hbm, ⟨74, _⟩ => ⟨S_, .i32⟩
  | .hbm, ⟨75, _⟩ => ⟨S8192, .i32⟩
  | .hbm, ⟨76, _⟩ => ⟨S8192, .i1⟩
  | .hbm, ⟨77, _⟩ => ⟨S8192, .i1⟩
  | .hbm, ⟨78, _⟩ => ⟨S8192, .i32⟩
  | .hbm, ⟨79, _⟩ => ⟨S_, .i32⟩
  | .hbm, ⟨80, _⟩ => ⟨S_, .i32⟩
  | .hbm, ⟨81, _⟩ => ⟨S_, .f32⟩
  | .hbm, ⟨82, _⟩ => ⟨S_, .f32⟩
  | .hbm, ⟨83, _⟩ => ⟨S8192, .f32⟩
  | .hbm, ⟨84, _⟩ => ⟨S8192, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .i32⟩
  | .hbm, ⟨89, _⟩ => ⟨S_, .i32⟩
  | .hbm, ⟨90, _⟩ => ⟨S_, .i32⟩
  | .hbm, ⟨91, _⟩ => ⟨S_, .i32⟩
  | .hbm, ⟨92, _⟩ => ⟨S_, .f32⟩
  | .hbm, ⟨93, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_1 : Ref sig .tc := ⟨.hbm, 35, rfl⟩
abbrev main_cst_2 : Ref sig .tc := ⟨.hbm, 36, rfl⟩
abbrev main_call1_v0 : Ref sig .tc := ⟨.hbm, 37, rfl⟩
abbrev main_call1_v1 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_call2_v0 : Ref sig .tc := ⟨.hbm, 44, rfl⟩
abbrev main_call2_v1 : Ref sig .tc := ⟨.hbm, 45, rfl⟩
abbrev main_v29 : Ref sig .tc := ⟨.hbm, 46, rfl⟩
abbrev main_cst_4 : Ref sig .tc := ⟨.hbm, 47, rfl⟩
abbrev main_v30 : Ref sig .tc := ⟨.hbm, 48, rfl⟩
abbrev main_cst_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_7 : Ref sig .tc := ⟨.hbm, 61, rfl⟩
abbrev main_v41 : Ref sig .tc := ⟨.hbm, 62, rfl⟩
abbrev main_cst_8 : Ref sig .tc := ⟨.hbm, 63, rfl⟩
abbrev main_call3_v0 : Ref sig .tc := ⟨.hbm, 64, rfl⟩
abbrev main_call3_v1 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_c_10 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_c_11 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_c_12 : Ref sig .tc := ⟨.hbm, 79, rfl⟩
abbrev main_v52 : Ref sig .tc := ⟨.hbm, 80, rfl⟩
abbrev main_cst_13 : Ref sig .tc := ⟨.hbm, 81, rfl⟩
abbrev main_call4_v0 : Ref sig .tc := ⟨.hbm, 82, rfl⟩
abbrev main_call4_v1 : Ref sig .tc := ⟨.hbm, 83, rfl⟩
abbrev main_v53 : Ref sig .tc := ⟨.hbm, 84, rfl⟩
abbrev main_cst_14 : Ref sig .tc := ⟨.hbm, 85, rfl⟩
abbrev main_v54 : Ref sig .tc := ⟨.hbm, 86, rfl⟩
abbrev main_v55 : Ref sig .tc := ⟨.hbm, 87, rfl⟩
abbrev main_c_15 : Ref sig .tc := ⟨.hbm, 88, rfl⟩
abbrev main_v56 : Ref sig .tc := ⟨.hbm, 89, rfl⟩
abbrev main_c_16 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  transposes_S8192x128_S128x8192_1_0 : S8192x128.Transposes [1, 0] S128x8192
  bcast_S_S8192x8192 : S_.BroadcastsInDim S8192x8192 (![] : Fin 0 → Fin S8192x8192.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x8192_S8192_d1 : S8192x8192.ReducesTo [1] S8192
  bcast_S_S8192 : S_.BroadcastsInDim S8192 (![] : Fin 0 → Fin S8192.rank)
  natLt_1_32 : 1 < 32
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.RefRun.lean ====
/-
  The whole-matrix program's run: every weakly fair execution of its ninety-one host operations ends, the three
  arguments unchanged, with the result buffer at the last operation's value as a function of the three arguments — the
  stage `val_main_v59`, each operation's value taken as a function of the values of the operations before it.
  The five called functions' operations address their buffers through typed references; each such buffer has, by
  computation, the type its reference carries, so the transports along those type equations are identities, and they
  are removed before the operations' results are read off the run.
-/
import proofs.«134954_j1726576853397_1_alg».proof.Proof.RefOps
import proofs.«134954_j1726576853397_1_alg».proof.Proof.RefRead

noncomputable section

namespace Cert.ReferenceIdeal.ValueP

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-! Each typed reference of the five called functions' operations has, by computation, the buffer type it carries; with these
    equations the transports along them in those operations are identities and are removed before the results are read. -/
theorem ty_main_arg0 : (main_arg0 : Ref sig .tc).ty = ⟨S8192x128, .f32⟩ := rfl
theorem ty_main_call0_v0 : (main_call0_v0 : Ref sig .tc).ty = ⟨S8192x128, .f32⟩ := rfl
theorem ty_main_call0_cst : (main_call0_cst : Ref sig .tc).ty = ⟨S_, .f32⟩ := rfl
theorem ty_main_call0_v1 : (main_call0_v1 : Ref sig .tc).ty = ⟨S8192, .f32⟩ := rfl
theorem ty_main_call0_v2 : (main_call0_v2 : Ref sig .tc).ty = ⟨S8192x1, .f32⟩ := rfl
theorem ty_main_v0 : (main_v0 : Ref sig .tc).ty = ⟨S8192x1, .f32⟩ := rfl
theorem ty_main_cst_1 : (main_cst_1 : Ref sig .tc).ty = ⟨S_, .f32⟩ := rfl
theorem ty_main_call1_v0 : (main_call1_v0 : Ref sig .tc).ty = ⟨S8192x8192, .f32⟩ := rfl
theorem ty_main_cst_2 : (main_cst_2 : Ref sig .tc).ty = ⟨S_, .f32⟩ := rfl
theorem ty_main_call1_v1 : (main_call1_v1 : Ref sig .tc).ty = ⟨S8192x8192, .f32⟩ := rfl
theorem ty_main_v18 : (main_v18 : Ref sig .tc).ty = ⟨S8192x8192, .i1⟩ := rfl
theorem ty_main_v25 : (main_v25 : Ref sig .tc).ty = ⟨S8192x8192, .f32⟩ := rfl
theorem ty_main_cst_3 : (main_cst_3 : Ref sig .tc).ty = ⟨S_, .f32⟩ := rfl
theorem ty_main_call2_v0 : (main_call2_v0 : Ref sig .tc).ty = ⟨S_, .f32⟩ := rfl
theorem ty_main_call2_v1 : (main_call2_v1 : Ref sig .tc).ty = ⟨S8192x8192, .f32⟩ := rfl
theorem ty_main_v24 : (main_v24 : Ref sig .tc).ty = ⟨S8192x8192, .i1⟩ := rfl
theorem ty_main_v28 : (main_v28 : Ref sig .tc).ty = ⟨S8192x8192, .f32⟩ := rfl
theorem ty_main_v29 : (main_v29 : Ref sig .tc).ty = ⟨S8192x8192, .f32⟩ := rfl
theorem ty_main_cst_8 : (main_cst_8 : Ref sig .tc).ty = ⟨S_, .f32⟩ := rfl
theorem ty_main_call3_v0 : (main_call3_v0 : Ref sig .tc).ty = ⟨S_, .f32⟩ := rfl
theorem ty_main_call3_v1 : (main_call3_v1 : Ref sig .tc).ty = ⟨S8192x8192, .f32⟩ := rfl
theorem ty_main_v33 : (main_v33 : Ref sig .tc).ty = ⟨S8192x8192, .i1⟩ := rfl
theorem ty_main_v39 : (main_v39 : Ref sig .tc).ty = ⟨S8192x8192, .f32⟩ := rfl
theorem ty_main_v42 : (main_v42 : Ref sig .tc).ty = ⟨S8192x8192, .f32⟩ := rfl
theorem ty_main_cst_13 : (main_cst_13 : Ref sig .tc).ty = ⟨S_, .f32⟩ := rfl
theorem ty_main_call4_v0 : (main_call4_v0 : Ref sig .tc).ty = ⟨S_, .f32⟩ := rfl
theorem ty_main_call4_v1 : (main_call4_v1 : Ref sig .tc).ty = ⟨S8192, .f32⟩ := rfl
theorem ty_main_v49 : (main_v49 : Ref sig .tc).ty = ⟨S8192, .i1⟩ := rfl
theorem ty_main_v47 : (main_v47 : Ref sig .tc).ty = ⟨S8192, .f32⟩ := rfl
theorem ty_main_v53 : (main_v53 : Ref sig .tc).ty = ⟨S8192, .f32⟩ := rfl

set_option maxRecDepth 8192 in
set_option maxHeartbeats 36400000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v59) = val_main_v59 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v59).trans (by
        dsimp only [ops, TRef.binary, TRef.unary, TRef.nullary, TRef.ternary, TRef.toBuf, TRef.ofBuf, TRef.of,
          ty_main_arg0, ty_main_call0_v0, ty_main_call0_cst, ty_main_call0_v1, ty_main_call0_v2, ty_main_v0, ty_main_cst_1, ty_main_call1_v0, ty_main_cst_2, ty_main_call1_v1, ty_main_v18, ty_main_v25, ty_main_cst_3, ty_main_call2_v0, ty_main_call2_v1, ty_main_v24, ty_main_v28, ty_main_v29, ty_main_cst_8, ty_main_call3_v0, ty_main_call3_v1, ty_main_v33, ty_main_v39, ty_main_v42, ty_main_cst_13, ty_main_call4_v0, ty_main_call4_v1, ty_main_v49, ty_main_v47, ty_main_v53, cast_eq]
        after_results_simp
        simp only [val_main_call0_v0, val_main_call0_cst, val_main_call0_v1, val_main_call0_v2, val_main_v0, val_main_cst, val_main_v1, val_main_v2, val_main_v3, val_main_v4, val_main_v5, val_main_v6, val_main_cst_0, val_main_v7, val_main_v8, val_main_v9, val_main_v10, val_main_v11, val_main_v12, val_main_v13, val_main_v14, val_main_v15, val_main_v16, val_main_v17, val_main_v18, val_main_v19, val_main_v20, val_main_c, val_main_v21, val_main_v22, val_main_v23, val_main_v24, val_main_cst_1, val_main_cst_2, val_main_call1_v0, val_main_call1_v1, val_main_v25, val_main_v26, val_main_v27, val_main_v28, val_main_cst_3, val_main_call2_v0, val_main_call2_v1, val_main_v29, val_main_cst_4, val_main_v30, val_main_cst_5, val_main_v31, val_main_v32, val_main_v33, val_main_v34, val_main_v35, val_main_v36, val_main_cst_6, val_main_v37, val_main_v38, val_main_v39, val_main_v40, val_main_c_7, val_main_v41, val_main_cst_8, val_main_call3_v0, val_main_call3_v1, val_main_v42, val_main_cst_9, val_main_v43, val_main_c_10, val_main_v44, val_main_v45, val_main_v46, val_main_v47, val_main_c_11, val_main_v48, val_main_v49, val_main_v50, val_main_v51, val_main_c_12, val_main_v52, val_main_cst_13, val_main_call4_v0, val_main_call4_v1, val_main_v53, val_main_cst_14, val_main_v54, val_main_v55, val_main_c_15, val_main_v56, val_main_c_16, val_main_v57, val_main_v58, val_main_v59]),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.ReferenceIdeal.ValueP

end
-- ==== Proof.Claims.lean ====
/-
  The three frames and the idealization's ledger.

  Each of the two kernel programs runs to the end from any memory with its arguments unchanged: the generated frame
  certificates. The reference runs to the end with its arguments unchanged: its run with the result dropped.
  The idealized kernel differs from the kernel as printed in one constant, the reciprocal temperature, at its 32
  occurrences (16 column blocks, two passes): the table gives the name `inv_temp` the exact reciprocal
  134217728/9395241 of the value 9395241/2^27 that the reference's single-precision word for 0.07 denotes, and each
  occurrence's statement is that table entry.
-/
import proofs.«134954_j1726576853397_1_alg».proof.Defs
import proofs.«134954_j1726576853397_1_alg».proof.Proof.Gen.Kernel.Frame
import proofs.«134954_j1726576853397_1_alg».proof.Proof.Gen.KernelIdeal.Frame
import proofs.«134954_j1726576853397_1_alg».proof.Proof.Gen.ReferenceIdeal
import proofs.«134954_j1726576853397_1_alg».proof.Proof.Gen.Pre_finite_inputs
import proofs.«134954_j1726576853397_1_alg».proof.Proof.RefRun

noncomputable section

namespace Cert.Proof.Claims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- One occurrence's statement: the table's entry for the reciprocal temperature. -/
theorem inv_temp_entry : IdealRules.named_const.Statement Cert.KernelIdeal.κ "inv_temp" .f32 0x41649249#32 ((134217728 / 9395241 : ℝ) : EReal) :=
  IdealRules.named_const.statement Cert.KernelIdeal.κ "inv_temp" .f32 0x41649249#32 ((134217728 / 9395241 : ℝ) : EReal) rfl

theorem preserves : Cert.preserves_Kernel_KernelIdeal :=
  ⟨inv_temp_entry, inv_temp_entry, inv_temp_entry, inv_temp_entry, inv_temp_entry, inv_temp_entry, inv_temp_entry, inv_temp_entry, inv_temp_entry, inv_temp_entry, inv_temp_entry, inv_temp_entry, inv_temp_entry, inv_temp_entry, inv_temp_entry, inv_temp_entry, inv_temp_entry, inv_temp_entry, inv_temp_entry, inv_temp_entry, inv_temp_entry, inv_temp_entry, inv_temp_entry, inv_temp_entry, inv_temp_entry, inv_temp_entry, inv_temp_entry, inv_temp_entry, inv_temp_entry, inv_temp_entry, inv_temp_entry, inv_temp_entry⟩

end Cert.Proof.Claims

end
-- ==== Proof.LibBlockSum.lean ====
/-
  Sums over array indices, re-indexed through coordinates.

  A rank-3 (rank-4) index set is the product of its coordinate ranges, so a sum over it is the iterated sum over the
  coordinates; and an axis of extent `T * B` cut into `T` blocks of `B` is summed block by block. Together these turn
  "the total over a whole array" into "the total, over the blocks that tile its leading axis, of each block's total" — the
  equation between a reference's one reduction over an array and a kernel's accumulation over a grid of row blocks.
-/
import Idealize.ShloMosaic.Lib.ValueIdx

noncomputable section

open scoped BigOperators

namespace Idealize.ShloMosaic.ValueIdx

open Idealize.ShloMosaic

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl
/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- Row `b` of block `t`, of `T` blocks of `B` rows: row `t * B + b` of the whole. -/
def blockRow {T B : Nat} (t : Fin T) (b : Fin B) : Fin (T * B) :=
  ⟨t.val * B + b.val, by
    have ht := t.isLt; have hb := b.isLt
    calc t.val * B + b.val < t.val * B + B := by omega
      _ = (t.val + 1) * B := by ring
      _ ≤ T * B := Nat.mul_le_mul_right B ht⟩

theorem blockRow_val {T B : Nat} (t : Fin T) (b : Fin B) : (blockRow t b).val = t.val * B + b.val := rfl

/-- The rows of an axis of extent `T * B` are the rows of its `T` blocks: a bijection. -/
def blockRowEquiv (T B : Nat) : Fin T × Fin B ≃ Fin (T * B) where
  toFun p := blockRow p.1 p.2
  invFun r := (⟨r.val / B, by
      have hr := r.isLt
      rcases Nat.eq_zero_or_pos B with hB | hB
      · subst hB; simp at hr
      · exact (Nat.div_lt_iff_lt_mul hB).mpr hr⟩,
    ⟨r.val % B, by
      have hr := r.isLt
      rcases Nat.eq_zero_or_pos B with hB | hB
      · subst hB; simp at hr
      · exact Nat.mod_lt _ hB⟩)
  left_inv p := by
    obtain ⟨t, b⟩ := p
    have hb := b.isLt
    have hB : 0 < B := by omega
    refine Prod.ext (Fin.ext ?_) (Fin.ext ?_)
    · show (t.val * B + b.val) / B = t.val
      rw [Nat.add_comm, Nat.add_mul_div_right _ _ hB, Nat.div_eq_of_lt hb, Nat.zero_add]
    · show (t.val * B + b.val) % B = b.val
      rw [Nat.add_comm, Nat.add_mul_mod_self_right, Nat.mod_eq_of_lt hb]
  right_inv r := by
    apply Fin.ext
    show r.val / B * B + r.val % B = r.val
    rw [Nat.mul_comm]; exact Nat.div_add_mod r.val B

/-- A sum over an axis of extent `T * B` is the sum over its `T` blocks of the sum over each block's `B` rows. -/
theorem sum_blockRows {M : Type*} [AddCommMonoid M] (T B : Nat) (f : Fin (T * B) → M) :
    ∑ r, f r = ∑ t : Fin T, ∑ b : Fin B, f (blockRow t b) := by
  rw [← Equiv.sum_comp (blockRowEquiv T B) f, Fintype.sum_prod_type]
  rfl

end Idealize.ShloMosaic.ValueIdx

end
-- ==== Proof.Spec.lean ====
/-
  The supervised contrastive loss with equal in-domain and out-of-domain weights, row by row, on the extended reals.

  For a feature matrix `X` (8192 rows of 128 entries) and a label per row, pair `(r, j)` has the similarity
  `⟨X r, X j⟩ / T` with the temperature `T` the exact value of the single-precision word for 0.07, and the weighted
  exponential `w r j = ½ · exp (⟨X r, X j⟩ · (1/T))` (both domain weights are `½`, so the domain labels do not enter).
  Row `r` has
    * the denominator `den r = (Σ_{j ≠ r} w r j) + ε`,
    * over its positives `j ≠ r, label j = label r` the sum `Σ log (w r j / den r + ε)`,
    * and the number of its positives.
  The loss divides each row's sum by `max (count, 1)`, keeps the rows with a positive, sums, negates and divides by
  `8192 − #{rows without a positive} + 1`.

  Two facts about sums carry the comparison of a blocked evaluation with a whole-row one: a sum over 8192 columns is the
  sum over 16 blocks of 512 of the blocks' sums, accumulated from zero in any association (addition of extended reals
  is a commutative monoid: no finiteness is needed); and a sum of ones over a set is the set's cardinality.
-/
import Idealize.ShloMosaic.PureOps.Ideal
import Idealize.ShloMosaic.Lib.ValueIdx
import proofs.«134954_j1726576853397_1_alg».proof.Proof.LibBlockSum

noncomputable section

open scoped BigOperators

namespace Cert.Contrast

open Idealize.ShloMosaic Idealize.ShloMosaic.ValueIdx

/-- The feature matrix's shape and the label vector's. -/
abbrev SX : Shape := ⟨2, ![8192, 128]⟩
abbrev SL : Shape := ⟨1, ![8192]⟩

/-- `1/T`: the reciprocal of the exact rational that the single-precision word for 0.07 denotes, 9395241/2^27. -/
def invT : EReal := ((134217728 / 9395241 : ℝ) : EReal)
/-- The weight `½` and the guard `ε`, as the words both programs carry. -/
def half : EReal := Ideal.ofBits .f32 0x3F000000#32
def eps : EReal := Ideal.ofBits .f32 0x3727C5AC#32

/-- `⟨X r, X j⟩`. -/
def dot (X : SX.Idx → EReal) (r j : Fin 8192) : EReal := ∑ k : Fin 128, X (ix2 r k) * X (ix2 j k)

/-- `w r j = ½ · exp (⟨X r, X j⟩ / T)`. -/
def w (X : SX.Idx → EReal) (r j : Fin 8192) : EReal := half * Ideal.exp (dot X r j * invT)

/-- Column `j` counts against row `r` in the denominator: every column but the row's own. -/
def den (X : SX.Idx → EReal) (r : Fin 8192) : EReal := (∑ j : Fin 8192, if r ≠ j then w X r j else 0) + eps

/-- `j` is a positive of `r`: another row with the same label. -/
def IsPos (lab : SL.Idx → BitVec 32) (r j : Fin 8192) : Prop := lab (ix1 r) = lab (ix1 j) ∧ r ≠ j

instance (lab : SL.Idx → BitVec 32) (r j : Fin 8192) : Decidable (IsPos lab r j) := by unfold IsPos; infer_instance

/-- The row's sum of log-fractions over its positives. -/
def logSum (X : SX.Idx → EReal) (lab : SL.Idx → BitVec 32) (r : Fin 8192) : EReal :=
  ∑ j : Fin 8192, if IsPos lab r j then Ideal.log (Ideal.div (w X r j) (den X r) + eps) else 0

/-- The number of the row's positives. -/
def numPos (lab : SL.Idx → BitVec 32) (r : Fin 8192) : ℕ := (Finset.univ.filter fun j => IsPos lab r j).card

theorem numPos_le (lab : SL.Idx → BitVec 32) (r : Fin 8192) : numPos lab r ≤ 8192 := by
  unfold numPos
  exact (Finset.card_le_univ _).trans (by simp)

/-- A sum of ones over the columns that satisfy a condition is the number of those columns. -/
theorem sum_ones {ι : Type} [Fintype ι] (p : ι → Prop) [DecidablePred p] :
    (∑ j : ι, if p j then (1 : EReal) else 0) = (((Finset.univ.filter p).card : ℕ) : EReal) := by
  rw [Finset.sum_ite, Finset.sum_const_zero, add_zero, Finset.sum_const, nsmul_one]

/-- A function of the 8192 columns continued by zero to all naturals: a block's sum is then written with the block's
    first column as a plain number. -/
def ext (f : Fin 8192 → EReal) (n : ℕ) : EReal := if h : n < 8192 then f ⟨n, h⟩ else 0

theorem ext_of_lt (f : Fin 8192 → EReal) {n : ℕ} (h : n < 8192) : ext f n = f ⟨n, h⟩ := dif_pos h

/-- The sum over the 512 columns of the block that starts at column `o`. -/
def blockSum (f : Fin 8192 → EReal) (o : ℕ) : EReal := ∑ q : Fin 512, ext f (o + q.val)

/-- The whole row is its sixteen blocks. -/
theorem sum_blocks (f : Fin 8192 → EReal) : (∑ j : Fin 8192, f j) = ∑ n ∈ Finset.range 16, blockSum f (n * 512) := by
  rw [show (∑ j : Fin 8192, f j) = ∑ r : Fin (16 * 512), f r from rfl, sum_blockRows (M := EReal) 16 512 f,
    ← Fin.sum_univ_eq_sum_range (fun n => blockSum f (n * 512)) 16]
  refine Finset.sum_congr rfl fun t _ => Finset.sum_congr rfl fun b _ => ?_
  have hlt : t.val * 512 + b.val < 8192 := by have := t.isLt; have := b.isLt; omega
  rw [ext_of_lt f hlt]
  rfl

/-- Sixteen block sums accumulated one after the other from a start value are the start value plus the whole sum. -/
theorem acc16 (a : EReal) (f : Fin 8192 → EReal) :
    a + blockSum f 0 + blockSum f 512 + blockSum f 1024 + blockSum f 1536 + blockSum f 2048 + blockSum f 2560
      + blockSum f 3072 + blockSum f 3584 + blockSum f 4096 + blockSum f 4608 + blockSum f 5120 + blockSum f 5632
      + blockSum f 6144 + blockSum f 6656 + blockSum f 7168 + blockSum f 7680
      = a + ∑ j : Fin 8192, f j := by
  rw [sum_blocks f]
  simp only [Finset.sum_range_succ, Finset.sum_range_zero, zero_add, Nat.reduceMul, ← add_assoc]

/-- The rows' losses, `logSum r / max (count r, 1)`, and which rows have a positive, as arrays over the rows. -/
def lossVec (X : SX.Idx → EReal) (lab : SL.Idx → BitVec 32) : SL.Idx → EReal :=
  fun i => Ideal.div (logSum X lab (i 0)) (max ((numPos lab (i 0) : ℕ) : EReal) 1)

def validVec (lab : SL.Idx → BitVec 32) : SL.Idx → BitVec 1 :=
  fun i => if 0 < numPos lab (i 0) then 1#1 else 0#1

end Cert.Contrast

end
-- ==== Proof.LibKeepdims.lean ====
/-
  A sum along the rows of a matrix, kept as a column and spread back over the columns, read at an index.

  `jnp.sum(x, axis=-1, keepdims=True) + y` for an `[a, b]` matrix `x` and an `[a, c]` matrix `y` is three vector
  operations: a reduction `[a, b] → [a]` over the last axis, a cast `[a] → [a, 1]` that makes the sums a column, and
  a broadcast `[a, 1] → [a, c]` that repeats the column along every row.  Read at `(i, j)` the three compose to
  `Σ_f x[i, f]`: the result does not depend on `j`.  The three lemmas below read one operation each at an index
  written by its coordinates, for any extents `a`, `b`, `c` and any element type.
-/
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- A vector `[a]` cast to a column `[a, 1]` reads, at `(i, u)`, the vector at `i`, whatever the unit coordinate
    `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, c]` reads, at `(i, j)`, the column's entry of row `i`. -/
theorem broadcastTo_a1_ac_apply {a c : ℕ} (v : (⟨2, ![a, 1]⟩ : Shape).Idx → α) (h : (⟨2, ![a, 1]⟩ : Shape).Broadcasts ⟨2, ![a, c]⟩)
    (i : Fin a) (j : Fin c) : broadcastTo ⟨2, ![a, c]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show 0 = if (1 : ℕ) = 1 then 0 else j.val
    rw [if_pos rfl]

/-- On the extended reals a float sum over the last axis of an `[a, b]` matrix reads, at row `i`, the sum of that
    row's entries: the index over `i` with coordinate `f` put back on the summed axis is `(i, f)`. -/
theorem multiReduction_add_lastAxis_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ f : Fin b, src (ix2 i f) := by
  refine (Ideal.multiReduction_add_single src acc h hφ hacc (ix1 i)).trans ?_
  exact Finset.sum_congr rfl fun f _ => congrArg src (funext fun d => Fin.ext (by
    match d with
    | ⟨0, _⟩ => rfl
    | ⟨1, _⟩ => rfl))

/-- The three composed: the row sums of `x`, kept as a column and broadcast to `c` columns, read `Σ_f x[i, f]` at
    every `(i, j)`. -/
theorem rowSum_keepdims_broadcast_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (hb : (⟨2, ![a, 1]⟩ : Shape).Broadcasts ⟨2, ![a, c]⟩)
    (i : Fin a) (j : Fin c) :
    broadcastTo ⟨2, ![a, c]⟩ (shapeCast ⟨2, ![a, 1]⟩ (multiReduction .add [1] ⟨1, ![a]⟩ src acc h hφ hacc) hc) hb (ix2 i j)
      = ∑ f : Fin b, src (ix2 i f) :=
  (broadcastTo_a1_ac_apply _ hb i j).trans
    ((shapeCast_a_a1_apply _ hc i 0).trans (multiReduction_add_lastAxis_apply src acc h hφ hacc i))

end Cert.LibKeepdims

end
-- ==== Proof.LibIndexReads.lean ====
/-
  Vector and layout operations read at an index, for any extents.

  Each lemma names the one entry of the operand that an operation's result holds at a given entry, the indices written
  by their coordinates:
    * the logistic function, lane by lane;
    * a matrix product [M, K] × [N, K] with the right operand contracted on its LAST axis, into the zero accumulator:
      entry (r, e) is Σ_k lhs[r, k] · rhs[e, k];
    * a float sum over the LEADING axis of an [a, b, c] array: entry (i, j) is Σ_f src[f, i, j];
    * an array [1, b, c] broadcast along its unit axis to [a, b, c];
    * a matrix reshaped to a matrix, an [a, b, 1, 1] tensor flattened to a matrix, a vector folded into a matrix: the entry
      with the same row-major position;
    * the transpose with permutation [2, 3, 0, 1] of a rank-4 tensor: the two leading axes swapped with the two
      trailing ones.
-/
import Idealize.ShloMosaic.Lib.ValueLayout
import Idealize.ShloMosaic.Lib.Pipeline.Value
import Idealize.ShloMosaic.PureOps.Ideal.Laws

noncomputable section

open scoped BigOperators

namespace Cert.LibIndexReads

open Idealize.ShloMosaic Idealize.ShloMosaic.ValueIdx

variable {α : Type}

/-- The logistic function applied lane by lane. -/
theorem logistic_apply {s : Shape} {φ : FTy} (x : FVec Ideal s φ) (i : s.Idx) : logistic x i = Ideal.logistic (x i) := rfl

/-- Entry (r, e) of an [M, K] × [N, K] product contracted on both last axes, into the zero accumulator, is
    Σ_k lhs[r, k] · rhs[e, k]. -/
theorem matmul_transposedRhs_zero_apply {M K N : ℕ} {φ₁ φ₂ : FTy} (d : DotDims ⟨2, ![M, K]⟩ ⟨2, ![N, K]⟩ ⟨2, ![M, N]⟩)
    (hd : d = DotDims.transposedRhs M K N) (prec : Option ContractPrecision)
    (lhs : FVec Ideal ⟨2, ![M, K]⟩ φ₁) (rhs : FVec Ideal ⟨2, ![N, K]⟩ φ₂) (r : Fin M) (e : Fin N) :
    FloatOps.matmul d prec lhs rhs (constant ⟨2, ![M, N]⟩ .f32 0x00000000#32) (ix2 r e)
      = ∑ k : Fin K, lhs (ix2 r k) * rhs (ix2 e k) := by
  subst hd
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 r e) ((contrEquiv1 (DotDims.transposedRhs M K N) K rfl rfl).symm k) = ix2 r k :=
    funext fun a => Fin.ext (by
      match a with
      | ⟨0, _⟩ => rfl
      | ⟨1, _⟩ => exact hk)
  have er : (DotDims.transposedRhs M K N).rhsIdx (ix2 r e) ((contrEquiv1 (DotDims.transposedRhs M K N) K rfl rfl).symm k) = ix2 e k :=
    funext fun a => Fin.ext (by
      match a with
      | ⟨0, _⟩ => rfl
      | ⟨1, _⟩ => exact hk)
  rw [el, er]

/-- A float sum over the leading axis of an [a, b, c] array reads, at (i, j), the sum over f of the entries (f, i, j). -/
theorem multiReduction_add_axis0_apply {a b c : ℕ} {φ : FTy} (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (i : Fin b) (j : Fin c) :
    multiReduction .add [0] ⟨2, ![b, c]⟩ src acc h hφ hacc (ix2 i j) = ∑ f : Fin a, src (ix3 f i j) := by
  refine (Ideal.multiReduction_add_single src acc h hφ hacc (ix2 i j)).trans ?_
  exact Finset.sum_congr rfl fun f _ => congrArg src (funext fun d => Fin.ext (by
    match d with
    | ⟨0, _⟩ => rfl
    | ⟨1, _⟩ => rfl
    | ⟨2, _⟩ => rfl))

/-- A [1, b, c] array broadcast to [a, b, c] reads, at (p, i, j), the operand's one slab at (i, j). -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (i : Fin b) (j : Fin c) :
    broadcastTo ⟨3, ![a, b, c]⟩ v h (ix3 p i j) = v (ix3 (0 : Fin 1) i j) := by
  refine broadcastTo_apply v h (ix3 p i j) (ix3 (0 : Fin 1) i j) fun ax => ?_
  match ax with
  | ⟨0, _⟩ => rfl
  | ⟨1, _⟩ =>
    show i.val = if b = 1 then 0 else i.val
    split
    · have := i.isLt; omega
    · rfl
  | ⟨2, _⟩ =>
    show j.val = if c = 1 then 0 else j.val
    split
    · have := j.isLt; omega
    · rfl

/-- An [r, l] matrix reshaped to [s, c] reads, at (i, j), the operand at the entry with the same row-major position. -/
theorem shapeCast_matrix_apply {r l s c : ℕ} (x : (⟨2, ![r, l]⟩ : Shape).Idx → α)
    (h : (⟨2, ![r, l]⟩ : Shape).ShapeCasts ⟨2, ![s, c]⟩) (i : Fin s) (j : Fin c) (i' : Fin r) (j' : Fin l)
    (hk : i'.val * l + j'.val = i.val * c + j.val) :
    shapeCast ⟨2, ![s, c]⟩ x h (ix2 i j) = x (ix2 i' j') :=
  shapeCast_apply x h _ _ (by
    rw [Shape.rowMajor_val_two, Shape.rowMajor_val_two]
    exact hk)

/-- An [a, b, 1, 1] tensor reshaped to a matrix reads, at an entry whose row-major position is s·b + k, entry (s, k, 0, 0). -/
theorem shapeCast_ab11_matrix_apply {a b r l : ℕ} (x : (⟨4, ![a, b, 1, 1]⟩ : Shape).Idx → α)
    (h : (⟨4, ![a, b, 1, 1]⟩ : Shape).ShapeCasts ⟨2, ![r, l]⟩) (i : Fin r) (j : Fin l) (s : Fin a) (k : Fin b)
    (hk : s.val * b + k.val = i.val * l + j.val) :
    shapeCast ⟨2, ![r, l]⟩ x h (ix2 i j) = x (ix4 s k (0 : Fin 1) (0 : Fin 1)) :=
  shapeCast_apply x h _ _ (by
    rw [Shape.rowMajor_val_four, Shape.rowMajor_val_two]
    show ((s.val * b + k.val) * 1 + 0) * 1 + 0 = i.val * l + j.val
    omega)

/-- A vector folded into a matrix reads, at an entry whose row-major position is k, entry k. -/
theorem shapeCast_vec_matrix_apply {a r l : ℕ} (x : (⟨1, ![a]⟩ : Shape).Idx → α)
    (h : (⟨1, ![a]⟩ : Shape).ShapeCasts ⟨2, ![r, l]⟩) (i : Fin r) (j : Fin l) (k : Fin a)
    (hk : k.val = i.val * l + j.val) :
    shapeCast ⟨2, ![r, l]⟩ x h (ix2 i j) = x (ix1 k) :=
  shapeCast_apply x h _ _ (by
    rw [Shape.rowMajor_val_one, Shape.rowMajor_val_two]
    exact hk)

/-- The transpose with permutation [2, 3, 0, 1] of an [a, b, c, d] tensor reads, at (i, j, n, k), entry (n, k, i, j). -/
theorem transpose_2301_apply {a b c d : ℕ} (x : (⟨4, ![a, b, c, d]⟩ : Shape).Idx → α)
    (h : (⟨4, ![a, b, c, d]⟩ : Shape).Transposes [2, 3, 0, 1] ⟨4, ![c, d, a, b]⟩)
    (i : Fin c) (j : Fin d) (n : Fin a) (k : Fin b) :
    transpose ⟨4, ![c, d, a, b]⟩ [2, 3, 0, 1] x h (ix4 i j n k) = x (ix4 n k i j) :=
  transpose_apply _ x h _ _ (fun e => by
    match e with
    | ⟨0, _⟩ => rfl
    | ⟨1, _⟩ => rfl
    | ⟨2, _⟩ => rfl
    | ⟨3, _⟩ => rfl)

end Cert.LibIndexReads

end
-- ==== Proof.KInputs.lean ====
/-
  What the region finds in its input arrays.

  Before the region the program normalizes the features — each row of the 8192 × 128 matrix is divided by the larger
  of its Euclidean norm and 1e-12 — and lays the label vector out twice, as a column [8192, 1] and as a row [1, 8192].
  The normalization is named as one function `featK` of the feature matrix (the change of float format that follows it
  is the identity on the extended reals); the column's entry of row r and the row's entry of column j are the label
  vector's entries r and j.
-/
import proofs.«134954_j1726576853397_1_alg».proof.Proof.Gen.KernelIdeal.Frame
import proofs.«134954_j1726576853397_1_alg».proof.Proof.Spec
import proofs.«134954_j1726576853397_1_alg».proof.Proof.LibKeepdims
import proofs.«134954_j1726576853397_1_alg».proof.Proof.LibIndexReads
import Idealize.ShloMosaic.Lib.IdealHost

set_option maxRecDepth 16384

noncomputable section

namespace Cert.KernelIdeal.KValue

open Cert.Contrast Cert.KernelIdeal Cert.KernelIdeal.Gen Idealize.ShloMosaic Idealize.ShloMosaic.TcCoe Idealize.ShloMosaic.ValueIdx Idealize.SL.Sem

/-- The normalized features as ONE function of the features: x / max(‖x‖ per row, 1e-12), the norm the square root of
    the row's sum of squares (summed from zero), kept as a column and spread over the 128 entries of the row. -/
def featK (x0 : (⟨S8192x128, .f32⟩ : BufTy).Contents (Elt Ideal)) : (⟨S8192x128, .f32⟩ : BufTy).Contents (Elt Ideal) :=
  Host.divf (F := Ideal) x0
    (broadcastInDim S8192x128 ![0, 1] bcast_S8192x1_S8192x128_0_1
      (maximumf
        (Host.sqrt (F := Ideal)
          (broadcastInDim S8192x1 ![0] bcast_S8192_S8192x1_0
            (Host.reduceAdd (F := Ideal) (mulf x0 x0) (constant (F := Ideal) S_ .f32 0x00000000#32) reducesTo_S8192x128_S8192_d1 h_S_)))
        (broadcastInDim S8192x1 ![] bcast_S_S8192x1 (constant (F := Ideal) S_ .f32 0x2B8CBCCC#32))))

variable (m : (ℓ : Loc nD τ sig) → Buf (Elt Ideal) ℓ)

/-- The feature window's array is the normalized features, narrowed to the shorter float format. -/
theorem V_v5 (c : Dev nD) :
    (V m c main_v5 : FVec Ideal S8192x128 .bf16)
      = (truncf .bf16 (featK (m ((c.tc : Thread nD τ).loc main_arg0))) bitsLt_bf16_f32 : FVec Ideal S8192x128 .bf16) := by
  dsimp only [Gen.V, Gen.V0]
  simp only [Gen.hostOps0, Gen.hostOps0_1, List.flatten_cons, List.flatten_nil, List.append_nil, List.cons_append, List.nil_append]
  after_results
  rfl

/-- Entry by entry it is the normalized features: narrowing the format changes no extended real. -/
theorem V_v5_apply (c : Dev nD) (j : S8192x128.Idx) :
    (V m c main_v5 : FVec Ideal S8192x128 .bf16) j = featK (m ((c.tc : Thread nD τ).loc main_arg0)) j :=
  congrFun (V_v5 m c) j

/-- The row-label window's array is the label vector reshaped to a column. -/
theorem V_v6 (c : Dev nD) :
    (V m c main_v6 : S8192x1.Idx → BitVec 32)
      = shapeCast S8192x1 (m ((c.tc : Thread nD τ).loc main_arg1)) shapeCasts_S8192_S8192x1 := by
  dsimp only [Gen.V, Gen.V0]
  simp only [Gen.hostOps0, Gen.hostOps0_1, List.flatten_cons, List.flatten_nil, List.append_nil, List.cons_append, List.nil_append]
  after_results
  rfl

/-- The column's entry of row `r` is the label of row `r`. -/
theorem V_v6_apply (c : Dev nD) (r : Fin 8192) (u : Fin 1) :
    (V m c main_v6 : S8192x1.Idx → BitVec 32) (ix2 r u) = m ((c.tc : Thread nD τ).loc main_arg1) (ix1 r) := by
  rw [V_v6 m c]
  exact Cert.LibKeepdims.shapeCast_a_a1_apply _ shapeCasts_S8192_S8192x1 r u

/-- The column-label window's array is the label vector reshaped to a row. -/
theorem V_v7 (c : Dev nD) :
    (V m c main_v7 : S1x8192.Idx → BitVec 32)
      = shapeCast S1x8192 (m ((c.tc : Thread nD τ).loc main_arg1)) shapeCasts_S8192_S1x8192 := by
  dsimp only [Gen.V, Gen.V0]
  simp only [Gen.hostOps0, Gen.hostOps0_1, List.flatten_cons, List.flatten_nil, List.append_nil, List.cons_append, List.nil_append]
  after_results
  rfl

/-- The row's entry of column `j` is the label of row `j`. -/
theorem V_v7_apply (c : Dev nD) (u : Fin 1) (j : Fin 8192) :
    (V m c main_v7 : S1x8192.Idx → BitVec 32) (ix2 u j) = m ((c.tc : Thread nD τ).loc main_arg1) (ix1 j) := by
  rw [V_v7 m c]
  exact Cert.LibIndexReads.shapeCast_vec_matrix_apply _ shapeCasts_S8192_S1x8192 u j j (by have := u.isLt; omega)

end Cert.KernelIdeal.KValue

end
-- ==== Proof.BodyChunk.lean ====
/-
  One block of 512 columns of the contrastive kernel, for the 512 rows of a tile: the block's weighted exponentials
  `½·exp(⟨row, column⟩/T)`, the row sums of those off the diagonal (the block's share of the denominator), the
  per-row count of same-label off-diagonal columns, and the per-row sum of the log-fractions over those columns.
  Each is first written as the vector operations compute it, for any float instance; then read at a row on the
  extended reals, where a row's lane sum is a finite sum, a matrix product into zero is the sum over the contracted
  axis, a mask's select is an if-then-else on the condition the mask's bit states, and the two equal weights make the
  domain mask irrelevant.
-/
import proofs.«134954_j1726576853397_1_alg».proof.Proof.Gen.KernelIdeal
import proofs.«134954_j1726576853397_1_alg».proof.Proof.Spec
import proofs.«134954_j1726576853397_1_alg».proof.Proof.LibKeepdims
import proofs.«134954_j1726576853397_1_alg».proof.Proof.LibIndexReads
import Idealize.ShloMosaic.Lib.ValueLayout
import Idealize.ShloMosaic.Lib.Pipeline.Value
import Idealize.ShloMosaic.Lib.Affine
import Idealize.ShloMosaic.PureOps.IdealRules
import Idealize.ShloMosaic.PureOps.Ideal.Laws
import Idealize.ShloMosaic.Lib.IdealHost

set_option maxRecDepth 16384

noncomputable section

open scoped BigOperators

namespace Cert.KernelIdeal.Body

open Idealize.ShloMosaic Idealize.ShloMosaic.TcCoe Idealize.ShloMosaic.ValueIdx Idealize.SL.Sem Cert.KernelIdeal Cert.KernelIdeal.Gen Cert.Contrast

section Defs
variable {F : FTy → Type} [FloatOps F] [Named F]

/-- The block's column numbers: the block's first column plus the lane. -/
def colIds (o : BitVec 32) : IVec S1x512 32 := addi (broadcast S1x512 o) (iota .tc S1x512 32 [1] iota_S1x512_d1_w32)

/-- Which (row, column) pairs of the block carry the same word in the row's and the column's entry. -/
def sameWord (rw : IVec S512x1 32) (cw : Vec F S1x512 .i32) : IVec S512x512 1 :=
  cmpi .eq (broadcastTo S512x512 rw broadcasts_S512x1_S512x512) (broadcastTo S512x512 (shapeCast S1x512 cw shapeCasts_S1x512_S1x512) broadcasts_S1x512_S512x512)

/-- Which pairs are off the diagonal: the row's number differs from the column's. -/
def offDiag (rowI : IVec S512x1 32) (o : BitVec 32) : IVec S512x512 1 :=
  cmpi .ne (broadcastTo S512x512 rowI broadcasts_S512x1_S512x512) (broadcastTo S512x512 (colIds o) broadcasts_S1x512_S512x512)

/-- The block's weighted exponentials. -/
def wChunk (fr : FVec F S512x128 .bf16) (rowD : IVec S512x1 32) (fc : Vec F S512x128 .bf16) (cd : Vec F S1x512 .i32) : FVec F S512x512 .f32 :=
  mulf (select (sameWord rowD cd) (broadcast S512x512 (Scalar.ofBits (F := F) .f32 0x3F000000#32)) (broadcast S512x512 (Scalar.ofBits (F := F) .f32 0x3F000000#32)))
    (exp (mulf (matmul dot_S512x128_S512x128_S512x512_1_1_0_0_n_n none fr (shapeCast S512x128 fc shapeCasts_S512x128_S512x128) (constant S512x512 .f32 0x00000000#32))
      (broadcast S512x512 (Named.named (F := F) κ "inv_temp" 0x41649249#32))))

/-- A [512,512] array's row sums as a column. -/
def rowSums (x : FVec F S512x512 .f32) : FVec F S512x1 .f32 :=
  shapeCast S512x1 (multiReduction .add [1] S512 x 0x00000000#32 reduces_S512x512_S512 (.inl rfl) rfl) shapeCasts_S512_S512x1

/-- The block's share of each row's denominator. -/
def denChunk (fr : FVec F S512x128 .bf16) (rowD rowI : IVec S512x1 32) (fc : Vec F S512x128 .bf16) (cd : Vec F S1x512 .i32) (o : BitVec 32) : FVec F S512x1 .f32 :=
  rowSums (select (offDiag rowI o) (wChunk fr rowD fc cd) (broadcast S512x512 (Scalar.ofBits (F := F) .f32 0x00000000#32)))

/-- The block's share of each row's count of positives. -/
def cntChunk (rowL rowI : IVec S512x1 32) (cl : Vec F S1x512 .i32) (o : BitVec 32) : FVec F S512x1 .f32 :=
  rowSums (select (andi (sameWord rowL cl) (offDiag rowI o))
    (broadcast S512x512 (Scalar.ofBits (F := F) .f32 0x3F800000#32)) (broadcast S512x512 (Scalar.ofBits (F := F) .f32 0x00000000#32)))

/-- The block's share of each row's sum of log-fractions, the row's denominator given. -/
def logChunk (fr : FVec F S512x128 .bf16) (rowL rowD rowI : IVec S512x1 32) (den : FVec F S512x1 .f32)
    (fc : Vec F S512x128 .bf16) (cl cd : Vec F S1x512 .i32) (o : BitVec 32) : FVec F S512x1 .f32 :=
  rowSums (select (andi (sameWord rowL cl) (offDiag rowI o))
    (log (addf (divf (wChunk fr rowD fc cd) (broadcastTo S512x512 den broadcasts_S512x1_S512x512)) (broadcast S512x512 (Scalar.ofBits (F := F) .f32 0x3727C5AC#32))))
    (broadcast S512x512 (Scalar.ofBits (F := F) .f32 0x00000000#32)))

end Defs

section Reads

/-- A select between two equal values does not depend on its bit. -/
theorem select_same {α : Type} (c : BitVec 1) (a : α) : Scalar.select c a a = a := by
  unfold Scalar.select; exact ite_self a

/-- A select on a bit that states a proposition is the if-then-else on the proposition. -/
theorem select_of_iff {α : Type} {c : BitVec 1} {P : Prop} [Decidable P] (h : c = 1#1 ↔ P) (a b : α) :
    Scalar.select c a b = if P then a else b := by
  by_cases hP : P
  · have hc : c = 1#1 := h.mpr hP
    subst hc; rw [select_one, if_pos hP]
  · have hc : c = 0#1 := eq_zero_of_ne_one (fun hc => hP (h.mp hc))
    subst hc; rw [select_zero, if_neg hP]

/-- The exponential and the logarithm lane by lane. -/
theorem exp_apply' {s : Shape} {φ : FTy} (x : FVec Ideal s φ) (i : s.Idx) : exp x i = Ideal.exp (x i) := rfl
theorem log_apply' {s : Shape} {φ : FTy} (x : FVec Ideal s φ) (i : s.Idx) : log x i = Ideal.log (x i) := rfl

/-- The same-word mask's bit at (p, q): the row's word is the column's. -/
theorem sameWord_apply (rw : IVec S512x1 32) (cw : Vec Ideal S1x512 .i32) (p q : Fin 512) :
    sameWord (F := Ideal) rw cw (ix2 p q) = 1#1 ↔ rw (ix2 p (0 : Fin 1)) = cw (ix2 (0 : Fin 1) q) := by
  unfold sameWord
  show IntOp.cmpi .eq (broadcastTo S512x512 rw broadcasts_S512x1_S512x512 (ix2 p q))
    (broadcastTo S512x512 (shapeCast S1x512 cw shapeCasts_S1x512_S1x512) broadcasts_S1x512_S512x512 (ix2 p q)) = 1#1 ↔ _
  rw [IntOp.cmpi_eq, Cert.LibKeepdims.broadcastTo_a1_ac_apply, broadcastTo_1b_ab_apply, shapeCast_self]

/-- The block's column numbers at lane q. -/
theorem colIds_apply (o : BitVec 32) (q : Fin 512) : colIds o (ix2 (0 : Fin 1) q) = o + BitVec.ofNat 32 q.val := by
  unfold colIds
  show IntOp.addi (broadcast S1x512 o (ix2 (0 : Fin 1) q)) (iota .tc S1x512 32 [1] iota_S1x512_d1_w32 (ix2 (0 : Fin 1) q)) = _
  rw [iota_single_apply]
  rfl

/-- The off-diagonal mask's bit at (p, q): the row's number is not the column's. -/
theorem offDiag_apply (rowI : IVec S512x1 32) (o : BitVec 32) (p q : Fin 512) :
    offDiag rowI o (ix2 p q) = 1#1 ↔ rowI (ix2 p (0 : Fin 1)) ≠ o + BitVec.ofNat 32 q.val := by
  unfold offDiag
  show IntOp.cmpi .ne (broadcastTo S512x512 rowI broadcasts_S512x1_S512x512 (ix2 p q))
    (broadcastTo S512x512 (colIds o) broadcasts_S1x512_S512x512 (ix2 p q)) = 1#1 ↔ _
  rw [IntOp.cmpi_ne, Cert.LibKeepdims.broadcastTo_a1_ac_apply, broadcastTo_1b_ab_apply, colIds_apply]

/-- Row p of the row sums of a [512,512] array of extended reals. -/
theorem rowSums_apply (x : FVec Ideal S512x512 .f32) (p : Fin 512) :
    rowSums (F := Ideal) x (ix2 p (0 : Fin 1)) = ∑ q : Fin 512, x (ix2 p q) := by
  unfold rowSums
  exact (Cert.LibKeepdims.shapeCast_a_a1_apply _ _ p 0).trans (Cert.LibKeepdims.multiReduction_add_lastAxis_apply x _ _ _ _ p)

/-- The block's weighted exponential at (p, q): half the exponential of the two rows' inner product over the temperature. -/
theorem wChunk_apply (fr : FVec Ideal S512x128 .bf16) (rowD : IVec S512x1 32) (fc : Vec Ideal S512x128 .bf16) (cd : Vec Ideal S1x512 .i32)
    (p q : Fin 512) :
    wChunk (F := Ideal) fr rowD fc cd (ix2 p q) = half * Ideal.exp ((∑ k : Fin 128, fr (ix2 p k) * fc (ix2 q k)) * invT) := by
  unfold wChunk matmul
  rw [mulf_apply, select_apply, broadcast_apply, select_same, shapeCast_self, exp_apply', mulf_apply, broadcast_apply,
    Cert.LibIndexReads.matmul_transposedRhs_zero_apply dot_S512x128_S512x128_S512x512_1_1_0_0_n_n rfl none fr fc p q,
    IdealRules.named_const.ideal_named_scalar κ "inv_temp" (φ := .f32) 0x41649249#32 invT rfl]
  rfl

/-- The block's share of row p's denominator. -/
theorem denChunk_apply (fr : FVec Ideal S512x128 .bf16) (rowD rowI : IVec S512x1 32) (fc : Vec Ideal S512x128 .bf16) (cd : Vec Ideal S1x512 .i32)
    (o : BitVec 32) (p : Fin 512) :
    denChunk (F := Ideal) fr rowD rowI fc cd o (ix2 p (0 : Fin 1))
      = ∑ q : Fin 512, if rowI (ix2 p (0 : Fin 1)) ≠ o + BitVec.ofNat 32 q.val
          then half * Ideal.exp ((∑ k : Fin 128, fr (ix2 p k) * fc (ix2 q k)) * invT) else 0 := by
  unfold denChunk
  rw [rowSums_apply]
  refine Finset.sum_congr rfl fun q _ => ?_
  rw [select_apply, select_of_iff (offDiag_apply rowI o p q), wChunk_apply, broadcast_apply]
  rw [show Scalar.ofBits (F := Ideal) .f32 0x00000000#32 = (0 : EReal) from Ideal.ofBits_zero_f32]

/-- The block's share of row p's count of positives. -/
theorem cntChunk_apply (rowL rowI : IVec S512x1 32) (cl : Vec Ideal S1x512 .i32) (o : BitVec 32) (p : Fin 512) :
    cntChunk (F := Ideal) rowL rowI cl o (ix2 p (0 : Fin 1))
      = ∑ q : Fin 512, if rowL (ix2 p (0 : Fin 1)) = cl (ix2 (0 : Fin 1) q) ∧ rowI (ix2 p (0 : Fin 1)) ≠ o + BitVec.ofNat 32 q.val
          then (1 : EReal) else 0 := by
  unfold cntChunk
  rw [rowSums_apply]
  refine Finset.sum_congr rfl fun q _ => ?_
  have hbit : andi (sameWord (F := Ideal) rowL cl) (offDiag rowI o) (ix2 p q) = 1#1
      ↔ rowL (ix2 p (0 : Fin 1)) = cl (ix2 (0 : Fin 1) q) ∧ rowI (ix2 p (0 : Fin 1)) ≠ o + BitVec.ofNat 32 q.val := by
    show IntOp.andi _ _ = 1#1 ↔ _
    rw [IntOp.andi_eq_one, sameWord_apply, offDiag_apply]
  rw [select_apply, select_of_iff hbit, broadcast_apply, broadcast_apply]
  rw [show Scalar.ofBits (F := Ideal) .f32 0x00000000#32 = (0 : EReal) from Ideal.ofBits_zero_f32,
    show Scalar.ofBits (F := Ideal) .f32 0x3F800000#32 = (1 : EReal) from Ideal.ofBits_one_f32]

/-- The block's share of row p's sum of log-fractions. -/
theorem logChunk_apply (fr : FVec Ideal S512x128 .bf16) (rowL rowD rowI : IVec S512x1 32) (den : FVec Ideal S512x1 .f32)
    (fc : Vec Ideal S512x128 .bf16) (cl cd : Vec Ideal S1x512 .i32) (o : BitVec 32) (p : Fin 512) :
    logChunk (F := Ideal) fr rowL rowD rowI den fc cl cd o (ix2 p (0 : Fin 1))
      = ∑ q : Fin 512, if rowL (ix2 p (0 : Fin 1)) = cl (ix2 (0 : Fin 1) q) ∧ rowI (ix2 p (0 : Fin 1)) ≠ o + BitVec.ofNat 32 q.val
          then Ideal.log (Ideal.div (half * Ideal.exp ((∑ k : Fin 128, fr (ix2 p k) * fc (ix2 q k)) * invT)) (den (ix2 p (0 : Fin 1))) + eps)
          else 0 := by
  unfold logChunk
  rw [rowSums_apply]
  refine Finset.sum_congr rfl fun q _ => ?_
  have hbit : andi (sameWord (F := Ideal) rowL cl) (offDiag rowI o) (ix2 p q) = 1#1
      ↔ rowL (ix2 p (0 : Fin 1)) = cl (ix2 (0 : Fin 1) q) ∧ rowI (ix2 p (0 : Fin 1)) ≠ o + BitVec.ofNat 32 q.val := by
    show IntOp.andi _ _ = 1#1 ↔ _
    rw [IntOp.andi_eq_one, sameWord_apply, offDiag_apply]
  rw [select_apply, select_of_iff hbit, broadcast_apply]
  rw [show Scalar.ofBits (F := Ideal) .f32 0x00000000#32 = (0 : EReal) from Ideal.ofBits_zero_f32]
  rw [log_apply', addf_apply, divf_apply, broadcast_apply, wChunk_apply, Cert.LibKeepdims.broadcastTo_a1_ac_apply]
  rfl

end Reads

end Cert.KernelIdeal.Body

end
-- ==== Proof.BodyRegular.lean ====
/-
  The tile's body as sixteen blocks. The rows of the tile: their features (the 512 rows of the feature matrix from row
  `512·i` on), their labels and domain words (the row blocks), their row numbers. Over the sixteen column blocks at
  columns 0, 512, …, 7680 the body accumulates from zero, block after block: the denominator (to which the guard `ε`
  is then added), the count of positives, and — the denominator known — the sum of log-fractions. The terms that one
  run of the body finds in its two output blocks are these accumulations, spelt as the vector operations compute them.
-/
import proofs.«134954_j1726576853397_1_alg».proof.Proof.Gen.KernelIdeal.Frame
import proofs.«134954_j1726576853397_1_alg».proof.Proof.BodyChunk

set_option maxRecDepth 65536

noncomputable section

namespace Cert.KernelIdeal.Body

open Idealize.ShloMosaic Idealize.ShloMosaic.TcCoe Idealize.SL.Sem Cert.KernelIdeal Cert.KernelIdeal.Gen

variable {F : FTy → Type} [FloatOps F] [Named F]

/-- The tile's rows of the feature matrix. -/
def rowF (i : grid0.Coords) (arg1 : Memref sig .tc .vmem S8192x128 .bf16) (harg1 : arg1.IsWhole) (x0 : Vec F S8192x128 .bf16) : FVec F S512x128 .bf16 :=
  shapeCast S512x128 (View.readAt (Elt F) arg1.view (Rect.unit (s := S8192x128) (k0_off1 i) S512x128.size (k0_off1_inb i)).toLoadRect (harg1.unread x0)) shapeCasts_S512x128_S512x128

/-- A row block of words (the tile's labels, or its domain words). -/
def rowW (arg : Memref sig .tc .vmem S512x1 .i32) (harg : arg.IsWhole) (x : Vec F S512x1 .i32) : IVec S512x1 32 :=
  shapeCast S512x1 (View.readAt (Elt F) arg.view (Rect.unit (s := S512x1) ![0, 0] S512x1.size inb_S512x1_S512x1_0_0).toLoadRect (harg.unread x)) shapeCasts_S512x1_S512x1

/-- The tile's row numbers: `512·i` plus the sublane. -/
def rowIds (i : grid0.Coords) : IVec S512x1 32 :=
  addi (broadcast S512x1 (Scalar.muli (BitVec.ofNat 32 (i 0).val) 512#32)) (iota .tc S512x1 32 [0] iota_S512x1_d0_w32)

/-- The rows' denominators: the sixteen blocks' shares accumulated from zero, plus the guard. -/
def den16 (i : grid0.Coords) (arg1 : Memref sig .tc .vmem S8192x128 .bf16) (harg1 : arg1.IsWhole) (arg4 : Memref sig .tc .vmem S512x1 .i32) (harg4 : arg4.IsWhole) (arg5 : Memref sig .tc .vmem S1x8192 .i32) (harg5 : arg5.IsWhole)
    (x0 : Vec F S8192x128 .bf16) (x3 : Vec F S512x1 .i32) (x4 : Vec F S1x8192 .i32) : FVec F S512x1 .f32 :=
  addf (addf (addf (addf (addf (addf (addf (addf (addf (addf (addf (addf (addf (addf (addf (addf (addf (broadcast S512x1 (Scalar.ofBits (F := F) .f32 0x00000000#32))
    (denChunk (rowF i arg1 harg1 x0) (rowW arg4 harg4 x3) (rowIds i) (View.readAt (Elt F) arg1.view (Rect.unit (s := S8192x128) ![0, 0] S512x128.size inb_S8192x128_S512x128_0_0).toLoadRect (harg1.unread x0)) (View.readAt (Elt F) arg5.view (Rect.unit (s := S1x8192) ![0, 0] S1x512.size inb_S1x8192_S1x512_0_0).toLoadRect (harg5.unread x4)) 0#32))
    (denChunk (rowF i arg1 harg1 x0) (rowW arg4 harg4 x3) (rowIds i) (View.readAt (Elt F) arg1.view (Rect.unit (s := S8192x128) ![512, 0] S512x128.size inb_S8192x128_S512x128_512_0).toLoadRect (harg1.unread x0)) (View.readAt (Elt F) arg5.view (Rect.unit (s := S1x8192) ![0, 512] S1x512.size inb_S1x8192_S1x512_0_512).toLoadRect (harg5.unread x4)) 512#32))
    (denChunk (rowF i arg1 harg1 x0) (rowW arg4 harg4 x3) (rowIds i) (View.readAt (Elt F) arg1.view (Rect.unit (s := S8192x128) ![1024, 0] S512x128.size inb_S8192x128_S512x128_1024_0).toLoadRect (harg1.unread x0)) (View.readAt (Elt F) arg5.view (Rect.unit (s := S1x8192) ![0, 1024] S1x512.size inb_S1x8192_S1x512_0_1024).toLoadRect (harg5.unread x4)) 1024#32))
    (denChunk (rowF i arg1 harg1 x0) (rowW arg4 harg4 x3) (rowIds i) (View.readAt (Elt F) arg1.view (Rect.unit (s := S8192x128) ![1536, 0] S512x128.size inb_S8192x128_S512x128_1536_0).toLoadRect (harg1.unread x0)) (View.readAt (Elt F) arg5.view (Rect.unit (s := S1x8192) ![0, 1536] S1x512.size inb_S1x8192_S1x512_0_1536).toLoadRect (harg5.unread x4)) 1536#32))
    (denChunk (rowF i arg1 harg1 x0) (rowW arg4 harg4 x3) (rowIds i) (View.readAt (Elt F) arg1.view (Rect.unit (s := S8192x128) ![2048, 0] S512x128.size inb_S8192x128_S512x128_2048_0).toLoadRect (harg1.unread x0)) (View.readAt (Elt F) arg5.view (Rect.unit (s := S1x8192) ![0, 2048] S1x512.size inb_S1x8192_S1x512_0_2048).toLoadRect (harg5.unread x4)) 2048#32))
    (denChunk (rowF i arg1 harg1 x0) (rowW arg4 harg4 x3) (rowIds i) (View.readAt (Elt F) arg1.view (Rect.unit (s := S8192x128) ![2560, 0] S512x128.size inb_S8192x128_S512x128_2560_0).toLoadRect (harg1.unread x0)) (View.readAt (Elt F) arg5.view (Rect.unit (s := S1x8192) ![0, 2560] S1x512.size inb_S1x8192_S1x512_0_2560).toLoadRect (harg5.unread x4)) 2560#32))
    (denChunk (rowF i arg1 harg1 x0) (rowW arg4 harg4 x3) (rowIds i) (View.readAt (Elt F) arg1.view (Rect.unit (s := S8192x128) ![3072, 0] S512x128.size inb_S8192x128_S512x128_3072_0).toLoadRect (harg1.unread x0)) (View.readAt (Elt F) arg5.view (Rect.unit (s := S1x8192) ![0, 3072] S1x512.size inb_S1x8192_S1x512_0_3072).toLoadRect (harg5.unread x4)) 3072#32))
    (denChunk (rowF i arg1 harg1 x0) (rowW arg4 harg4 x3) (rowIds i) (View.readAt (Elt F) arg1.view (Rect.unit (s := S8192x128) ![3584, 0] S512x128.size inb_S8192x128_S512x128_3584_0).toLoadRect (harg1.unread x0)) (View.readAt (Elt F) arg5.view (Rect.unit (s := S1x8192) ![0, 3584] S1x512.size inb_S1x8192_S1x512_0_3584).toLoadRect (harg5.unread x4)) 3584#32))
    (denChunk (rowF i arg1 harg1 x0) (rowW arg4 harg4 x3) (rowIds i) (View.readAt (Elt F) arg1.view (Rect.unit (s := S8192x128) ![4096, 0] S512x128.size inb_S8192x128_S512x128_4096_0).toLoadRect (harg1.unread x0)) (View.readAt (Elt F) arg5.view (Rect.unit (s := S1x8192) ![0, 4096] S1x512.size inb_S1x8192_S1x512_0_4096).toLoadRect (harg5.unread x4)) 4096#32))
    (denChunk (rowF i arg1 harg1 x0) (rowW arg4 harg4 x3) (rowIds i) (View.readAt (Elt F) arg1.view (Rect.unit (s := S8192x128) ![4608, 0] S512x128.size inb_S8192x128_S512x128_4608_0).toLoadRect (harg1.unread x0)) (View.readAt (Elt F) arg5.view (Rect.unit (s := S1x8192) ![0, 4608] S1x512.size inb_S1x8192_S1x512_0_4608).toLoadRect (harg5.unread x4)) 4608#32))
    (denChunk (rowF i arg1 harg1 x0) (rowW arg4 harg4 x3) (rowIds i) (View.readAt (Elt F) arg1.view (Rect.unit (s := S8192x128) ![5120, 0] S512x128.size inb_S8192x128_S512x128_5120_0).toLoadRect (harg1.unread x0)) (View.readAt (Elt F) arg5.view (Rect.unit (s := S1x8192) ![0, 5120] S1x512.size inb_S1x8192_S1x512_0_5120).toLoadRect (harg5.unread x4)) 5120#32))
    (denChunk (rowF i arg1 harg1 x0) (rowW arg4 harg4 x3) (rowIds i) (View.readAt (Elt F) arg1.view (Rect.unit (s := S8192x128) ![5632, 0] S512x128.size inb_S8192x128_S512x128_5632_0).toLoadRect (harg1.unread x0)) (View.readAt (Elt F) arg5.view (Rect.unit (s := S1x8192) ![0, 5632] S1x512.size inb_S1x8192_S1x512_0_5632).toLoadRect (harg5.unread x4)) 5632#32))
    (denChunk (rowF i arg1 harg1 x0) (rowW arg4 harg4 x3) (rowIds i) (View.readAt (Elt F) arg1.view (Rect.unit (s := S8192x128) ![6144, 0] S512x128.size inb_S8192x128_S512x128_6144_0).toLoadRect (harg1.unread x0)) (View.readAt (Elt F) arg5.view (Rect.unit (s := S1x8192) ![0, 6144] S1x512.size inb_S1x8192_S1x512_0_6144).toLoadRect (harg5.unread x4)) 6144#32))
    (denChunk (rowF i arg1 harg1 x0) (rowW arg4 harg4 x3) (rowIds i) (View.readAt (Elt F) arg1.view (Rect.unit (s := S8192x128) ![6656, 0] S512x128.size inb_S8192x128_S512x128_6656_0).toLoadRect (harg1.unread x0)) (View.readAt (Elt F) arg5.view (Rect.unit (s := S1x8192) ![0, 6656] S1x512.size inb_S1x8192_S1x512_0_6656).toLoadRect (harg5.unread x4)) 6656#32))
    (denChunk (rowF i arg1 harg1 x0) (rowW arg4 harg4 x3) (rowIds i) (View.readAt (Elt F) arg1.view (Rect.unit (s := S8192x128) ![7168, 0] S512x128.size inb_S8192x128_S512x128_7168_0).toLoadRect (harg1.unread x0)) (View.readAt (Elt F) arg5.view (Rect.unit (s := S1x8192) ![0, 7168] S1x512.size inb_S1x8192_S1x512_0_7168).toLoadRect (harg5.unread x4)) 7168#32))
    (denChunk (rowF i arg1 harg1 x0) (rowW arg4 harg4 x3) (rowIds i) (View.readAt (Elt F) arg1.view (Rect.unit (s := S8192x128) ![7680, 0] S512x128.size inb_S8192x128_S512x128_7680_0).toLoadRect (harg1.unread x0)) (View.readAt (Elt F) arg5.view (Rect.unit (s := S1x8192) ![0, 7680] S1x512.size inb_S1x8192_S1x512_0_7680).toLoadRect (harg5.unread x4)) 7680#32))
    (broadcast S512x1 (Scalar.ofBits (F := F) .f32 0x3727C5AC#32))

/-- The rows' counts of positives: the sixteen blocks' shares accumulated from zero. -/
def cnt16 (i : grid0.Coords) (arg2 : Memref sig .tc .vmem S512x1 .i32) (harg2 : arg2.IsWhole) (arg3 : Memref sig .tc .vmem S1x8192 .i32) (harg3 : arg3.IsWhole)
    (x1 : Vec F S512x1 .i32) (x2 : Vec F S1x8192 .i32) : FVec F S512x1 .f32 :=
  (addf (addf (addf (addf (addf (addf (addf (addf (addf (addf (addf (addf (addf (addf (addf (addf (broadcast S512x1 (Scalar.ofBits (F := F) .f32 0x00000000#32))
    (cntChunk (rowW arg2 harg2 x1) (rowIds i) (View.readAt (Elt F) arg3.view (Rect.unit (s := S1x8192) ![0, 0] S1x512.size inb_S1x8192_S1x512_0_0).toLoadRect (harg3.unread x2)) 0#32))
    (cntChunk (rowW arg2 harg2 x1) (rowIds i) (View.readAt (Elt F) arg3.view (Rect.unit (s := S1x8192) ![0, 512] S1x512.size inb_S1x8192_S1x512_0_512).toLoadRect (harg3.unread x2)) 512#32))
    (cntChunk (rowW arg2 harg2 x1) (rowIds i) (View.readAt (Elt F) arg3.view (Rect.unit (s := S1x8192) ![0, 1024] S1x512.size inb_S1x8192_S1x512_0_1024).toLoadRect (harg3.unread x2)) 1024#32))
    (cntChunk (rowW arg2 harg2 x1) (rowIds i) (View.readAt (Elt F) arg3.view (Rect.unit (s := S1x8192) ![0, 1536] S1x512.size inb_S1x8192_S1x512_0_1536).toLoadRect (harg3.unread x2)) 1536#32))
    (cntChunk (rowW arg2 harg2 x1) (rowIds i) (View.readAt (Elt F) arg3.view (Rect.unit (s := S1x8192) ![0, 2048] S1x512.size inb_S1x8192_S1x512_0_2048).toLoadRect (harg3.unread x2)) 2048#32))
    (cntChunk (rowW arg2 harg2 x1) (rowIds i) (View.readAt (Elt F) arg3.view (Rect.unit (s := S1x8192) ![0, 2560] S1x512.size inb_S1x8192_S1x512_0_2560).toLoadRect (harg3.unread x2)) 2560#32))
    (cntChunk (rowW arg2 harg2 x1) (rowIds i) (View.readAt (Elt F) arg3.view (Rect.unit (s := S1x8192) ![0, 3072] S1x512.size inb_S1x8192_S1x512_0_3072).toLoadRect (harg3.unread x2)) 3072#32))
    (cntChunk (rowW arg2 harg2 x1) (rowIds i) (View.readAt (Elt F) arg3.view (Rect.unit (s := S1x8192) ![0, 3584] S1x512.size inb_S1x8192_S1x512_0_3584).toLoadRect (harg3.unread x2)) 3584#32))
    (cntChunk (rowW arg2 harg2 x1) (rowIds i) (View.readAt (Elt F) arg3.view (Rect.unit (s := S1x8192) ![0, 4096] S1x512.size inb_S1x8192_S1x512_0_4096).toLoadRect (harg3.unread x2)) 4096#32))
    (cntChunk (rowW arg2 harg2 x1) (rowIds i) (View.readAt (Elt F) arg3.view (Rect.unit (s := S1x8192) ![0, 4608] S1x512.size inb_S1x8192_S1x512_0_4608).toLoadRect (harg3.unread x2)) 4608#32))
    (cntChunk (rowW arg2 harg2 x1) (rowIds i) (View.readAt (Elt F) arg3.view (Rect.unit (s := S1x8192) ![0, 5120] S1x512.size inb_S1x8192_S1x512_0_5120).toLoadRect (harg3.unread x2)) 5120#32))
    (cntChunk (rowW arg2 harg2 x1) (rowIds i) (View.readAt (Elt F) arg3.view (Rect.unit (s := S1x8192) ![0, 5632] S1x512.size inb_S1x8192_S1x512_0_5632).toLoadRect (harg3.unread x2)) 5632#32))
    (cntChunk (rowW arg2 harg2 x1) (rowIds i) (View.readAt (Elt F) arg3.view (Rect.unit (s := S1x8192) ![0, 6144] S1x512.size inb_S1x8192_S1x512_0_6144).toLoadRect (harg3.unread x2)) 6144#32))
    (cntChunk (rowW arg2 harg2 x1) (rowIds i) (View.readAt (Elt F) arg3.view (Rect.unit (s := S1x8192) ![0, 6656] S1x512.size inb_S1x8192_S1x512_0_6656).toLoadRect (harg3.unread x2)) 6656#32))
    (cntChunk (rowW arg2 harg2 x1) (rowIds i) (View.readAt (Elt F) arg3.view (Rect.unit (s := S1x8192) ![0, 7168] S1x512.size inb_S1x8192_S1x512_0_7168).toLoadRect (harg3.unread x2)) 7168#32))
    (cntChunk (rowW arg2 harg2 x1) (rowIds i) (View.readAt (Elt F) arg3.view (Rect.unit (s := S1x8192) ![0, 7680] S1x512.size inb_S1x8192_S1x512_0_7680).toLoadRect (harg3.unread x2)) 7680#32))

/-- The rows' sums of log-fractions: the sixteen blocks' shares accumulated from zero. -/
def log16 (i : grid0.Coords) (arg1 : Memref sig .tc .vmem S8192x128 .bf16) (harg1 : arg1.IsWhole) (arg2 : Memref sig .tc .vmem S512x1 .i32) (harg2 : arg2.IsWhole) (arg3 : Memref sig .tc .vmem S1x8192 .i32) (harg3 : arg3.IsWhole) (arg4 : Memref sig .tc .vmem S512x1 .i32) (harg4 : arg4.IsWhole) (arg5 : Memref sig .tc .vmem S1x8192 .i32) (harg5 : arg5.IsWhole)
    (x0 : Vec F S8192x128 .bf16) (x1 : Vec F S512x1 .i32) (x2 : Vec F S1x8192 .i32) (x3 : Vec F S512x1 .i32) (x4 : Vec F S1x8192 .i32) : FVec F S512x1 .f32 :=
  (addf (addf (addf (addf (addf (addf (addf (addf (addf (addf (addf (addf (addf (addf (addf (addf (broadcast S512x1 (Scalar.ofBits (F := F) .f32 0x00000000#32))
    (logChunk (rowF i arg1 harg1 x0) (rowW arg2 harg2 x1) (rowW arg4 harg4 x3) (rowIds i) (den16 i arg1 harg1 arg4 harg4 arg5 harg5 x0 x3 x4) (View.readAt (Elt F) arg1.view (Rect.unit (s := S8192x128) ![0, 0] S512x128.size inb_S8192x128_S512x128_0_0).toLoadRect (harg1.unread x0)) (View.readAt (Elt F) arg3.view (Rect.unit (s := S1x8192) ![0, 0] S1x512.size inb_S1x8192_S1x512_0_0).toLoadRect (harg3.unread x2)) (View.readAt (Elt F) arg5.view (Rect.unit (s := S1x8192) ![0, 0] S1x512.size inb_S1x8192_S1x512_0_0).toLoadRect (harg5.unread x4)) 0#32))
    (logChunk (rowF i arg1 harg1 x0) (rowW arg2 harg2 x1) (rowW arg4 harg4 x3) (rowIds i) (den16 i arg1 harg1 arg4 harg4 arg5 harg5 x0 x3 x4) (View.readAt (Elt F) arg1.view (Rect.unit (s := S8192x128) ![512, 0] S512x128.size inb_S8192x128_S512x128_512_0).toLoadRect (harg1.unread x0)) (View.readAt (Elt F) arg3.view (Rect.unit (s := S1x8192) ![0, 512] S1x512.size inb_S1x8192_S1x512_0_512).toLoadRect (harg3.unread x2)) (View.readAt (Elt F) arg5.view (Rect.unit (s := S1x8192) ![0, 512] S1x512.size inb_S1x8192_S1x512_0_512).toLoadRect (harg5.unread x4)) 512#32))
    (logChunk (rowF i arg1 harg1 x0) (rowW arg2 harg2 x1) (rowW arg4 harg4 x3) (rowIds i) (den16 i arg1 harg1 arg4 harg4 arg5 harg5 x0 x3 x4) (View.readAt (Elt F) arg1.view (Rect.unit (s := S8192x128) ![1024, 0] S512x128.size inb_S8192x128_S512x128_1024_0).toLoadRect (harg1.unread x0)) (View.readAt (Elt F) arg3.view (Rect.unit (s := S1x8192) ![0, 1024] S1x512.size inb_S1x8192_S1x512_0_1024).toLoadRect (harg3.unread x2)) (View.readAt (Elt F) arg5.view (Rect.unit (s := S1x8192) ![0, 1024] S1x512.size inb_S1x8192_S1x512_0_1024).toLoadRect (harg5.unread x4)) 1024#32))
    (logChunk (rowF i arg1 harg1 x0) (rowW arg2 harg2 x1) (rowW arg4 harg4 x3) (rowIds i) (den16 i arg1 harg1 arg4 harg4 arg5 harg5 x0 x3 x4) (View.readAt (Elt F) arg1.view (Rect.unit (s := S8192x128) ![1536, 0] S512x128.size inb_S8192x128_S512x128_1536_0).toLoadRect (harg1.unread x0)) (View.readAt (Elt F) arg3.view (Rect.unit (s := S1x8192) ![0, 1536] S1x512.size inb_S1x8192_S1x512_0_1536).toLoadRect (harg3.unread x2)) (View.readAt (Elt F) arg5.view (Rect.unit (s := S1x8192) ![0, 1536] S1x512.size inb_S1x8192_S1x512_0_1536).toLoadRect (harg5.unread x4)) 1536#32))
    (logChunk (rowF i arg1 harg1 x0) (rowW arg2 harg2 x1) (rowW arg4 harg4 x3) (rowIds i) (den16 i arg1 harg1 arg4 harg4 arg5 harg5 x0 x3 x4) (View.readAt (Elt F) arg1.view (Rect.unit (s := S8192x128) ![2048, 0] S512x128.size inb_S8192x128_S512x128_2048_0).toLoadRect (harg1.unread x0)) (View.readAt (Elt F) arg3.view (Rect.unit (s := S1x8192) ![0, 2048] S1x512.size inb_S1x8192_S1x512_0_2048).toLoadRect (harg3.unread x2)) (View.readAt (Elt F) arg5.view (Rect.unit (s := S1x8192) ![0, 2048] S1x512.size inb_S1x8192_S1x512_0_2048).toLoadRect (harg5.unread x4)) 2048#32))
    (logChunk (rowF i arg1 harg1 x0) (rowW arg2 harg2 x1) (rowW arg4 harg4 x3) (rowIds i) (den16 i arg1 harg1 arg4 harg4 arg5 harg5 x0 x3 x4) (View.readAt (Elt F) arg1.view (Rect.unit (s := S8192x128) ![2560, 0] S512x128.size inb_S8192x128_S512x128_2560_0).toLoadRect (harg1.unread x0)) (View.readAt (Elt F) arg3.view (Rect.unit (s := S1x8192) ![0, 2560] S1x512.size inb_S1x8192_S1x512_0_2560).toLoadRect (harg3.unread x2)) (View.readAt (Elt F) arg5.view (Rect.unit (s := S1x8192) ![0, 2560] S1x512.size inb_S1x8192_S1x512_0_2560).toLoadRect (harg5.unread x4)) 2560#32))
    (logChunk (rowF i arg1 harg1 x0) (rowW arg2 harg2 x1) (rowW arg4 harg4 x3) (rowIds i) (den16 i arg1 harg1 arg4 harg4 arg5 harg5 x0 x3 x4) (View.readAt (Elt F) arg1.view (Rect.unit (s := S8192x128) ![3072, 0] S512x128.size inb_S8192x128_S512x128_3072_0).toLoadRect (harg1.unread x0)) (View.readAt (Elt F) arg3.view (Rect.unit (s := S1x8192) ![0, 3072] S1x512.size inb_S1x8192_S1x512_0_3072).toLoadRect (harg3.unread x2)) (View.readAt (Elt F) arg5.view (Rect.unit (s := S1x8192) ![0, 3072] S1x512.size inb_S1x8192_S1x512_0_3072).toLoadRect (harg5.unread x4)) 3072#32))
    (logChunk (rowF i arg1 harg1 x0) (rowW arg2 harg2 x1) (rowW arg4 harg4 x3) (rowIds i) (den16 i arg1 harg1 arg4 harg4 arg5 harg5 x0 x3 x4) (View.readAt (Elt F) arg1.view (Rect.unit (s := S8192x128) ![3584, 0] S512x128.size inb_S8192x128_S512x128_3584_0).toLoadRect (harg1.unread x0)) (View.readAt (Elt F) arg3.view (Rect.unit (s := S1x8192) ![0, 3584] S1x512.size inb_S1x8192_S1x512_0_3584).toLoadRect (harg3.unread x2)) (View.readAt (Elt F) arg5.view (Rect.unit (s := S1x8192) ![0, 3584] S1x512.size inb_S1x8192_S1x512_0_3584).toLoadRect (harg5.unread x4)) 3584#32))
    (logChunk (rowF i arg1 harg1 x0) (rowW arg2 harg2 x1) (rowW arg4 harg4 x3) (rowIds i) (den16 i arg1 harg1 arg4 harg4 arg5 harg5 x0 x3 x4) (View.readAt (Elt F) arg1.view (Rect.unit (s := S8192x128) ![4096, 0] S512x128.size inb_S8192x128_S512x128_4096_0).toLoadRect (harg1.unread x0)) (View.readAt (Elt F) arg3.view (Rect.unit (s := S1x8192) ![0, 4096] S1x512.size inb_S1x8192_S1x512_0_4096).toLoadRect (harg3.unread x2)) (View.readAt (Elt F) arg5.view (Rect.unit (s := S1x8192) ![0, 4096] S1x512.size inb_S1x8192_S1x512_0_4096).toLoadRect (harg5.unread x4)) 4096#32))
    (logChunk (rowF i arg1 harg1 x0) (rowW arg2 harg2 x1) (rowW arg4 harg4 x3) (rowIds i) (den16 i arg1 harg1 arg4 harg4 arg5 harg5 x0 x3 x4) (View.readAt (Elt F) arg1.view (Rect.unit (s := S8192x128) ![4608, 0] S512x128.size inb_S8192x128_S512x128_4608_0).toLoadRect (harg1.unread x0)) (View.readAt (Elt F) arg3.view (Rect.unit (s := S1x8192) ![0, 4608] S1x512.size inb_S1x8192_S1x512_0_4608).toLoadRect (harg3.unread x2)) (View.readAt (Elt F) arg5.view (Rect.unit (s := S1x8192) ![0, 4608] S1x512.size inb_S1x8192_S1x512_0_4608).toLoadRect (harg5.unread x4)) 4608#32))
    (logChunk (rowF i arg1 harg1 x0) (rowW arg2 harg2 x1) (rowW arg4 harg4 x3) (rowIds i) (den16 i arg1 harg1 arg4 harg4 arg5 harg5 x0 x3 x4) (View.readAt (Elt F) arg1.view (Rect.unit (s := S8192x128) ![5120, 0] S512x128.size inb_S8192x128_S512x128_5120_0).toLoadRect (harg1.unread x0)) (View.readAt (Elt F) arg3.view (Rect.unit (s := S1x8192) ![0, 5120] S1x512.size inb_S1x8192_S1x512_0_5120).toLoadRect (harg3.unread x2)) (View.readAt (Elt F) arg5.view (Rect.unit (s := S1x8192) ![0, 5120] S1x512.size inb_S1x8192_S1x512_0_5120).toLoadRect (harg5.unread x4)) 5120#32))
    (logChunk (rowF i arg1 harg1 x0) (rowW arg2 harg2 x1) (rowW arg4 harg4 x3) (rowIds i) (den16 i arg1 harg1 arg4 harg4 arg5 harg5 x0 x3 x4) (View.readAt (Elt F) arg1.view (Rect.unit (s := S8192x128) ![5632, 0] S512x128.size inb_S8192x128_S512x128_5632_0).toLoadRect (harg1.unread x0)) (View.readAt (Elt F) arg3.view (Rect.unit (s := S1x8192) ![0, 5632] S1x512.size inb_S1x8192_S1x512_0_5632).toLoadRect (harg3.unread x2)) (View.readAt (Elt F) arg5.view (Rect.unit (s := S1x8192) ![0, 5632] S1x512.size inb_S1x8192_S1x512_0_5632).toLoadRect (harg5.unread x4)) 5632#32))
    (logChunk (rowF i arg1 harg1 x0) (rowW arg2 harg2 x1) (rowW arg4 harg4 x3) (rowIds i) (den16 i arg1 harg1 arg4 harg4 arg5 harg5 x0 x3 x4) (View.readAt (Elt F) arg1.view (Rect.unit (s := S8192x128) ![6144, 0] S512x128.size inb_S8192x128_S512x128_6144_0).toLoadRect (harg1.unread x0)) (View.readAt (Elt F) arg3.view (Rect.unit (s := S1x8192) ![0, 6144] S1x512.size inb_S1x8192_S1x512_0_6144).toLoadRect (harg3.unread x2)) (View.readAt (Elt F) arg5.view (Rect.unit (s := S1x8192) ![0, 6144] S1x512.size inb_S1x8192_S1x512_0_6144).toLoadRect (harg5.unread x4)) 6144#32))
    (logChunk (rowF i arg1 harg1 x0) (rowW arg2 harg2 x1) (rowW arg4 harg4 x3) (rowIds i) (den16 i arg1 harg1 arg4 harg4 arg5 harg5 x0 x3 x4) (View.readAt (Elt F) arg1.view (Rect.unit (s := S8192x128) ![6656, 0] S512x128.size inb_S8192x128_S512x128_6656_0).toLoadRect (harg1.unread x0)) (View.readAt (Elt F) arg3.view (Rect.unit (s := S1x8192) ![0, 6656] S1x512.size inb_S1x8192_S1x512_0_6656).toLoadRect (harg3.unread x2)) (View.readAt (Elt F) arg5.view (Rect.unit (s := S1x8192) ![0, 6656] S1x512.size inb_S1x8192_S1x512_0_6656).toLoadRect (harg5.unread x4)) 6656#32))
    (logChunk (rowF i arg1 harg1 x0) (rowW arg2 harg2 x1) (rowW arg4 harg4 x3) (rowIds i) (den16 i arg1 harg1 arg4 harg4 arg5 harg5 x0 x3 x4) (View.readAt (Elt F) arg1.view (Rect.unit (s := S8192x128) ![7168, 0] S512x128.size inb_S8192x128_S512x128_7168_0).toLoadRect (harg1.unread x0)) (View.readAt (Elt F) arg3.view (Rect.unit (s := S1x8192) ![0, 7168] S1x512.size inb_S1x8192_S1x512_0_7168).toLoadRect (harg3.unread x2)) (View.readAt (Elt F) arg5.view (Rect.unit (s := S1x8192) ![0, 7168] S1x512.size inb_S1x8192_S1x512_0_7168).toLoadRect (harg5.unread x4)) 7168#32))
    (logChunk (rowF i arg1 harg1 x0) (rowW arg2 harg2 x1) (rowW arg4 harg4 x3) (rowIds i) (den16 i arg1 harg1 arg4 harg4 arg5 harg5 x0 x3 x4) (View.readAt (Elt F) arg1.view (Rect.unit (s := S8192x128) ![7680, 0] S512x128.size inb_S8192x128_S512x128_7680_0).toLoadRect (harg1.unread x0)) (View.readAt (Elt F) arg3.view (Rect.unit (s := S1x8192) ![0, 7680] S1x512.size inb_S1x8192_S1x512_0_7680).toLoadRect (harg3.unread x2)) (View.readAt (Elt F) arg5.view (Rect.unit (s := S1x8192) ![0, 7680] S1x512.size inb_S1x8192_S1x512_0_7680).toLoadRect (harg5.unread x4)) 7680#32))

/-- What the run finds for the count block is the accumulated count. -/
theorem count_regular (c : Dev nD) (i : grid0.Coords) (arg2 : Memref sig .tc .vmem S512x1 .i32) (harg2 : arg2.IsWhole) (arg3 : Memref sig .tc .vmem S1x8192 .i32) (harg3 : arg3.IsWhole)
    (x1 : Vec F S512x1 .i32) (x2 : Vec F S1x8192 .i32) :
    kernelRun0_A.sl.r_60 c i arg2 harg2 arg3 harg3 x1 x2 = cnt16 i arg2 harg2 arg3 harg3 x1 x2 := rfl

/-- What the run finds for the log-sum block is the accumulated sum. -/
theorem logsum_regular (c : Dev nD) (i : grid0.Coords) (arg1 : Memref sig .tc .vmem S8192x128 .bf16) (harg1 : arg1.IsWhole) (arg2 : Memref sig .tc .vmem S512x1 .i32) (harg2 : arg2.IsWhole) (arg3 : Memref sig .tc .vmem S1x8192 .i32) (harg3 : arg3.IsWhole) (arg4 : Memref sig .tc .vmem S512x1 .i32) (harg4 : arg4.IsWhole) (arg5 : Memref sig .tc .vmem S1x8192 .i32) (harg5 : arg5.IsWhole)
    (x0 : Vec F S8192x128 .bf16) (x1 : Vec F S512x1 .i32) (x2 : Vec F S1x8192 .i32) (x3 : Vec F S512x1 .i32) (x4 : Vec F S1x8192 .i32) :
    k0_pay139 (k0_pay2 i) (kernelRun0_A.sl.r_2 c arg4 harg4 x3)
        (kernelRun0_A.sl.r_61 c i arg1 harg1 arg4 harg4 arg5 harg5 x0 x3 x4)
        (kernelRun0_A.sl.r_108 c i arg1 harg1 arg2 harg2 arg3 harg3 arg4 harg4 arg5 harg5 x0 x1 x2 x3 x4)
        (kernelRun0_A.sl.r_109 c arg5 harg5 x4) k0_pay135 (kernelRun0_A.sl.r_110 c i arg1 harg1 x0)
        (kernelRun0_A.sl.r_111 c arg2 harg2 x1) (kernelRun0_A.sl.r_112 c arg3 harg3 x2)
      = log16 i arg1 harg1 arg2 harg2 arg3 harg3 arg4 harg4 arg5 harg5 x0 x1 x2 x3 x4 := rfl

end Cert.KernelIdeal.Body

end
-- ==== Proof.LibSliceRead.lean ====
/-
  A unit-stride slice of a matrix, read at an entry.

  A load of a [p, q] window of an [a, b] matrix through consecutive rows from `off 0` and consecutive columns from
  `off 1` — a static sub-block, or a window whose first row is computed from a grid coordinate — reads, at (r, e),
  the matrix at (off 0 + r, off 1 + e). The target entry is named by the caller together with the two equations
  that say so, so that the offsets may be any expressions.
-/
import Idealize.ShloMosaic.Lib.ValueIdx
import Idealize.ShloMosaic.Lib.Pipeline.Value

noncomputable section

namespace Cert.LibSliceRead

open Idealize.ShloMosaic Idealize.ShloMosaic.ValueIdx

/-- A unit-stride slice of a matrix read at (r, e) is the matrix at (off₀ + r, off₁ + e). -/
theorem ld_unit_ix2 {a b p q : ℕ} {Val : EltTy → Type} {el : EltTy} (x : (⟨2, ![a, b]⟩ : Shape).Idx → Val el) (off : Fin 2 → Nat)
    (inb : ∀ ax, off ax + (![p, q] : Fin 2 → Nat) ax ≤ (⟨2, ![a, b]⟩ : Shape).size ax) (r : Fin p) (e : Fin q)
    (i : Fin a) (j : Fin b) (hi : i.val = off 0 + r.val) (hj : j.val = off 1 + e.val) :
    View.ld x (Rect.unit (s := ⟨2, ![a, b]⟩) off ![p, q] inb) (ix2 r e) = x (ix2 i j) := by
  show x ((Rect.unit (s := ⟨2, ![a, b]⟩) off ![p, q] inb).emb (ix2 r e)) = _
  refine congrArg x (funext fun ax => Fin.ext ?_)
  match ax with
  | ⟨0, _⟩ => show off 0 + 1 * r.val = i.val; omega
  | ⟨1, _⟩ => show off 1 + 1 * e.val = j.val; omega

end Cert.LibSliceRead

end
-- ==== Proof.BodyIdx.lean ====
/-
  The tile's body read at a row. The tile's row numbers are `512·i + sublane` as 32-bit words (no wrap: all numbers
  are below 8192); the row blocks hold the tile's own words; a block load from row or column `o` holds the rows or
  columns `o … o + 511` of what it loads from. With these, one block's share of each of the three row sums is the
  block sum of the specification's summand over the columns `o … o + 511`.
-/
import proofs.«134954_j1726576853397_1_alg».proof.Proof.BodyRegular
import proofs.«134954_j1726576853397_1_alg».proof.Proof.LibSliceRead
import Idealize.ShloMosaic.Lib.Pipeline.FrameBody

set_option maxRecDepth 16384

noncomputable section

open scoped BigOperators

namespace Cert.KernelIdeal.Body

open Idealize.ShloMosaic Idealize.ShloMosaic.TcCoe Idealize.ShloMosaic.ValueIdx Idealize.SL.Sem Cert.KernelIdeal Cert.KernelIdeal.Gen Cert.Contrast

/-- Two numbers below 2^32 have the same 32-bit word only if they are equal. -/
theorem ofNat32_inj {a b : ℕ} (ha : a < 4294967296) (hb : b < 4294967296) : BitVec.ofNat 32 a = BitVec.ofNat 32 b ↔ a = b := by
  constructor
  · intro h
    have h' := congrArg BitVec.toNat h
    simp only [BitVec.toNat_ofNat] at h'
    omega
  · rintro rfl; rfl

/-- The tile's row number at sublane p. -/
theorem rowIds_apply (i : grid0.Coords) (p : Fin 512) : rowIds i (ix2 p (0 : Fin 1)) = BitVec.ofNat 32 (512 * (i 0).val + p.val) := by
  unfold rowIds
  show IntOp.addi (Scalar.muli (BitVec.ofNat 32 (i 0).val) 512#32) (iota .tc S512x1 32 [0] iota_S512x1_d0_w32 (ix2 p (0 : Fin 1))) = _
  rw [iota_single_apply]
  show BitVec.ofNat 32 (i 0).val * BitVec.ofNat 32 512 + BitVec.ofNat 32 p.val = _
  rw [← BitVec.ofNat_mul, ← BitVec.ofNat_add, Nat.mul_comm]

/-- A row block of words read at sublane p. -/
theorem rowW_apply (arg : Memref sig .tc .vmem S512x1 .i32) (harg : arg.IsWhole) (x : Vec Ideal S512x1 .i32) (p : Fin 512) :
    rowW (F := Ideal) arg harg x (ix2 p (0 : Fin 1)) = x (ix2 p (0 : Fin 1)) := by
  unfold rowW
  refine (congrFun (shapeCast_self (s := S512x1) _ shapeCasts_S512x1_S512x1) (ix2 p (0 : Fin 1))).trans ?_
  rw [View.readAt_eq_ld, harg.read_unread, View.ld_unit_zero (by funext a; fin_cases a <;> rfl)]

/-- The tile's rows of the feature matrix at (p, k): row 512·i + p. -/
theorem rowF_apply (i : grid0.Coords) (arg1 : Memref sig .tc .vmem S8192x128 .bf16) (harg1 : arg1.IsWhole) (x0 : Vec Ideal S8192x128 .bf16)
    (p : Fin 512) (k : Fin 128) (hp : 512 * (i 0).val + p.val < 8192) :
    rowF (F := Ideal) i arg1 harg1 x0 (ix2 p k) = x0 (ix2 ⟨512 * (i 0).val + p.val, hp⟩ k) := by
  unfold rowF
  refine (congrFun (shapeCast_self (s := S512x128) _ shapeCasts_S512x128_S512x128) (ix2 p k)).trans ?_
  rw [View.readAt_eq_ld, harg1.read_unread]
  exact Cert.LibSliceRead.ld_unit_ix2 x0 (k0_off1 i) _ p k _ k (by rw [k0_off1_eq]; rfl) (by rw [k0_off1_eq]; simp)

/-- A block of 512 rows of the feature matrix from row o on, at (q, k). -/
theorem ldF_apply (arg1 : Memref sig .tc .vmem S8192x128 .bf16) (harg1 : arg1.IsWhole) (x0 : Vec Ideal S8192x128 .bf16) (o : ℕ)
    (h : ∀ a, (![o, 0] : Fin 2 → Nat) a + S512x128.size a ≤ S8192x128.size a) (q : Fin 512) (k : Fin 128) (hq : o + q.val < 8192) :
    View.readAt (Elt Ideal) arg1.view (Rect.unit (s := S8192x128) ![o, 0] S512x128.size h).toLoadRect (harg1.unread x0) (ix2 q k)
      = x0 (ix2 ⟨o + q.val, hq⟩ k) := by
  rw [View.readAt_eq_ld, harg1.read_unread]
  exact Cert.LibSliceRead.ld_unit_ix2 x0 ![o, 0] _ q k _ k rfl (by simp)

/-- A block of 512 words of a full row from column o on, at lane q. -/
theorem ldW_apply (arg : Memref sig .tc .vmem S1x8192 .i32) (harg : arg.IsWhole) (x : Vec Ideal S1x8192 .i32) (o : ℕ)
    (h : ∀ a, (![0, o] : Fin 2 → Nat) a + S1x512.size a ≤ S1x8192.size a) (q : Fin 512) (hq : o + q.val < 8192) :
    View.readAt (Elt Ideal) arg.view (Rect.unit (s := S1x8192) ![0, o] S1x512.size h).toLoadRect (harg.unread x) (ix2 (0 : Fin 1) q)
      = x (ix2 (0 : Fin 1) ⟨o + q.val, hq⟩) := by
  rw [View.readAt_eq_ld, harg.read_unread]
  exact Cert.LibSliceRead.ld_unit_ix2 x ![0, o] _ 0 q 0 _ (by simp) rfl

/-- A row's number and a block's column number, as 32-bit words, differ exactly when the row is not the column. -/
theorem word_ne_iff (R : Fin 8192) (o : ℕ) (q : Fin 512) (hq : o + q.val < 8192) :
    BitVec.ofNat 32 R.val ≠ BitVec.ofNat 32 o + BitVec.ofNat 32 q.val ↔ R ≠ (⟨o + q.val, hq⟩ : Fin 8192) := by
  rw [← BitVec.ofNat_add, Ne, ofNat32_inj (by have := R.isLt; omega) (by omega)]
  constructor
  · intro h h'; exact h (by rw [h'])
  · intro h h'; exact h (Fin.ext h')

/-- One block's share of a row's count is the block sum of the indicator of the row's positives. -/
theorem cnt_block (rowL rowI : IVec S512x1 32) (cl : Vec Ideal S1x512 .i32) (lab : SL.Idx → BitVec 32) (R : Fin 8192) (p : Fin 512)
    (o : ℕ) (ho : o + 512 ≤ 8192)
    (hL : rowL (ix2 p (0 : Fin 1)) = lab (ix1 R)) (hI : rowI (ix2 p (0 : Fin 1)) = BitVec.ofNat 32 R.val)
    (hcl : ∀ (q : Fin 512) (hq : o + q.val < 8192), cl (ix2 (0 : Fin 1) q) = lab (ix1 ⟨o + q.val, hq⟩)) :
    cntChunk (F := Ideal) rowL rowI cl (BitVec.ofNat 32 o) (ix2 p (0 : Fin 1))
      = blockSum (fun j => if IsPos lab R j then (1 : EReal) else 0) o := by
  rw [cntChunk_apply]
  unfold blockSum
  refine Finset.sum_congr rfl fun q _ => ?_
  have hq : o + q.val < 8192 := by have := q.isLt; omega
  rw [ext_of_lt _ hq, hL, hI, hcl q hq]
  refine if_congr ?_ rfl rfl
  unfold IsPos
  rw [word_ne_iff R o q hq]

/-- One block's share of a row's denominator is the block sum of the off-diagonal weighted exponentials. -/
theorem den_block (fr : FVec Ideal S512x128 .bf16) (rowD rowI : IVec S512x1 32) (fc : Vec Ideal S512x128 .bf16) (cd : Vec Ideal S1x512 .i32)
    (X : SX.Idx → EReal) (R : Fin 8192) (p : Fin 512) (o : ℕ) (ho : o + 512 ≤ 8192)
    (hF : ∀ k : Fin 128, fr (ix2 p k) = X (ix2 R k)) (hI : rowI (ix2 p (0 : Fin 1)) = BitVec.ofNat 32 R.val)
    (hC : ∀ (q : Fin 512) (k : Fin 128) (hq : o + q.val < 8192), fc (ix2 q k) = X (ix2 ⟨o + q.val, hq⟩ k)) :
    denChunk (F := Ideal) fr rowD rowI fc cd (BitVec.ofNat 32 o) (ix2 p (0 : Fin 1))
      = blockSum (fun j => if R ≠ j then w X R j else 0) o := by
  rw [denChunk_apply]
  unfold blockSum
  refine Finset.sum_congr rfl fun q _ => ?_
  have hq : o + q.val < 8192 := by have := q.isLt; omega
  rw [ext_of_lt _ hq, hI]
  refine if_congr (word_ne_iff R o q hq) ?_ rfl
  unfold w dot
  exact congrArg (fun s => half * Ideal.exp (s * invT)) (Finset.sum_congr rfl fun k _ => by rw [hF k, hC q k hq])

/-- One block's share of a row's sum of log-fractions, the row's denominator given. -/
theorem log_block (fr : FVec Ideal S512x128 .bf16) (rowL rowD rowI : IVec S512x1 32) (den : FVec Ideal S512x1 .f32)
    (fc : Vec Ideal S512x128 .bf16) (cl cd : Vec Ideal S1x512 .i32)
    (X : SX.Idx → EReal) (lab : SL.Idx → BitVec 32) (R : Fin 8192) (p : Fin 512) (o : ℕ) (ho : o + 512 ≤ 8192) (D : EReal)
    (hF : ∀ k : Fin 128, fr (ix2 p k) = X (ix2 R k))
    (hL : rowL (ix2 p (0 : Fin 1)) = lab (ix1 R)) (hI : rowI (ix2 p (0 : Fin 1)) = BitVec.ofNat 32 R.val)
    (hD : den (ix2 p (0 : Fin 1)) = D)
    (hC : ∀ (q : Fin 512) (k : Fin 128) (hq : o + q.val < 8192), fc (ix2 q k) = X (ix2 ⟨o + q.val, hq⟩ k))
    (hcl : ∀ (q : Fin 512) (hq : o + q.val < 8192), cl (ix2 (0 : Fin 1) q) = lab (ix1 ⟨o + q.val, hq⟩)) :
    logChunk (F := Ideal) fr rowL rowD rowI den fc cl cd (BitVec.ofNat 32 o) (ix2 p (0 : Fin 1))
      = blockSum (fun j => if IsPos lab R j then Ideal.log (Ideal.div (w X R j) D + eps) else 0) o := by
  rw [logChunk_apply]
  unfold blockSum
  refine Finset.sum_congr rfl fun q _ => ?_
  have hq : o + q.val < 8192 := by have := q.isLt; omega
  rw [ext_of_lt _ hq, hL, hI, hcl q hq, hD]
  refine if_congr ?_ ?_ rfl
  · unfold IsPos
    rw [word_ne_iff R o q hq]
  · unfold w dot
    exact congrArg (fun s => Ideal.log (Ideal.div (half * Ideal.exp (s * invT)) D + eps))
      (Finset.sum_congr rfl fun k _ => by rw [hF k, hC q k hq])

end Cert.KernelIdeal.Body

end
-- ==== Proof.BodyValue.lean ====
/-
  What one grid point leaves in its two output blocks, read at a row.

  Grid point `i` handles the 512 rows `512·i … 512·i + 511`. For row `p` of the block the first output holds the
  row's sum of log-fractions over its positives and the second the number of its positives (as a float), both over
  all 8192 columns: the body walks the columns in sixteen blocks of 512, first accumulating the denominator and the
  count, then, with the denominator known, the log-fractions; sums of extended reals may be regrouped freely, so the
  sixteen block sums accumulated from zero are the sum over the whole row.
  The row's own label comes from the row-label block, the columns' labels from the full label row; the hypothesis
  `hrow` says the former is the latter's slice at the point's rows.
-/
import proofs.«134954_j1726576853397_1_alg».proof.Proof.Gen.KernelIdeal.Frame
import proofs.«134954_j1726576853397_1_alg».proof.Proof.BodyIdx

set_option maxRecDepth 65536

noncomputable section

namespace Cert.KernelIdeal.Body

open Idealize.ShloMosaic Idealize.ShloMosaic.TcCoe Idealize.ShloMosaic.ValueIdx Idealize.SL.Sem Cert.KernelIdeal Cert.KernelIdeal.Gen Cert.Contrast

/-- The output blocks' store offsets are zero. -/
theorem off_zero : (![0, 0] : Fin 2 → ℕ) = fun _ => 0 := by funext a; fin_cases a <;> rfl

/-- The zero word on the extended reals. -/
theorem zero_word : Scalar.ofBits (F := Ideal) .f32 0x00000000#32 = (0 : EReal) := Ideal.ofBits_zero_f32

theorem count_apply (c : Dev nD) (i : grid0.Coords) (arg1 : Memref sig .tc .vmem S8192x128 .bf16) (harg1 : arg1.IsWhole) (arg2 : Memref sig .tc .vmem S512x1 .i32) (harg2 : arg2.IsWhole) (arg3 : Memref sig .tc .vmem S1x8192 .i32) (harg3 : arg3.IsWhole) (arg4 : Memref sig .tc .vmem S512x1 .i32) (harg4 : arg4.IsWhole) (arg5 : Memref sig .tc .vmem S1x8192 .i32) (harg5 : arg5.IsWhole) (arg6 : Memref sig .tc .vmem S512x1 .f32) (harg6 : arg6.IsWhole) (arg7 : Memref sig .tc .vmem S512x1 .f32) (harg7 : arg7.IsWhole)
    (x0 : Vec Ideal S8192x128 .bf16) (x1 : Vec Ideal S512x1 .i32) (x2 : Vec Ideal S1x8192 .i32) (x3 : Vec Ideal S512x1 .i32) (x4 : Vec Ideal S1x8192 .i32)
    (hrow : ∀ (q : Fin 512) (hq : 512 * (i 0).val + q.val < 8192), x1 (ix2 q 0) = x2 (ix2 0 ⟨512 * (i 0).val + q.val, hq⟩))
    (p : Fin 512) (hp : 512 * (i 0).val + p.val < 8192) :
    out0_A_6 (F := Ideal) c i arg1 harg1 arg2 harg2 arg3 harg3 arg4 harg4 arg5 harg5 arg6 harg6 arg7 harg7 x0 x1 x2 x3 x4 (ix2 p 0)
      = ((numPos (fun j => x2 (ix2 0 (j 0))) ⟨512 * (i 0).val + p.val, hp⟩ : ℕ) : EReal) := by
  generalize hlab : (fun j : SL.Idx => x2 (ix2 (0 : Fin 1) (j 0))) = lab
  generalize hR : (⟨512 * (i 0).val + p.val, hp⟩ : Fin 8192) = R
  have hL : rowW (F := Ideal) arg2 harg2 x1 (ix2 p (0 : Fin 1)) = lab (ix1 R) := by
    rw [rowW_apply, ← hlab, ← hR]; exact hrow p hp
  have hI : rowIds i (ix2 p (0 : Fin 1)) = BitVec.ofNat 32 R.val := by rw [rowIds_apply, ← hR]
  have hW : ∀ (o : ℕ) (h : ∀ a, (![0, o] : Fin 2 → Nat) a + S1x512.size a ≤ S1x8192.size a) (q : Fin 512) (hq : o + q.val < 8192),
      View.readAt (Elt Ideal) arg3.view (Rect.unit (s := S1x8192) ![0, o] S1x512.size h).toLoadRect (harg3.unread x2) (ix2 (0 : Fin 1) q)
        = lab (ix1 ⟨o + q.val, hq⟩) := fun o h q hq => by rw [ldW_apply arg3 harg3 x2 o h q hq, ← hlab]
  unfold out0_A_6
  rw [View.read_writes_eq_canon _ _ _ (cover0_A_6 c i arg1 harg1 arg2 harg2 arg3 harg3 arg4 harg4 arg5 harg5 arg6 harg6 arg7 harg7 x0 x1 x2 x3 x4)]
  unfold kernelRun0_A
  dsimp only
  rw [View.canon_unit_zero off_zero, count_regular]
  unfold cnt16
  simp only [addf_apply, broadcast_apply]
  rw [cnt_block (rowW arg2 harg2 x1) (rowIds i) (View.readAt (Elt Ideal) arg3.view (Rect.unit (s := S1x8192) ![0, 0] S1x512.size inb_S1x8192_S1x512_0_0).toLoadRect (harg3.unread x2)) lab R p 0 (by norm_num) hL hI (fun q hq => hW 0 _ q hq),
    cnt_block (rowW arg2 harg2 x1) (rowIds i) (View.readAt (Elt Ideal) arg3.view (Rect.unit (s := S1x8192) ![0, 512] S1x512.size inb_S1x8192_S1x512_0_512).toLoadRect (harg3.unread x2)) lab R p 512 (by norm_num) hL hI (fun q hq => hW 512 _ q hq),
    cnt_block (rowW arg2 harg2 x1) (rowIds i) (View.readAt (Elt Ideal) arg3.view (Rect.unit (s := S1x8192) ![0, 1024] S1x512.size inb_S1x8192_S1x512_0_1024).toLoadRect (harg3.unread x2)) lab R p 1024 (by norm_num) hL hI (fun q hq => hW 1024 _ q hq),
    cnt_block (rowW arg2 harg2 x1) (rowIds i) (View.readAt (Elt Ideal) arg3.view (Rect.unit (s := S1x8192) ![0, 1536] S1x512.size inb_S1x8192_S1x512_0_1536).toLoadRect (harg3.unread x2)) lab R p 1536 (by norm_num) hL hI (fun q hq => hW 1536 _ q hq),
    cnt_block (rowW arg2 harg2 x1) (rowIds i) (View.readAt (Elt Ideal) arg3.view (Rect.unit (s := S1x8192) ![0, 2048] S1x512.size inb_S1x8192_S1x512_0_2048).toLoadRect (harg3.unread x2)) lab R p 2048 (by norm_num) hL hI (fun q hq => hW 2048 _ q hq),
    cnt_block (rowW arg2 harg2 x1) (rowIds i) (View.readAt (Elt Ideal) arg3.view (Rect.unit (s := S1x8192) ![0, 2560] S1x512.size inb_S1x8192_S1x512_0_2560).toLoadRect (harg3.unread x2)) lab R p 2560 (by norm_num) hL hI (fun q hq => hW 2560 _ q hq),
    cnt_block (rowW arg2 harg2 x1) (rowIds i) (View.readAt (Elt Ideal) arg3.view (Rect.unit (s := S1x8192) ![0, 3072] S1x512.size inb_S1x8192_S1x512_0_3072).toLoadRect (harg3.unread x2)) lab R p 3072 (by norm_num) hL hI (fun q hq => hW 3072 _ q hq),
    cnt_block (rowW arg2 harg2 x1) (rowIds i) (View.readAt (Elt Ideal) arg3.view (Rect.unit (s := S1x8192) ![0, 3584] S1x512.size inb_S1x8192_S1x512_0_3584).toLoadRect (harg3.unread x2)) lab R p 3584 (by norm_num) hL hI (fun q hq => hW 3584 _ q hq),
    cnt_block (rowW arg2 harg2 x1) (rowIds i) (View.readAt (Elt Ideal) arg3.view (Rect.unit (s := S1x8192) ![0, 4096] S1x512.size inb_S1x8192_S1x512_0_4096).toLoadRect (harg3.unread x2)) lab R p 4096 (by norm_num) hL hI (fun q hq => hW 4096 _ q hq),
    cnt_block (rowW arg2 harg2 x1) (rowIds i) (View.readAt (Elt Ideal) arg3.view (Rect.unit (s := S1x8192) ![0, 4608] S1x512.size inb_S1x8192_S1x512_0_4608).toLoadRect (harg3.unread x2)) lab R p 4608 (by norm_num) hL hI (fun q hq => hW 4608 _ q hq),
    cnt_block (rowW arg2 harg2 x1) (rowIds i) (View.readAt (Elt Ideal) arg3.view (Rect.unit (s := S1x8192) ![0, 5120] S1x512.size inb_S1x8192_S1x512_0_5120).toLoadRect (harg3.unread x2)) lab R p 5120 (by norm_num) hL hI (fun q hq => hW 5120 _ q hq),
    cnt_block (rowW arg2 harg2 x1) (rowIds i) (View.readAt (Elt Ideal) arg3.view (Rect.unit (s := S1x8192) ![0, 5632] S1x512.size inb_S1x8192_S1x512_0_5632).toLoadRect (harg3.unread x2)) lab R p 5632 (by norm_num) hL hI (fun q hq => hW 5632 _ q hq),
    cnt_block (rowW arg2 harg2 x1) (rowIds i) (View.readAt (Elt Ideal) arg3.view (Rect.unit (s := S1x8192) ![0, 6144] S1x512.size inb_S1x8192_S1x512_0_6144).toLoadRect (harg3.unread x2)) lab R p 6144 (by norm_num) hL hI (fun q hq => hW 6144 _ q hq),
    cnt_block (rowW arg2 harg2 x1) (rowIds i) (View.readAt (Elt Ideal) arg3.view (Rect.unit (s := S1x8192) ![0, 6656] S1x512.size inb_S1x8192_S1x512_0_6656).toLoadRect (harg3.unread x2)) lab R p 6656 (by norm_num) hL hI (fun q hq => hW 6656 _ q hq),
    cnt_block (rowW arg2 harg2 x1) (rowIds i) (View.readAt (Elt Ideal) arg3.view (Rect.unit (s := S1x8192) ![0, 7168] S1x512.size inb_S1x8192_S1x512_0_7168).toLoadRect (harg3.unread x2)) lab R p 7168 (by norm_num) hL hI (fun q hq => hW 7168 _ q hq),
    cnt_block (rowW arg2 harg2 x1) (rowIds i) (View.readAt (Elt Ideal) arg3.view (Rect.unit (s := S1x8192) ![0, 7680] S1x512.size inb_S1x8192_S1x512_0_7680).toLoadRect (harg3.unread x2)) lab R p 7680 (by norm_num) hL hI (fun q hq => hW 7680 _ q hq)]
  rw [zero_word, acc16, zero_add, sum_ones]
  rfl

theorem logsum_apply (c : Dev nD) (i : grid0.Coords) (arg1 : Memref sig .tc .vmem S8192x128 .bf16) (harg1 : arg1.IsWhole) (arg2 : Memref sig .tc .vmem S512x1 .i32) (harg2 : arg2.IsWhole) (arg3 : Memref sig .tc .vmem S1x8192 .i32) (harg3 : arg3.IsWhole) (arg4 : Memref sig .tc .vmem S512x1 .i32) (harg4 : arg4.IsWhole) (arg5 : Memref sig .tc .vmem S1x8192 .i32) (harg5 : arg5.IsWhole) (arg6 : Memref sig .tc .vmem S512x1 .f32) (harg6 : arg6.IsWhole) (arg7 : Memref sig .tc .vmem S512x1 .f32) (harg7 : arg7.IsWhole)
    (x0 : Vec Ideal S8192x128 .bf16) (x1 : Vec Ideal S512x1 .i32) (x2 : Vec Ideal S1x8192 .i32) (x3 : Vec Ideal S512x1 .i32) (x4 : Vec Ideal S1x8192 .i32)
    (hrow : ∀ (q : Fin 512) (hq : 512 * (i 0).val + q.val < 8192), x1 (ix2 q 0) = x2 (ix2 0 ⟨512 * (i 0).val + q.val, hq⟩))
    (p : Fin 512) (hp : 512 * (i 0).val + p.val < 8192) :
    out0_A_5 (F := Ideal) c i arg1 harg1 arg2 harg2 arg3 harg3 arg4 harg4 arg5 harg5 arg6 harg6 arg7 harg7 x0 x1 x2 x3 x4 (ix2 p 0)
      = logSum (fun j => x0 j) (fun j => x2 (ix2 0 (j 0))) ⟨512 * (i 0).val + p.val, hp⟩ := by
  generalize hlab : (fun j : SL.Idx => x2 (ix2 (0 : Fin 1) (j 0))) = lab
  generalize hX : (fun j : SX.Idx => (x0 j : EReal)) = X
  generalize hR : (⟨512 * (i 0).val + p.val, hp⟩ : Fin 8192) = R
  have hL : rowW (F := Ideal) arg2 harg2 x1 (ix2 p (0 : Fin 1)) = lab (ix1 R) := by
    rw [rowW_apply, ← hlab, ← hR]; exact hrow p hp
  have hI : rowIds i (ix2 p (0 : Fin 1)) = BitVec.ofNat 32 R.val := by rw [rowIds_apply, ← hR]
  have hF : ∀ k : Fin 128, rowF (F := Ideal) i arg1 harg1 x0 (ix2 p k) = X (ix2 R k) := fun k => by
    rw [rowF_apply i arg1 harg1 x0 p k hp, ← hX, ← hR]
  have hW : ∀ (o : ℕ) (h : ∀ a, (![0, o] : Fin 2 → Nat) a + S1x512.size a ≤ S1x8192.size a) (q : Fin 512) (hq : o + q.val < 8192),
      View.readAt (Elt Ideal) arg3.view (Rect.unit (s := S1x8192) ![0, o] S1x512.size h).toLoadRect (harg3.unread x2) (ix2 (0 : Fin 1) q)
        = lab (ix1 ⟨o + q.val, hq⟩) := fun o h q hq => by rw [ldW_apply arg3 harg3 x2 o h q hq, ← hlab]
  have hC : ∀ (o : ℕ) (h : ∀ a, (![o, 0] : Fin 2 → Nat) a + S512x128.size a ≤ S8192x128.size a) (q : Fin 512) (k : Fin 128) (hq : o + q.val < 8192),
      View.readAt (Elt Ideal) arg1.view (Rect.unit (s := S8192x128) ![o, 0] S512x128.size h).toLoadRect (harg1.unread x0) (ix2 q k)
        = X (ix2 ⟨o + q.val, hq⟩ k) := fun o h q k hq => by rw [ldF_apply arg1 harg1 x0 o h q k hq, ← hX]
  have hD : den16 (F := Ideal) i arg1 harg1 arg4 harg4 arg5 harg5 x0 x3 x4 (ix2 p (0 : Fin 1)) = den X R := by
    unfold den16
    simp only [addf_apply, broadcast_apply]
    rw [den_block (rowF i arg1 harg1 x0) (rowW arg4 harg4 x3) (rowIds i) (View.readAt (Elt Ideal) arg1.view (Rect.unit (s := S8192x128) ![0, 0] S512x128.size inb_S8192x128_S512x128_0_0).toLoadRect (harg1.unread x0)) (View.readAt (Elt Ideal) arg5.view (Rect.unit (s := S1x8192) ![0, 0] S1x512.size inb_S1x8192_S1x512_0_0).toLoadRect (harg5.unread x4)) X R p 0 (by norm_num) hF hI (fun q k hq => hC 0 _ q k hq),
      den_block (rowF i arg1 harg1 x0) (rowW arg4 harg4 x3) (rowIds i) (View.readAt (Elt Ideal) arg1.view (Rect.unit (s := S8192x128) ![512, 0] S512x128.size inb_S8192x128_S512x128_512_0).toLoadRect (harg1.unread x0)) (View.readAt (Elt Ideal) arg5.view (Rect.unit (s := S1x8192) ![0, 512] S1x512.size inb_S1x8192_S1x512_0_512).toLoadRect (harg5.unread x4)) X R p 512 (by norm_num) hF hI (fun q k hq => hC 512 _ q k hq),
      den_block (rowF i arg1 harg1 x0) (rowW arg4 harg4 x3) (rowIds i) (View.readAt (Elt Ideal) arg1.view (Rect.unit (s := S8192x128) ![1024, 0] S512x128.size inb_S8192x128_S512x128_1024_0).toLoadRect (harg1.unread x0)) (View.readAt (Elt Ideal) arg5.view (Rect.unit (s := S1x8192) ![0, 1024] S1x512.size inb_S1x8192_S1x512_0_1024).toLoadRect (harg5.unread x4)) X R p 1024 (by norm_num) hF hI (fun q k hq => hC 1024 _ q k hq),
      den_block (rowF i arg1 harg1 x0) (rowW arg4 harg4 x3) (rowIds i) (View.readAt (Elt Ideal) arg1.view (Rect.unit (s := S8192x128) ![1536, 0] S512x128.size inb_S8192x128_S512x128_1536_0).toLoadRect (harg1.unread x0)) (View.readAt (Elt Ideal) arg5.view (Rect.unit (s := S1x8192) ![0, 1536] S1x512.size inb_S1x8192_S1x512_0_1536).toLoadRect (harg5.unread x4)) X R p 1536 (by norm_num) hF hI (fun q k hq => hC 1536 _ q k hq),
      den_block (rowF i arg1 harg1 x0) (rowW arg4 harg4 x3) (rowIds i) (View.readAt (Elt Ideal) arg1.view (Rect.unit (s := S8192x128) ![2048, 0] S512x128.size inb_S8192x128_S512x128_2048_0).toLoadRect (harg1.unread x0)) (View.readAt (Elt Ideal) arg5.view (Rect.unit (s := S1x8192) ![0, 2048] S1x512.size inb_S1x8192_S1x512_0_2048).toLoadRect (harg5.unread x4)) X R p 2048 (by norm_num) hF hI (fun q k hq => hC 2048 _ q k hq),
      den_block (rowF i arg1 harg1 x0) (rowW arg4 harg4 x3) (rowIds i) (View.readAt (Elt Ideal) arg1.view (Rect.unit (s := S8192x128) ![2560, 0] S512x128.size inb_S8192x128_S512x128_2560_0).toLoadRect (harg1.unread x0)) (View.readAt (Elt Ideal) arg5.view (Rect.unit (s := S1x8192) ![0, 2560] S1x512.size inb_S1x8192_S1x512_0_2560).toLoadRect (harg5.unread x4)) X R p 2560 (by norm_num) hF hI (fun q k hq => hC 2560 _ q k hq),
      den_block (rowF i arg1 harg1 x0) (rowW arg4 harg4 x3) (rowIds i) (View.readAt (Elt Ideal) arg1.view (Rect.unit (s := S8192x128) ![3072, 0] S512x128.size inb_S8192x128_S512x128_3072_0).toLoadRect (harg1.unread x0)) (View.readAt (Elt Ideal) arg5.view (Rect.unit (s := S1x8192) ![0, 3072] S1x512.size inb_S1x8192_S1x512_0_3072).toLoadRect (harg5.unread x4)) X R p 3072 (by norm_num) hF hI (fun q k hq => hC 3072 _ q k hq),
      den_block (rowF i arg1 harg1 x0) (rowW arg4 harg4 x3) (rowIds i) (View.readAt (Elt Ideal) arg1.view (Rect.unit (s := S8192x128) ![3584, 0] S512x128.size inb_S8192x128_S512x128_3584_0).toLoadRect (harg1.unread x0)) (View.readAt (Elt Ideal) arg5.view (Rect.unit (s := S1x8192) ![0, 3584] S1x512.size inb_S1x8192_S1x512_0_3584).toLoadRect (harg5.unread x4)) X R p 3584 (by norm_num) hF hI (fun q k hq => hC 3584 _ q k hq),
      den_block (rowF i arg1 harg1 x0) (rowW arg4 harg4 x3) (rowIds i) (View.readAt (Elt Ideal) arg1.view (Rect.unit (s := S8192x128) ![4096, 0] S512x128.size inb_S8192x128_S512x128_4096_0).toLoadRect (harg1.unread x0)) (View.readAt (Elt Ideal) arg5.view (Rect.unit (s := S1x8192) ![0, 4096] S1x512.size inb_S1x8192_S1x512_0_4096).toLoadRect (harg5.unread x4)) X R p 4096 (by norm_num) hF hI (fun q k hq => hC 4096 _ q k hq),
      den_block (rowF i arg1 harg1 x0) (rowW arg4 harg4 x3) (rowIds i) (View.readAt (Elt Ideal) arg1.view (Rect.unit (s := S8192x128) ![4608, 0] S512x128.size inb_S8192x128_S512x128_4608_0).toLoadRect (harg1.unread x0)) (View.readAt (Elt Ideal) arg5.view (Rect.unit (s := S1x8192) ![0, 4608] S1x512.size inb_S1x8192_S1x512_0_4608).toLoadRect (harg5.unread x4)) X R p 4608 (by norm_num) hF hI (fun q k hq => hC 4608 _ q k hq),
      den_block (rowF i arg1 harg1 x0) (rowW arg4 harg4 x3) (rowIds i) (View.readAt (Elt Ideal) arg1.view (Rect.unit (s := S8192x128) ![5120, 0] S512x128.size inb_S8192x128_S512x128_5120_0).toLoadRect (harg1.unread x0)) (View.readAt (Elt Ideal) arg5.view (Rect.unit (s := S1x8192) ![0, 5120] S1x512.size inb_S1x8192_S1x512_0_5120).toLoadRect (harg5.unread x4)) X R p 5120 (by norm_num) hF hI (fun q k hq => hC 5120 _ q k hq),
      den_block (rowF i arg1 harg1 x0) (rowW arg4 harg4 x3) (rowIds i) (View.readAt (Elt Ideal) arg1.view (Rect.unit (s := S8192x128) ![5632, 0] S512x128.size inb_S8192x128_S512x128_5632_0).toLoadRect (harg1.unread x0)) (View.readAt (Elt Ideal) arg5.view (Rect.unit (s := S1x8192) ![0, 5632] S1x512.size inb_S1x8192_S1x512_0_5632).toLoadRect (harg5.unread x4)) X R p 5632 (by norm_num) hF hI (fun q k hq => hC 5632 _ q k hq),
      den_block (rowF i arg1 harg1 x0) (rowW arg4 harg4 x3) (rowIds i) (View.readAt (Elt Ideal) arg1.view (Rect.unit (s := S8192x128) ![6144, 0] S512x128.size inb_S8192x128_S512x128_6144_0).toLoadRect (harg1.unread x0)) (View.readAt (Elt Ideal) arg5.view (Rect.unit (s := S1x8192) ![0, 6144] S1x512.size inb_S1x8192_S1x512_0_6144).toLoadRect (harg5.unread x4)) X R p 6144 (by norm_num) hF hI (fun q k hq => hC 6144 _ q k hq),
      den_block (rowF i arg1 harg1 x0) (rowW arg4 harg4 x3) (rowIds i) (View.readAt (Elt Ideal) arg1.view (Rect.unit (s := S8192x128) ![6656, 0] S512x128.size inb_S8192x128_S512x128_6656_0).toLoadRect (harg1.unread x0)) (View.readAt (Elt Ideal) arg5.view (Rect.unit (s := S1x8192) ![0, 6656] S1x512.size inb_S1x8192_S1x512_0_6656).toLoadRect (harg5.unread x4)) X R p 6656 (by norm_num) hF hI (fun q k hq => hC 6656 _ q k hq),
      den_block (rowF i arg1 harg1 x0) (rowW arg4 harg4 x3) (rowIds i) (View.readAt (Elt Ideal) arg1.view (Rect.unit (s := S8192x128) ![7168, 0] S512x128.size inb_S8192x128_S512x128_7168_0).toLoadRect (harg1.unread x0)) (View.readAt (Elt Ideal) arg5.view (Rect.unit (s := S1x8192) ![0, 7168] S1x512.size inb_S1x8192_S1x512_0_7168).toLoadRect (harg5.unread x4)) X R p 7168 (by norm_num) hF hI (fun q k hq => hC 7168 _ q k hq),
      den_block (rowF i arg1 harg1 x0) (rowW arg4 harg4 x3) (rowIds i) (View.readAt (Elt Ideal) arg1.view (Rect.unit (s := S8192x128) ![7680, 0] S512x128.size inb_S8192x128_S512x128_7680_0).toLoadRect (harg1.unread x0)) (View.readAt (Elt Ideal) arg5.view (Rect.unit (s := S1x8192) ![0, 7680] S1x512.size inb_S1x8192_S1x512_0_7680).toLoadRect (harg5.unread x4)) X R p 7680 (by norm_num) hF hI (fun q k hq => hC 7680 _ q k hq)]
    rw [zero_word, acc16, zero_add]
    rfl
  unfold out0_A_5
  rw [View.read_writes_eq_canon _ _ _ (cover0_A_5 c i arg1 harg1 arg2 harg2 arg3 harg3 arg4 harg4 arg5 harg5 arg6 harg6 arg7 harg7 x0 x1 x2 x3 x4)]
  unfold kernelRun0_A
  dsimp only
  rw [View.canon_unit_zero off_zero, logsum_regular]
  unfold log16
  simp only [addf_apply, broadcast_apply]
  rw [log_block (rowF i arg1 harg1 x0) (rowW arg2 harg2 x1) (rowW arg4 harg4 x3) (rowIds i) (den16 i arg1 harg1 arg4 harg4 arg5 harg5 x0 x3 x4) (View.readAt (Elt Ideal) arg1.view (Rect.unit (s := S8192x128) ![0, 0] S512x128.size inb_S8192x128_S512x128_0_0).toLoadRect (harg1.unread x0)) (View.readAt (Elt Ideal) arg3.view (Rect.unit (s := S1x8192) ![0, 0] S1x512.size inb_S1x8192_S1x512_0_0).toLoadRect (harg3.unread x2)) (View.readAt (Elt Ideal) arg5.view (Rect.unit (s := S1x8192) ![0, 0] S1x512.size inb_S1x8192_S1x512_0_0).toLoadRect (harg5.unread x4)) X lab R p 0 (by norm_num) (den X R) hF hL hI hD (fun q k hq => hC 0 _ q k hq) (fun q hq => hW 0 _ q hq),
    log_block (rowF i arg1 harg1 x0) (rowW arg2 harg2 x1) (rowW arg4 harg4 x3) (rowIds i) (den16 i arg1 harg1 arg4 harg4 arg5 harg5 x0 x3 x4) (View.readAt (Elt Ideal) arg1.view (Rect.unit (s := S8192x128) ![512, 0] S512x128.size inb_S8192x128_S512x128_512_0).toLoadRect (harg1.unread x0)) (View.readAt (Elt Ideal) arg3.view (Rect.unit (s := S1x8192) ![0, 512] S1x512.size inb_S1x8192_S1x512_0_512).toLoadRect (harg3.unread x2)) (View.readAt (Elt Ideal) arg5.view (Rect.unit (s := S1x8192) ![0, 512] S1x512.size inb_S1x8192_S1x512_0_512).toLoadRect (harg5.unread x4)) X lab R p 512 (by norm_num) (den X R) hF hL hI hD (fun q k hq => hC 512 _ q k hq) (fun q hq => hW 512 _ q hq),
    log_block (rowF i arg1 harg1 x0) (rowW arg2 harg2 x1) (rowW arg4 harg4 x3) (rowIds i) (den16 i arg1 harg1 arg4 harg4 arg5 harg5 x0 x3 x4) (View.readAt (Elt Ideal) arg1.view (Rect.unit (s := S8192x128) ![1024, 0] S512x128.size inb_S8192x128_S512x128_1024_0).toLoadRect (harg1.unread x0)) (View.readAt (Elt Ideal) arg3.view (Rect.unit (s := S1x8192) ![0, 1024] S1x512.size inb_S1x8192_S1x512_0_1024).toLoadRect (harg3.unread x2)) (View.readAt (Elt Ideal) arg5.view (Rect.unit (s := S1x8192) ![0, 1024] S1x512.size inb_S1x8192_S1x512_0_1024).toLoadRect (harg5.unread x4)) X lab R p 1024 (by norm_num) (den X R) hF hL hI hD (fun q k hq => hC 1024 _ q k hq) (fun q hq => hW 1024 _ q hq),
    log_block (rowF i arg1 harg1 x0) (rowW arg2 harg2 x1) (rowW arg4 harg4 x3) (rowIds i) (den16 i arg1 harg1 arg4 harg4 arg5 harg5 x0 x3 x4) (View.readAt (Elt Ideal) arg1.view (Rect.unit (s := S8192x128) ![1536, 0] S512x128.size inb_S8192x128_S512x128_1536_0).toLoadRect (harg1.unread x0)) (View.readAt (Elt Ideal) arg3.view (Rect.unit (s := S1x8192) ![0, 1536] S1x512.size inb_S1x8192_S1x512_0_1536).toLoadRect (harg3.unread x2)) (View.readAt (Elt Ideal) arg5.view (Rect.unit (s := S1x8192) ![0, 1536] S1x512.size inb_S1x8192_S1x512_0_1536).toLoadRect (harg5.unread x4)) X lab R p 1536 (by norm_num) (den X R) hF hL hI hD (fun q k hq => hC 1536 _ q k hq) (fun q hq => hW 1536 _ q hq),
    log_block (rowF i arg1 harg1 x0) (rowW arg2 harg2 x1) (rowW arg4 harg4 x3) (rowIds i) (den16 i arg1 harg1 arg4 harg4 arg5 harg5 x0 x3 x4) (View.readAt (Elt Ideal) arg1.view (Rect.unit (s := S8192x128) ![2048, 0] S512x128.size inb_S8192x128_S512x128_2048_0).toLoadRect (harg1.unread x0)) (View.readAt (Elt Ideal) arg3.view (Rect.unit (s := S1x8192) ![0, 2048] S1x512.size inb_S1x8192_S1x512_0_2048).toLoadRect (harg3.unread x2)) (View.readAt (Elt Ideal) arg5.view (Rect.unit (s := S1x8192) ![0, 2048] S1x512.size inb_S1x8192_S1x512_0_2048).toLoadRect (harg5.unread x4)) X lab R p 2048 (by norm_num) (den X R) hF hL hI hD (fun q k hq => hC 2048 _ q k hq) (fun q hq => hW 2048 _ q hq),
    log_block (rowF i arg1 harg1 x0) (rowW arg2 harg2 x1) (rowW arg4 harg4 x3) (rowIds i) (den16 i arg1 harg1 arg4 harg4 arg5 harg5 x0 x3 x4) (View.readAt (Elt Ideal) arg1.view (Rect.unit (s := S8192x128) ![2560, 0] S512x128.size inb_S8192x128_S512x128_2560_0).toLoadRect (harg1.unread x0)) (View.readAt (Elt Ideal) arg3.view (Rect.unit (s := S1x8192) ![0, 2560] S1x512.size inb_S1x8192_S1x512_0_2560).toLoadRect (harg3.unread x2)) (View.readAt (Elt Ideal) arg5.view (Rect.unit (s := S1x8192) ![0, 2560] S1x512.size inb_S1x8192_S1x512_0_2560).toLoadRect (harg5.unread x4)) X lab R p 2560 (by norm_num) (den X R) hF hL hI hD (fun q k hq => hC 2560 _ q k hq) (fun q hq => hW 2560 _ q hq),
    log_block (rowF i arg1 harg1 x0) (rowW arg2 harg2 x1) (rowW arg4 harg4 x3) (rowIds i) (den16 i arg1 harg1 arg4 harg4 arg5 harg5 x0 x3 x4) (View.readAt (Elt Ideal) arg1.view (Rect.unit (s := S8192x128) ![3072, 0] S512x128.size inb_S8192x128_S512x128_3072_0).toLoadRect (harg1.unread x0)) (View.readAt (Elt Ideal) arg3.view (Rect.unit (s := S1x8192) ![0, 3072] S1x512.size inb_S1x8192_S1x512_0_3072).toLoadRect (harg3.unread x2)) (View.readAt (Elt Ideal) arg5.view (Rect.unit (s := S1x8192) ![0, 3072] S1x512.size inb_S1x8192_S1x512_0_3072).toLoadRect (harg5.unread x4)) X lab R p 3072 (by norm_num) (den X R) hF hL hI hD (fun q k hq => hC 3072 _ q k hq) (fun q hq => hW 3072 _ q hq),
    log_block (rowF i arg1 harg1 x0) (rowW arg2 harg2 x1) (rowW arg4 harg4 x3) (rowIds i) (den16 i arg1 harg1 arg4 harg4 arg5 harg5 x0 x3 x4) (View.readAt (Elt Ideal) arg1.view (Rect.unit (s := S8192x128) ![3584, 0] S512x128.size inb_S8192x128_S512x128_3584_0).toLoadRect (harg1.unread x0)) (View.readAt (Elt Ideal) arg3.view (Rect.unit (s := S1x8192) ![0, 3584] S1x512.size inb_S1x8192_S1x512_0_3584).toLoadRect (harg3.unread x2)) (View.readAt (Elt Ideal) arg5.view (Rect.unit (s := S1x8192) ![0, 3584] S1x512.size inb_S1x8192_S1x512_0_3584).toLoadRect (harg5.unread x4)) X lab R p 3584 (by norm_num) (den X R) hF hL hI hD (fun q k hq => hC 3584 _ q k hq) (fun q hq => hW 3584 _ q hq),
    log_block (rowF i arg1 harg1 x0) (rowW arg2 harg2 x1) (rowW arg4 harg4 x3) (rowIds i) (den16 i arg1 harg1 arg4 harg4 arg5 harg5 x0 x3 x4) (View.readAt (Elt Ideal) arg1.view (Rect.unit (s := S8192x128) ![4096, 0] S512x128.size inb_S8192x128_S512x128_4096_0).toLoadRect (harg1.unread x0)) (View.readAt (Elt Ideal) arg3.view (Rect.unit (s := S1x8192) ![0, 4096] S1x512.size inb_S1x8192_S1x512_0_4096).toLoadRect (harg3.unread x2)) (View.readAt (Elt Ideal) arg5.view (Rect.unit (s := S1x8192) ![0, 4096] S1x512.size inb_S1x8192_S1x512_0_4096).toLoadRect (harg5.unread x4)) X lab R p 4096 (by norm_num) (den X R) hF hL hI hD (fun q k hq => hC 4096 _ q k hq) (fun q hq => hW 4096 _ q hq),
    log_block (rowF i arg1 harg1 x0) (rowW arg2 harg2 x1) (rowW arg4 harg4 x3) (rowIds i) (den16 i arg1 harg1 arg4 harg4 arg5 harg5 x0 x3 x4) (View.readAt (Elt Ideal) arg1.view (Rect.unit (s := S8192x128) ![4608, 0] S512x128.size inb_S8192x128_S512x128_4608_0).toLoadRect (harg1.unread x0)) (View.readAt (Elt Ideal) arg3.view (Rect.unit (s := S1x8192) ![0, 4608] S1x512.size inb_S1x8192_S1x512_0_4608).toLoadRect (harg3.unread x2)) (View.readAt (Elt Ideal) arg5.view (Rect.unit (s := S1x8192) ![0, 4608] S1x512.size inb_S1x8192_S1x512_0_4608).toLoadRect (harg5.unread x4)) X lab R p 4608 (by norm_num) (den X R) hF hL hI hD (fun q k hq => hC 4608 _ q k hq) (fun q hq => hW 4608 _ q hq),
    log_block (rowF i arg1 harg1 x0) (rowW arg2 harg2 x1) (rowW arg4 harg4 x3) (rowIds i) (den16 i arg1 harg1 arg4 harg4 arg5 harg5 x0 x3 x4) (View.readAt (Elt Ideal) arg1.view (Rect.unit (s := S8192x128) ![5120, 0] S512x128.size inb_S8192x128_S512x128_5120_0).toLoadRect (harg1.unread x0)) (View.readAt (Elt Ideal) arg3.view (Rect.unit (s := S1x8192) ![0, 5120] S1x512.size inb_S1x8192_S1x512_0_5120).toLoadRect (harg3.unread x2)) (View.readAt (Elt Ideal) arg5.view (Rect.unit (s := S1x8192) ![0, 5120] S1x512.size inb_S1x8192_S1x512_0_5120).toLoadRect (harg5.unread x4)) X lab R p 5120 (by norm_num) (den X R) hF hL hI hD (fun q k hq => hC 5120 _ q k hq) (fun q hq => hW 5120 _ q hq),
    log_block (rowF i arg1 harg1 x0) (rowW arg2 harg2 x1) (rowW arg4 harg4 x3) (rowIds i) (den16 i arg1 harg1 arg4 harg4 arg5 harg5 x0 x3 x4) (View.readAt (Elt Ideal) arg1.view (Rect.unit (s := S8192x128) ![5632, 0] S512x128.size inb_S8192x128_S512x128_5632_0).toLoadRect (harg1.unread x0)) (View.readAt (Elt Ideal) arg3.view (Rect.unit (s := S1x8192) ![0, 5632] S1x512.size inb_S1x8192_S1x512_0_5632).toLoadRect (harg3.unread x2)) (View.readAt (Elt Ideal) arg5.view (Rect.unit (s := S1x8192) ![0, 5632] S1x512.size inb_S1x8192_S1x512_0_5632).toLoadRect (harg5.unread x4)) X lab R p 5632 (by norm_num) (den X R) hF hL hI hD (fun q k hq => hC 5632 _ q k hq) (fun q hq => hW 5632 _ q hq),
    log_block (rowF i arg1 harg1 x0) (rowW arg2 harg2 x1) (rowW arg4 harg4 x3) (rowIds i) (den16 i arg1 harg1 arg4 harg4 arg5 harg5 x0 x3 x4) (View.readAt (Elt Ideal) arg1.view (Rect.unit (s := S8192x128) ![6144, 0] S512x128.size inb_S8192x128_S512x128_6144_0).toLoadRect (harg1.unread x0)) (View.readAt (Elt Ideal) arg3.view (Rect.unit (s := S1x8192) ![0, 6144] S1x512.size inb_S1x8192_S1x512_0_6144).toLoadRect (harg3.unread x2)) (View.readAt (Elt Ideal) arg5.view (Rect.unit (s := S1x8192) ![0, 6144] S1x512.size inb_S1x8192_S1x512_0_6144).toLoadRect (harg5.unread x4)) X lab R p 6144 (by norm_num) (den X R) hF hL hI hD (fun q k hq => hC 6144 _ q k hq) (fun q hq => hW 6144 _ q hq),
    log_block (rowF i arg1 harg1 x0) (rowW arg2 harg2 x1) (rowW arg4 harg4 x3) (rowIds i) (den16 i arg1 harg1 arg4 harg4 arg5 harg5 x0 x3 x4) (View.readAt (Elt Ideal) arg1.view (Rect.unit (s := S8192x128) ![6656, 0] S512x128.size inb_S8192x128_S512x128_6656_0).toLoadRect (harg1.unread x0)) (View.readAt (Elt Ideal) arg3.view (Rect.unit (s := S1x8192) ![0, 6656] S1x512.size inb_S1x8192_S1x512_0_6656).toLoadRect (harg3.unread x2)) (View.readAt (Elt Ideal) arg5.view (Rect.unit (s := S1x8192) ![0, 6656] S1x512.size inb_S1x8192_S1x512_0_6656).toLoadRect (harg5.unread x4)) X lab R p 6656 (by norm_num) (den X R) hF hL hI hD (fun q k hq => hC 6656 _ q k hq) (fun q hq => hW 6656 _ q hq),
    log_block (rowF i arg1 harg1 x0) (rowW arg2 harg2 x1) (rowW arg4 harg4 x3) (rowIds i) (den16 i arg1 harg1 arg4 harg4 arg5 harg5 x0 x3 x4) (View.readAt (Elt Ideal) arg1.view (Rect.unit (s := S8192x128) ![7168, 0] S512x128.size inb_S8192x128_S512x128_7168_0).toLoadRect (harg1.unread x0)) (View.readAt (Elt Ideal) arg3.view (Rect.unit (s := S1x8192) ![0, 7168] S1x512.size inb_S1x8192_S1x512_0_7168).toLoadRect (harg3.unread x2)) (View.readAt (Elt Ideal) arg5.view (Rect.unit (s := S1x8192) ![0, 7168] S1x512.size inb_S1x8192_S1x512_0_7168).toLoadRect (harg5.unread x4)) X lab R p 7168 (by norm_num) (den X R) hF hL hI hD (fun q k hq => hC 7168 _ q k hq) (fun q hq => hW 7168 _ q hq),
    log_block (rowF i arg1 harg1 x0) (rowW arg2 harg2 x1) (rowW arg4 harg4 x3) (rowIds i) (den16 i arg1 harg1 arg4 harg4 arg5 harg5 x0 x3 x4) (View.readAt (Elt Ideal) arg1.view (Rect.unit (s := S8192x128) ![7680, 0] S512x128.size inb_S8192x128_S512x128_7680_0).toLoadRect (harg1.unread x0)) (View.readAt (Elt Ideal) arg3.view (Rect.unit (s := S1x8192) ![0, 7680] S1x512.size inb_S1x8192_S1x512_0_7680).toLoadRect (harg3.unread x2)) (View.readAt (Elt Ideal) arg5.view (Rect.unit (s := S1x8192) ![0, 7680] S1x512.size inb_S1x8192_S1x512_0_7680).toLoadRect (harg5.unread x4)) X lab R p 7680 (by norm_num) (den X R) hF hL hI hD (fun q k hq => hC 7680 _ q k hq) (fun q hq => hW 7680 _ q hq)]
  rw [zero_word, acc16, zero_add]
  rfl

end Cert.KernelIdeal.Body

end
-- ==== Proof.KArrays.lean ====
/-
  From what each grid point writes to the two output columns after the run.

  The region has sixteen points; point t handles the rows 512·t … 512·t + 511. Its feature window and its
  column-label window are the whole arrays at every point (block index zero); its row-label window and its two output
  windows are at row block t. So what the point finds in its input blocks is: the normalized features, the labels of
  its own 512 rows, and the labels of all 8192 rows — the hypotheses under which one point's output blocks are, row by
  row, the row's sum of log-fractions and the row's count of positives. What the point writes back is therefore its
  row block of ONE whole column, the same function of the arguments at every point; the sixteen row blocks cover the
  column (row r lies in the block of point r / 512), so after the run each output column IS that function.
-/
import proofs.«134954_j1726576853397_1_alg».proof.Proof.KInputs
import proofs.«134954_j1726576853397_1_alg».proof.Proof.BodyValue
import Idealize.ShloMosaic.Lib.Pipeline.Value

set_option maxRecDepth 16384

noncomputable section

namespace Cert.KernelIdeal.KValue

open Cert.Contrast Cert.KernelIdeal Cert.KernelIdeal.Gen Idealize.ShloMosaic Idealize.ShloMosaic.TcCoe Idealize.ShloMosaic.ValueIdx Idealize.SL.Sem

open Idealize.ShloMosaic.Pipeline (Dat)

variable (m : (ℓ : Loc nD τ sig) → Buf (Elt Ideal) ℓ)

/-- The printed index maps over the sixteen points: the feature window and the column-label window stay at block zero;
    the row-label window and the two output windows are at the point's row block. -/
theorem idx_facts : ∀ t : Fin cfg0.N,
    win0_0.index t (0 : Fin 2) = 0 ∧ win0_0.index t (1 : Fin 2) = 0
    ∧ win0_1.index t (0 : Fin 2) = ((grid0.coords t) 0).val ∧ win0_1.index t (1 : Fin 2) = 0
    ∧ win0_2.index t (0 : Fin 2) = 0 ∧ win0_2.index t (1 : Fin 2) = 0
    ∧ win0_5.index t (0 : Fin 2) = ((grid0.coords t) 0).val ∧ win0_5.index t (1 : Fin 2) = 0
    ∧ win0_6.index t (0 : Fin 2) = ((grid0.coords t) 0).val ∧ win0_6.index t (1 : Fin 2) = 0
    ∧ ((grid0.coords t) 0).val < 16 :=
  (by decide +kernel : ∀ t : Fin grid0.N, _)

/-- Every row block is some point's. -/
theorem idx_onto5 : ∀ q0 : Fin 16, ∃ t : Fin cfg0.N, win0_5.index t = ![q0.val, 0] :=
  (by decide +kernel : ∀ q0 : Fin 16, ∃ t : Fin grid0.N, win0_5.index t = ![q0.val, 0])
theorem idx_onto6 : ∀ q0 : Fin 16, ∃ t : Fin cfg0.N, win0_6.index t = ![q0.val, 0] :=
  (by decide +kernel : ∀ q0 : Fin 16, ∃ t : Fin grid0.N, win0_6.index t = ![q0.val, 0])

/-- The feature window's block at any point is the whole array. -/
theorem iblk0_apply (c : Dev nD) (t : Fin cfg0.N) (j : S8192x128.Idx) :
    iblk m c 0 t j = (V m c main_v5 : FVec Ideal S8192x128 .bf16) j := by
  obtain ⟨e0, e1, -⟩ := idx_facts t
  show (V m c main_v5 : FVec Ideal S8192x128 .bf16) (((cfg0.win 0).blk t).view.emb j) = (V m c main_v5 : FVec Ideal S8192x128 .bf16) j
  have h : ((cfg0.win 0).blk t).view.emb j = j := by
    funext a; apply Fin.ext
    match a with
    | ⟨0, _⟩ => show win0_0.index t (0 : Fin 2) * 8192 + 1 * (j 0).val = (j 0).val; omega
    | ⟨1, _⟩ => show win0_0.index t (1 : Fin 2) * 128 + 1 * (j 1).val = (j 1).val; omega
  rw [h]

/-- The row-label window's block at a point, at row `q` of the block, is the label of row 512·(the point's row block) + q. -/
theorem iblk1_apply (c : Dev nD) (t : Fin cfg0.N) (q : Fin 512) (hq : 512 * ((grid0.coords t) 0).val + q.val < 8192) :
    iblk m c 1 t (ix2 q (0 : Fin 1)) = m ((c.tc : Thread nD τ).loc main_arg1) (ix1 ⟨512 * ((grid0.coords t) 0).val + q.val, hq⟩) := by
  obtain ⟨-, -, e2, e3, -⟩ := idx_facts t
  show (V m c main_v6 : S8192x1.Idx → BitVec 32) (((cfg0.win 1).blk t).view.emb (ix2 q (0 : Fin 1))) = _
  have h : ((cfg0.win 1).blk t).view.emb (ix2 q (0 : Fin 1)) = ix2 (⟨512 * ((grid0.coords t) 0).val + q.val, hq⟩ : Fin 8192) (0 : Fin 1) := by
    funext a; apply Fin.ext
    match a with
    | ⟨0, _⟩ => show win0_1.index t (0 : Fin 2) * 512 + 1 * q.val = 512 * ((grid0.coords t) 0).val + q.val; omega
    | ⟨1, _⟩ => show win0_1.index t (1 : Fin 2) * 1 + 1 * 0 = 0; omega
  rw [h]
  exact V_v6_apply m c _ _

/-- The column-label window's block at any point is the whole row: at column `j` the label of row `j`. -/
theorem iblk2_apply (c : Dev nD) (t : Fin cfg0.N) (j : Fin 8192) :
    iblk m c 2 t (ix2 (0 : Fin 1) j) = m ((c.tc : Thread nD τ).loc main_arg1) (ix1 j) := by
  obtain ⟨-, -, -, -, e4, e5, -⟩ := idx_facts t
  show (V m c main_v7 : S1x8192.Idx → BitVec 32) (((cfg0.win 2).blk t).view.emb (ix2 (0 : Fin 1) j)) = _
  have h : ((cfg0.win 2).blk t).view.emb (ix2 (0 : Fin 1) j) = ix2 (0 : Fin 1) j := by
    funext a; apply Fin.ext
    match a with
    | ⟨0, _⟩ => show win0_2.index t (0 : Fin 2) * 1 + 1 * 0 = 0; omega
    | ⟨1, _⟩ => show win0_2.index t (1 : Fin 2) * 8192 + 1 * j.val = j.val; omega
  rw [h]
  exact V_v7_apply m c _ _

/-- One point's first output block at row `p`, when the point's input blocks hold the features `X`, the labels of the
    point's own rows and the labels of all rows: the sum of log-fractions of row 512·(row block) + p. -/
theorem point_logsum (c : Dev nD) (i : grid0.Coords) (arg1 : Memref sig .tc .vmem S8192x128 .bf16) (harg1 : arg1.IsWhole) (arg2 : Memref sig .tc .vmem S512x1 .i32) (harg2 : arg2.IsWhole) (arg3 : Memref sig .tc .vmem S1x8192 .i32) (harg3 : arg3.IsWhole) (arg4 : Memref sig .tc .vmem S512x1 .i32) (harg4 : arg4.IsWhole) (arg5 : Memref sig .tc .vmem S1x8192 .i32) (harg5 : arg5.IsWhole) (arg6 : Memref sig .tc .vmem S512x1 .f32) (harg6 : arg6.IsWhole) (arg7 : Memref sig .tc .vmem S512x1 .f32) (harg7 : arg7.IsWhole)
    (x0 : Vec Ideal S8192x128 .bf16) (x1 : Vec Ideal S512x1 .i32) (x2 : Vec Ideal S1x8192 .i32) (x3 : Vec Ideal S512x1 .i32) (x4 : Vec Ideal S1x8192 .i32)
    (X : SX.Idx → EReal) (lab : SL.Idx → BitVec 32)
    (h0 : ∀ j : S8192x128.Idx, x0 j = X j)
    (h1 : ∀ (q : Fin 512) (hq : 512 * (i 0).val + q.val < 8192), x1 (ix2 q (0 : Fin 1)) = lab (ix1 ⟨512 * (i 0).val + q.val, hq⟩))
    (h2 : ∀ j : Fin 8192, x2 (ix2 (0 : Fin 1) j) = lab (ix1 j))
    (p : Fin 512) (hp : 512 * (i 0).val + p.val < 8192) :
    out0_A_5 (F := Ideal) c i arg1 harg1 arg2 harg2 arg3 harg3 arg4 harg4 arg5 harg5 arg6 harg6 arg7 harg7 x0 x1 x2 x3 x4 (ix2 p (0 : Fin 1))
      = logSum X lab ⟨512 * (i 0).val + p.val, hp⟩ := by
  have e0 : (fun j => x0 j) = X := funext h0
  have e2 : (fun j : SL.Idx => x2 (ix2 (0 : Fin 1) (j 0))) = lab :=
    funext fun j => (h2 (j 0)).trans (congrArg lab (eq_ix1 j).symm)
  rw [Body.logsum_apply c i arg1 harg1 arg2 harg2 arg3 harg3 arg4 harg4 arg5 harg5 arg6 harg6 arg7 harg7 x0 x1 x2 x3 x4
    (fun q hq => (h1 q hq).trans (h2 _).symm) p hp, e0, e2]

/-- The same for the second output block: the number of positives of that row. -/
theorem point_count (c : Dev nD) (i : grid0.Coords) (arg1 : Memref sig .tc .vmem S8192x128 .bf16) (harg1 : arg1.IsWhole) (arg2 : Memref sig .tc .vmem S512x1 .i32) (harg2 : arg2.IsWhole) (arg3 : Memref sig .tc .vmem S1x8192 .i32) (harg3 : arg3.IsWhole) (arg4 : Memref sig .tc .vmem S512x1 .i32) (harg4 : arg4.IsWhole) (arg5 : Memref sig .tc .vmem S1x8192 .i32) (harg5 : arg5.IsWhole) (arg6 : Memref sig .tc .vmem S512x1 .f32) (harg6 : arg6.IsWhole) (arg7 : Memref sig .tc .vmem S512x1 .f32) (harg7 : arg7.IsWhole)
    (x0 : Vec Ideal S8192x128 .bf16) (x1 : Vec Ideal S512x1 .i32) (x2 : Vec Ideal S1x8192 .i32) (x3 : Vec Ideal S512x1 .i32) (x4 : Vec Ideal S1x8192 .i32)
    (lab : SL.Idx → BitVec 32)
    (h1 : ∀ (q : Fin 512) (hq : 512 * (i 0).val + q.val < 8192), x1 (ix2 q (0 : Fin 1)) = lab (ix1 ⟨512 * (i 0).val + q.val, hq⟩))
    (h2 : ∀ j : Fin 8192, x2 (ix2 (0 : Fin 1) j) = lab (ix1 j))
    (p : Fin 512) (hp : 512 * (i 0).val + p.val < 8192) :
    out0_A_6 (F := Ideal) c i arg1 harg1 arg2 harg2 arg3 harg3 arg4 harg4 arg5 harg5 arg6 harg6 arg7 harg7 x0 x1 x2 x3 x4 (ix2 p (0 : Fin 1))
      = ((numPos lab ⟨512 * (i 0).val + p.val, hp⟩ : ℕ) : EReal) := by
  have e2 : (fun j : SL.Idx => x2 (ix2 (0 : Fin 1) (j 0))) = lab :=
    funext fun j => (h2 (j 0)).trans (congrArg lab (eq_ix1 j).symm)
  rw [Body.count_apply c i arg1 harg1 arg2 harg2 arg3 harg3 arg4 harg4 arg5 harg5 arg6 harg6 arg7 harg7 x0 x1 x2 x3 x4
    (fun q hq => (h1 q hq).trans (h2 _).symm) p hp, e2]

/-- The features and the labels as the specification takes them: the normalized features, and the label vector. -/
abbrev Xof (c : Dev nD) : SX.Idx → EReal := fun j => featK (m ((c.tc : Thread nD τ).loc main_arg0)) j
abbrev labOf (c : Dev nD) : SL.Idx → BitVec 32 := fun j => m ((c.tc : Thread nD τ).loc main_arg1) j

/-- The two output columns as functions of the arguments: row `r`'s sum of log-fractions, and its count of positives. -/
def colLogSum (c : Dev nD) : S8192x1.Idx → EReal := fun j => logSum (Xof m c) (labOf m c) (j 0)
def colCount (c : Dev nD) : S8192x1.Idx → EReal := fun j => ((numPos (labOf m c) (j 0) : ℕ) : EReal)

/-- What a point writes back to output 5 (the sums of log-fractions) is its row block of the whole column. -/
theorem flushed5_eq (c : Dev nD) (t : Fin cfg0.N) :
    (dats m 0 c).flushed 5 t = ((cfg0.win 5).blk t).view.read (Elt Ideal) (colLogSum m c) := by
  show (cfg0.win 5).cut (grid0.coords t) ((dats m 0 c).after 5 t) = _
  rw [after0_5]
  obtain ⟨-, -, -, -, -, -, e6, e7, e8, e9, hlt⟩ := idx_facts t
  funext y
  have hy0 : (y 0).val < 512 := (y 0).isLt
  have hy1 : (y 1).val < 1 := (y 1).isLt
  have hp : 512 * ((grid0.coords t) 0).val + (y 0).val < 8192 := by omega
  have hx : (cfg0.win 5).xinj (grid0.coords t) y = ix2 (⟨(y 0).val, hy0⟩ : Fin 512) (0 : Fin 1) := by
    funext a; apply Fin.ext
    match a with
    | ⟨0, _⟩ => rfl
    | ⟨1, _⟩ => show (y 1).val = 0; omega
  have hemb : ((cfg0.win 5).blk t).view.emb y = ix2 (⟨512 * ((grid0.coords t) 0).val + (y 0).val, hp⟩ : Fin 8192) (0 : Fin 1) := by
    funext a; apply Fin.ext
    match a with
    | ⟨0, _⟩ => show win0_5.index t (0 : Fin 2) * 512 + 1 * (y 0).val = 512 * ((grid0.coords t) 0).val + (y 0).val; omega
    | ⟨1, _⟩ => show win0_5.index t (1 : Fin 2) * 1 + 1 * (y 1).val = 0; omega
  show (outsAt0 m c t).1 ((cfg0.win 5).xinj (grid0.coords t) y) = colLogSum m c (((cfg0.win 5).blk t).view.emb y)
  rw [hx, hemb]
  unfold outsAt0 colLogSum
  exact point_logsum c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (iblk m c 0 t) (iblk m c 1 t) (iblk m c 2 t) (iblk m c 3 t) (iblk m c 4 t) (Xof m c) (labOf m c) (fun j => (iblk0_apply m c t j).trans (V_v5_apply m c j))
    (fun q hq => iblk1_apply m c t q hq) (fun j => iblk2_apply m c t j) ⟨(y 0).val, hy0⟩ hp

/-- A row of the column is in a point's block iff it is among the point's 512 rows. -/
theorem mem_blk5 (t : Fin cfg0.N) (i : S8192x1.Idx) :
    i ∈ ((cfg0.win 5).blk t).view.set ↔ ∀ a : Fin 2, win0_5.index t a * S512x1.size a ≤ (i a).val ∧ (i a).val < win0_5.index t a * S512x1.size a + S512x1.size a := by
  show i ∈ ((View.whole main_v10_0).slice (win0_5.rect t)).set ↔ _
  rw [View.set_slice_whole, Rect.mem_set_unit]
  exact Iff.rfl

/-- Row `r` is written back by the point of row block `r / 512`. -/
theorem cover5 (i : S8192x1.Idx) : ∃ t : Fin cfg0.N, (cfg0.win 5).flush t = true ∧ i ∈ ((cfg0.win 5).blk t).view.set := by
  have hi0 : (i 0).val < 8192 := (i 0).isLt
  have hi1 : (i 1).val < 1 := (i 1).isLt
  obtain ⟨t, ht⟩ := idx_onto5 ⟨(i 0).val / 512, by omega⟩
  have q0 : win0_5.index t (0 : Fin 2) = (i 0).val / 512 := congrFun ht 0
  have q1 : win0_5.index t (1 : Fin 2) = 0 := congrFun ht 1
  refine ⟨t, flush0_5 t, ?_⟩
  rw [mem_blk5]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1 ≤ (i 1).val ∧ (i 1).val < win0_5.index t (1 : Fin 2) * 1 + 1; omega

/-- After the run the first output column holds, row by row, the row's sum of log-fractions. -/
theorem final5 (c : Dev nD) : (dats m 0 c).arrAt 5 cfg0.N = colLogSum m c :=
  (dats m 0 c).arrAt_eq_of_cover 5 (colLogSum m c) (fun t _ => flushed5_eq m c t) cover5

/-- What a point writes back to output 6 (the counts) is its row block of the whole column. -/
theorem flushed6_eq (c : Dev nD) (t : Fin cfg0.N) :
    (dats m 0 c).flushed 6 t = ((cfg0.win 6).blk t).view.read (Elt Ideal) (colCount m c) := by
  show (cfg0.win 6).cut (grid0.coords t) ((dats m 0 c).after 6 t) = _
  rw [after0_6]
  obtain ⟨-, -, -, -, -, -, e6, e7, e8, e9, hlt⟩ := idx_facts t
  funext y
  have hy0 : (y 0).val < 512 := (y 0).isLt
  have hy1 : (y 1).val < 1 := (y 1).isLt
  have hp : 512 * ((grid0.coords t) 0).val + (y 0).val < 8192 := by omega
  have hx : (cfg0.win 6).xinj (grid0.coords t) y = ix2 (⟨(y 0).val, hy0⟩ : Fin 512) (0 : Fin 1) := by
    funext a; apply Fin.ext
    match a with
    | ⟨0, _⟩ => rfl
    | ⟨1, _⟩ => show (y 1).val = 0; omega
  have hemb : ((cfg0.win 6).blk t).view.emb y = ix2 (⟨512 * ((grid0.coords t) 0).val + (y 0).val, hp⟩ : Fin 8192) (0 : Fin 1) := by
    funext a; apply Fin.ext
    match a with
    | ⟨0, _⟩ => show win0_6.index t (0 : Fin 2) * 512 + 1 * (y 0).val = 512 * ((grid0.coords t) 0).val + (y 0).val; omega
    | ⟨1, _⟩ => show win0_6.index t (1 : Fin 2) * 1 + 1 * (y 1).val = 0; omega
  show (outsAt0 m c t).2 ((cfg0.win 6).xinj (grid0.coords t) y) = colCount m c (((cfg0.win 6).blk t).view.emb y)
  rw [hx, hemb]
  unfold outsAt0 colCount
  exact point_count c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (iblk m c 0 t) (iblk m c 1 t) (iblk m c 2 t) (iblk m c 3 t) (iblk m c 4 t) (labOf m c)
    (fun q hq => iblk1_apply m c t q hq) (fun j => iblk2_apply m c t j) ⟨(y 0).val, hy0⟩ hp

/-- A row of the column is in a point's block iff it is among the point's 512 rows. -/
theorem mem_blk6 (t : Fin cfg0.N) (i : S8192x1.Idx) :
    i ∈ ((cfg0.win 6).blk t).view.set ↔ ∀ a : Fin 2, win0_6.index t a * S512x1.size a ≤ (i a).val ∧ (i a).val < win0_6.index t a * S512x1.size a + S512x1.size a := by
  show i ∈ ((View.whole main_v10_1).slice (win0_6.rect t)).set ↔ _
  rw [View.set_slice_whole, Rect.mem_set_unit]
  exact Iff.rfl

/-- Row `r` is written back by the point of row block `r / 512`. -/
theorem cover6 (i : S8192x1.Idx) : ∃ t : Fin cfg0.N, (cfg0.win 6).flush t = true ∧ i ∈ ((cfg0.win 6).blk t).view.set := by
  have hi0 : (i 0).val < 8192 := (i 0).isLt
  have hi1 : (i 1).val < 1 := (i 1).isLt
  obtain ⟨t, ht⟩ := idx_onto6 ⟨(i 0).val / 512, by omega⟩
  have q0 : win0_6.index t (0 : Fin 2) = (i 0).val / 512 := congrFun ht 0
  have q1 : win0_6.index t (1 : Fin 2) = 0 := congrFun ht 1
  refine ⟨t, flush0_6 t, ?_⟩
  rw [mem_blk6]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 1 ≤ (i 1).val ∧ (i 1).val < win0_6.index t (1 : Fin 2) * 1 + 1; omega

/-- After the run the second output column holds, row by row, the row's count of positives. -/
theorem final6 (c : Dev nD) : (dats m 0 c).arrAt 6 cfg0.N = colCount m c :=
  (dats m 0 c).arrAt_eq_of_cover 6 (colCount m c) (fun t _ => flushed6_eq m c t) cover6

end Cert.KernelIdeal.KValue

end
-- ==== Proof.LibAxisReads.lean ====
/-
  Broadcasts of scalars, vectors, rows and columns, and sums over either axis of a matrix, read at an index on the
  extended reals, for any extents.

  * A scalar (a rank-0 array) broadcast to any shape reads, at every index, its one entry; a constant scalar reads the
    value its word denotes.
  * A vector [a] made a column [a, 1] reads its entry of the row; a column [a, 1] spread over c columns reads the
    column's entry of the row. A vector [b] made a row [1, b] reads its entry of the column; a row [1, b] spread over
    a rows reads the row's entry of the column. (The host's `broadcast_in_dim` spellings: what `jnp.mean(axis=0)`,
    `jnp.var`, a bias add and a softmax's keepdims print as.)
  * A host sum of an [a, b] matrix over its first axis reads, at column e, the initial value plus the sum of the
    column's entries; over its last axis, at row i, the initial value plus the sum of the row's entries: the index
    with the summed coordinate put back is (r, e), respectively (i, f).
  * A vector sum (`multi_reduction <add>`) over the LEADING axis of an [a, b] matrix reads, at column e, the sum of
    that column (the accumulator word being the sum's neutral element, no initial term appears).
-/
import Idealize.ShloMosaic.Lib.ValueIdx
import Idealize.ShloMosaic.Lib.Pipeline.Value
import Idealize.ShloMosaic.PureOps.Ideal.Laws

noncomputable section

open scoped BigOperators

namespace Cert.LibAxisReads

open Idealize.ShloMosaic Idealize.ShloMosaic.ValueIdx

variable {α : Type}

/-- A rank-0 array broadcast to any shape reads its one entry everywhere. -/
theorem scalar_broadcast_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun a => a.elim0)

/-- A constant scalar broadcast to any shape reads, at every index, the value the constant's word denotes. -/
theorem const_broadcast_apply {t : Shape} {φ : FTy} (dims : Fin 0 → Fin t.rank) (h : (⟨0, ![]⟩ : Shape).BroadcastsInDim t dims)
    (b : BitVec φ.bits) (j : t.Idx) :
    broadcastInDim t dims h (constant (F := Ideal) ⟨0, ![]⟩ φ b) j = Ideal.ofBits φ b :=
  scalar_broadcast_apply dims h _ j

/-- A vector [a] made a column [a, 1] reads, at (r, u), the vector at r. -/
theorem vec_column_apply {a : ℕ} (v : (⟨1, ![a]⟩ : Shape).Idx → α)
    (h : (⟨1, ![a]⟩ : Shape).BroadcastsInDim ⟨2, ![a, 1]⟩ ![0]) (r : Fin a) (u : Fin 1) :
    broadcastInDim ⟨2, ![a, 1]⟩ ![0] h v (ix2 r u) = v (ix1 r) :=
  broadcastInDim_apply ![0] h v (ix2 r u) (ix1 r) (fun d => by
    match d with
    | ⟨0, _⟩ =>
      show r.val = if a = 1 then 0 else r.val
      split
      · have := r.isLt; omega
      · rfl)

/-- A vector [b] made a row [1, b] reads, at (u, e), the vector at e. -/
theorem vec_row_apply {b : ℕ} (v : (⟨1, ![b]⟩ : Shape).Idx → α)
    (h : (⟨1, ![b]⟩ : Shape).BroadcastsInDim ⟨2, ![1, b]⟩ ![1]) (u : Fin 1) (e : Fin b) :
    broadcastInDim ⟨2, ![1, b]⟩ ![1] h v (ix2 u e) = v (ix1 e) :=
  broadcastInDim_apply ![1] h v (ix2 u e) (ix1 e) (fun d => by
    match d with
    | ⟨0, _⟩ =>
      show e.val = if b = 1 then 0 else e.val
      split
      · have := e.isLt; omega
      · rfl)

/-- A row [1, b] spread over a rows reads, at (r, e), the row's entry of column e. -/
theorem row_spread_apply {a b : ℕ} (v : (⟨2, ![1, b]⟩ : Shape).Idx → α)
    (h : (⟨2, ![1, b]⟩ : Shape).BroadcastsInDim ⟨2, ![a, b]⟩ ![0, 1]) (r : Fin a) (e : Fin b) :
    broadcastInDim ⟨2, ![a, b]⟩ ![0, 1] h v (ix2 r e) = v (ix2 (0 : Fin 1) e) :=
  broadcastInDim_apply ![0, 1] h v (ix2 r e) (ix2 (0 : Fin 1) e) (fun d => by
    match d with
    | ⟨0, _⟩ =>
      show (0 : ℕ) = if (1 : ℕ) = 1 then 0 else r.val
      rw [if_pos rfl]
    | ⟨1, _⟩ =>
      show e.val = if b = 1 then 0 else e.val
      split
      · have := e.isLt; omega
      · rfl)

/-- A column [a, 1] spread over c columns reads, at (r, e), the column's entry of row r. -/
theorem column_spread_apply {a c : ℕ} (v : (⟨2, ![a, 1]⟩ : Shape).Idx → α)
    (h : (⟨2, ![a, 1]⟩ : Shape).BroadcastsInDim ⟨2, ![a, c]⟩ ![0, 1]) (r : Fin a) (e : Fin c) :
    broadcastInDim ⟨2, ![a, c]⟩ ![0, 1] h v (ix2 r e) = v (ix2 r (0 : Fin 1)) :=
  broadcastInDim_apply ![0, 1] h v (ix2 r e) (ix2 r (0 : Fin 1)) (fun d => by
    match d with
    | ⟨0, _⟩ =>
      show r.val = if a = 1 then 0 else r.val
      split
      · have := r.isLt; omega
      · rfl
    | ⟨1, _⟩ =>
      show (0 : ℕ) = if (1 : ℕ) = 1 then 0 else e.val
      rw [if_pos rfl])

/-- A host sum over the first axis of an [a, b] matrix reads, at column e, the initial value plus the sum of the
    column's entries. -/
theorem hostReduceAdd_firstAxis_apply {a b : ℕ} {φ : FTy} {u : Shape} (x : FVec Ideal ⟨2, ![a, b]⟩ φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (e : Fin b) :
    Host.reduceAdd (F := Ideal) x init h' hu (ix1 e) = init (Shape.Idx.first hu) + ∑ r : Fin a, x (ix2 r e) := by
  refine (Ideal.hostReduceAdd_single h' h x (init (Shape.Idx.first hu)) (ix1 e)).trans ?_
  refine congrArg (fun z => init (Shape.Idx.first hu) + z) ?_
  exact Finset.sum_congr rfl fun r _ => congrArg x (funext fun d => Fin.ext (by
    match d with
    | ⟨0, _⟩ => rfl
    | ⟨1, _⟩ => rfl))

/-- A host sum over the last axis of an [a, b] matrix reads, at row i, the initial value plus the sum of the row's
    entries. -/
theorem hostReduceAdd_lastAxis_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduceAdd (F := Ideal) x init h' hu (ix1 i) = init (Shape.Idx.first hu) + ∑ f : Fin b, x (ix2 i f) := by
  refine (Ideal.hostReduceAdd_single h' h x (init (Shape.Idx.first hu)) (ix1 i)).trans ?_
  refine congrArg (fun z => init (Shape.Idx.first hu) + z) ?_
  exact Finset.sum_congr rfl fun f _ => congrArg x (funext fun d => Fin.ext (by
    match d with
    | ⟨0, _⟩ => rfl
    | ⟨1, _⟩ => rfl))

/-- On the extended reals a vector sum over the leading axis of an `[a, b]` matrix reads, at column `e`, the sum of
    that column's entries: the index over `e` with coordinate `r` put back on the summed axis is `(r, e)`. -/
theorem multiReduction_add_firstAxis_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (e : Fin b) :
    multiReduction .add [0] ⟨1, ![b]⟩ src acc h hφ hacc (ix1 e) = ∑ r : Fin a, src (ix2 r e) := by
  refine (Ideal.multiReduction_add_single src acc h hφ hacc (ix1 e)).trans ?_
  exact Finset.sum_congr rfl fun r _ => congrArg src (funext fun d => Fin.ext (by
    match d with
    | ⟨0, _⟩ => rfl
    | ⟨1, _⟩ => rfl))

end Cert.LibAxisReads

end
-- ==== Proof.KTail.lean ====
/-
  The lines after the region.

  The region leaves two columns [8192, 1]: each row's sum of log-fractions and each row's count of positives. The
  program reshapes both to vectors, divides the sum by the larger of the count and one (the row's loss), marks the rows
  whose count is positive, counts the rows that are NOT marked, sums the marked rows' losses (the others replaced by
  zero), negates, and divides by 8192 less the unmarked count plus one. Everything after the rows' losses and the marks
  is carried as ONE function `kerTail` of those two vectors and never opened; the rows' losses and the marks are read
  entry by entry.
-/
import proofs.«134954_j1726576853397_1_alg».proof.Proof.Gen.KernelIdeal.Frame
import proofs.«134954_j1726576853397_1_alg».proof.Proof.Spec
import proofs.«134954_j1726576853397_1_alg».proof.Proof.LibAxisReads
import Idealize.ShloMosaic.Lib.IdealHost

set_option maxRecDepth 16384

noncomputable section

namespace Cert.KernelIdeal.KValue

open Cert.Contrast Cert.KernelIdeal Cert.KernelIdeal.Gen Idealize.ShloMosaic Idealize.ShloMosaic.TcCoe Idealize.ShloMosaic.ValueIdx Idealize.SL.Sem

/-- The lines after the rows' losses and marks as ONE function of the two: the unmarked rows are counted; the marked
    rows' losses are summed from zero (an unmarked row contributes zero), negated, and divided by 8192 less that count
    plus one. -/
def kerTail (loss : (⟨S8192, .f32⟩ : BufTy).Contents (Elt Ideal)) (valid : (⟨S8192, .i1⟩ : BufTy).Contents (Elt Ideal)) : (⟨S_, .f32⟩ : BufTy).Contents (Elt Ideal) :=
  Host.divf (F := Ideal)
    (Host.negf (F := Ideal)
      (Host.reduceAdd (F := Ideal)
        (select valid loss (broadcastInDim S8192 ![] bcast_S_S8192 (id (constant (F := Ideal) S_ .f32 0x00000000#32))))
        (constant (F := Ideal) S_ .f32 0x00000000#32) reducesTo_S8192_S_d0 h_S_))
    (sitofp .f32
      (addi
        (subi (constantI S_ 32 8192#32)
          (Host.reduce IntOp.addi (extui 32 (noti valid) natLt_1_32) (constantI S_ 32 0#32) reducesTo_S8192_S_d0 h_S_))
        (constantI S_ 32 1#32)))

/-- Each row's sum divided by the larger of its count and one, from the region's two columns. -/
def rowLoss (a b : (⟨S8192x1, .f32⟩ : BufTy).Contents (Elt Ideal)) : (⟨S8192, .f32⟩ : BufTy).Contents (Elt Ideal) :=
  Host.divf (F := Ideal) (shapeCast S8192 a shapeCasts_S8192x1_S8192)
    (maximumf (shapeCast S8192 b shapeCasts_S8192x1_S8192)
      (broadcastInDim S8192 ![] bcast_S_S8192 (constant (F := Ideal) S_ .f32 0x3F800000#32)))

/-- Which rows have a positive count, from the region's second column. -/
def rowValid (b : (⟨S8192x1, .f32⟩ : BufTy).Contents (Elt Ideal)) : (⟨S8192, .i1⟩ : BufTy).Contents (Elt Ideal) :=
  cmpf .ogt (shapeCast S8192 b shapeCasts_S8192x1_S8192)
    (broadcastInDim S8192 ![] bcast_S_S8192 (constant (F := Ideal) S_ .f32 0x00000000#32))

/-- From ANY contents of the buffers, the lines after the region leave in the result `kerTail` of the rows' losses and
    marks computed from the two columns the region wrote. -/
theorem tail_after (W : Valuation τ sig (Elt Ideal)) :
    (StableHlo.after (List.flatten [hostOps1, hostOps1_1, hostOps1_2]) W (Proc.devRef .tc main_v27) : (⟨S_, .f32⟩ : BufTy).Contents (Elt Ideal))
      = kerTail (rowLoss (W (Proc.devRef .tc main_v10_0)) (W (Proc.devRef .tc main_v10_1))) (rowValid (W (Proc.devRef .tc main_v10_1))) := by
  simp only [Gen.hostOps1, Gen.hostOps1_1, Gen.hostOps1_2, List.flatten_cons, List.flatten_nil, List.append_nil, List.cons_append, List.nil_append]
  after_results_simp
  rfl

/-- A column [8192, 1] reshaped to a vector reads, at row `r`, the column's entry of that row. -/
theorem shapeCast_column_apply {α : Type} (a : S8192x1.Idx → α) (r : Fin 8192) :
    shapeCast S8192 a shapeCasts_S8192x1_S8192 (ix1 r) = a (ix2 r (0 : Fin 1)) :=
  shapeCast_apply a shapeCasts_S8192x1_S8192 (ix1 r) (ix2 r (0 : Fin 1)) (by
    rw [Shape.rowMajor_val_two, Shape.rowMajor_val_one]
    show r.val * 1 + 0 = r.val
    omega)

/-- When the first column holds each row's sum of log-fractions and the second its count of positives, the rows'
    losses are the specification's. -/
theorem rowLoss_eq (X : SX.Idx → EReal) (lab : SL.Idx → BitVec 32) (a b : S8192x1.Idx → EReal)
    (ha : ∀ r : Fin 8192, a (ix2 r (0 : Fin 1)) = logSum X lab r)
    (hb : ∀ r : Fin 8192, b (ix2 r (0 : Fin 1)) = ((numPos lab r : ℕ) : EReal)) :
    rowLoss a b = lossVec X lab := by
  funext i
  obtain ⟨r, rfl⟩ : ∃ r : Fin 8192, i = ix1 r := ⟨i 0, eq_ix1 i⟩
  unfold rowLoss lossVec
  rw [hostDivf_apply, maximumf_apply, shapeCast_column_apply, shapeCast_column_apply,
    Cert.LibAxisReads.const_broadcast_apply, Ideal.ofBits_one_f32, ha, hb]

/-- A count is positive as an extended real exactly when it is positive. -/
theorem natCast_pos_iff (n : ℕ) : (0 : EReal) < ((n : ℕ) : EReal) ↔ 0 < n := by
  rw [← EReal.coe_natCast, EReal.coe_pos, Nat.cast_pos]

/-- When the second column holds each row's count of positives, the marks are the specification's. -/
theorem rowValid_eq (lab : SL.Idx → BitVec 32) (b : S8192x1.Idx → EReal)
    (hb : ∀ r : Fin 8192, b (ix2 r (0 : Fin 1)) = ((numPos lab r : ℕ) : EReal)) :
    rowValid b = validVec lab := by
  funext i
  obtain ⟨r, rfl⟩ : ∃ r : Fin 8192, i = ix1 r := ⟨i 0, eq_ix1 i⟩
  unfold rowValid validVec
  rw [cmpf_apply, shapeCast_column_apply, Cert.LibAxisReads.const_broadcast_apply, Ideal.ofBits_zero_f32, hb, Ideal.cmpf_def]
  show BitVec.ofBool (decide ((0 : EReal) < ((numPos lab r : ℕ) : EReal))) = if 0 < numPos lab r then 1#1 else 0#1
  by_cases h : 0 < numPos lab r
  · rw [if_pos h, decide_eq_true ((natCast_pos_iff _).mpr h)]; rfl
  · rw [if_neg h, decide_eq_false (fun h' => h ((natCast_pos_iff _).mp h'))]; rfl

end Cert.KernelIdeal.KValue

end
-- ==== Proof.KResult.lean ====
/-
  The kernel program's run, with its result named.

  After the run each of the region's two output columns is a function of the arguments (row r's sum of log-fractions
  over its positives; row r's count of positives), the lines after the region compute from the two columns the rows'
  losses and which rows count, and everything after that is one function of those two vectors. So the program's
  result is that function of the specification's loss vector and validity vector, taken at the normalized features
  and the labels; the three argument arrays end as they were launched.
-/
import proofs.«134954_j1726576853397_1_alg».proof.Proof.KArrays
import proofs.«134954_j1726576853397_1_alg».proof.Proof.KTail

set_option maxRecDepth 16384

noncomputable section

namespace Cert.KernelIdeal.KValue

open Cert.Contrast Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- What the lines after the region leave in the result: the tail function of the specification's rows' losses and
    marks. -/
theorem tail_value (c : Dev nD) :
    (Pipeline.afterTail₀ cfgs (dats m) 0 (V0 m) [hostOps1, hostOps1_1, hostOps1_2] c main_v27 : (⟨S_, .f32⟩ : BufTy).Contents (Elt Ideal))
      = kerTail (lossVec (Xof m c) (labOf m c)) (validVec (labOf m c)) := by
  unfold Pipeline.afterTail₀
  refine (tail_after _).trans ?_
  have a5 := (Pipeline.withArrays_arr spec0 launch0.win.arr_inj c (V0 m c) (fun w => (dats m 0 c).arrAt w cfg0.N) 5).trans (final5 m c)
  have a6 := (Pipeline.withArrays_arr spec0 launch0.win.arr_inj c (V0 m c) (fun w => (dats m 0 c).arrAt w cfg0.N) 6).trans (final6 m c)
  exact congrArg₂ kerTail
    ((congrArg₂ rowLoss a5 a6).trans (rowLoss_eq (Xof m c) (labOf m c) (colLogSum m c) (colCount m c) (fun _ => rfl) (fun _ => rfl)))
    ((congrArg rowValid a6).trans (rowValid_eq (labOf m c) (colCount m c) (fun _ => rfl)))

/-- THE RUN: every weakly fair execution of the program ends, faultless, with the result at the tail function of the
    specification's loss and validity vectors (at the normalized features and the labels), the arguments unchanged. -/
theorem run_result (m : (ℓ : Loc nD τ sig) → Buf (Elt Ideal) ℓ) (ρ : Dev nD → PrngReg) :
    θ_run (Cert.KernelIdeal.defs (F := Ideal)) (onTc (τ := τ) (Cert.KernelIdeal.main (F := Ideal))) ⟨m, fun _ => 0, ρ⟩ (fun r => ∀ c : Dev nD,
      r.2.mem ((c.tc : Thread nD τ).loc main_v27)
        = kerTail (lossVec (fun j => featK (m ((c.tc : Thread nD τ).loc main_arg0)) j) (fun j => m ((c.tc : Thread nD τ).loc main_arg1) j))
                  (validVec (fun j => m ((c.tc : Thread nD τ).loc main_arg1) j))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (Cert.KernelIdeal.defs (F := Ideal)) _ _).mono (fun r h c =>
    ⟨((h c).2 main_v27 (Pipeline.mem_restRefs_of main_v27 (by decide) (by decide))).trans (tail_value m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (Gen.run_main m ρ)

end Cert.KernelIdeal.KValue

end
-- ==== Proof.RefValueA.lean ====
/-
  The reference program's stages, read at explicit coordinates, as the specification's quantities: the scaled
  similarity, the weighted exponential, the off-diagonal mask, the row denominator.
-/
import proofs.«134954_j1726576853397_1_alg».proof.Proof.RefRead
import proofs.«134954_j1726576853397_1_alg».proof.Proof.Spec

noncomputable section

open scoped BigOperators

namespace Cert.ReferenceIdeal.RefValue

open Cert.Contrast Cert.ReferenceIdeal Cert.ReferenceIdeal.ReadP Idealize.ShloMosaic Idealize.ShloMosaic.ValueIdx

/-- The single-precision word for 0.07 denotes the rational 9395241 / 2^27. -/
theorem ofBits_temp : Ideal.ofBits .f32 0x3D8F5C29#32 = ((9395241 / 134217728 : ℝ) : EReal) := by
  simp [Ideal.ofBits, Ideal.ieee, -EReal.coe_mul]; norm_num

/-- A selection by the word of a decidable proposition is the conditional on the proposition. -/
theorem select_ite {α : Type} (p : Prop) [Decidable p] (a b : α) :
    Scalar.select (if p then 1#1 else 0#1) a b = if p then a else b := by
  by_cases h : p
  · rw [if_pos h, if_pos h, select_one]
  · rw [if_neg h, if_neg h, select_zero]

/-- Equality of two words, as the word of the proposition. -/
theorem cmpi_eq {w : Nat} (a b : BitVec w) : IntOp.cmpi .eq a b = if a = b then 1#1 else 0#1 := by
  unfold IntOp.cmpi
  by_cases h : a = b
  · subst h; simp
  · rw [if_neg h, beq_eq_false_iff_ne.2 h]; rfl

/-- Row and column numbers below 8192 are told apart by their 32-bit words. -/
theorem ofNat32_inj {a b : ℕ} (ha : a < 8192) (hb : b < 8192) : BitVec.ofNat 32 a = BitVec.ofNat 32 b ↔ a = b := by
  constructor
  · intro h
    have := congrArg BitVec.toNat h
    simp only [BitVec.toNat_ofNat, Nat.reducePow] at this
    omega
  · rintro rfl; rfl

/-- The reference's normalised features, as the specification's feature matrix. -/
abbrev Xn (x0 : (⟨S8192x128, .f32⟩ : BufTy).Contents (Elt Ideal)) : SX.Idx → EReal := fun j => val_main_v4 (F := Ideal) x0 j

/-- The scaled similarity of rows `r` and `j`. -/
theorem v8_apply (x0 : (⟨S8192x128, .f32⟩ : BufTy).Contents (Elt Ideal)) (r j : Fin 8192) :
    val_main_v8 (F := Ideal) x0 (ix2 r j) = dot (Xn x0) r j * invT := by
  rewrite [val_main_v8_apply, val_main_v6_apply, val_main_v7_apply, val_main_cst_0_apply]
  simp only [Ideal.hostDivf_def, Ideal.ofBits_def]
  rewrite [ofBits_temp, Ideal.div_coe (by norm_num)]
  unfold dot invT
  refine congrArg₂ (· * ·) ?_ (congrArg (fun t : ℝ => (t : EReal)) (by norm_num))
  · refine Finset.sum_congr rfl fun k _ => ?_
    rewrite [val_main_v5_apply]
    have e1 : lidx_main_v6 (ix2 r j) k = ix2 r k :=
      funext fun a => Fin.ext (by match a with | ⟨0, _⟩ => rfl | ⟨1, _⟩ => rfl)
    have e2 : idx_main_v5 (ridx_main_v6 (ix2 r j) k) = ix2 j k :=
      funext fun a => Fin.ext (by match a with | ⟨0, _⟩ => rfl | ⟨1, _⟩ => rfl)
    rewrite [e1, e2]
    rfl

/-- Both branches of the domain weight are one half. -/
theorem v25_apply (x2 : (⟨S8192, .i32⟩ : BufTy).Contents (Elt Ideal)) (i : S8192x8192.Idx) :
    val_main_v25 (F := Ideal) x2 i = half := by
  rewrite [val_main_v25_apply, val_main_call1_v0_apply, val_main_call1_v1_apply, val_main_cst_1_apply, val_main_cst_2_apply]
  unfold Scalar.select half
  simp only [Ideal.ofBits_def, ite_self]

/-- The weighted exponential. -/
theorem v28_apply (x0 : (⟨S8192x128, .f32⟩ : BufTy).Contents (Elt Ideal)) (x2 : (⟨S8192, .i32⟩ : BufTy).Contents (Elt Ideal))
    (r j : Fin 8192) : val_main_v28 (F := Ideal) x0 x2 (ix2 r j) = w (Xn x0) r j := by
  rewrite [val_main_v28_apply, val_main_v27_apply, v25_apply, val_main_v26_apply, v8_apply]
  simp only [w, Ideal.mulf_def, Ideal.hostUnary_exp_def]

/-- The off-diagonal mask. -/
theorem v24_apply (r j : Fin 8192) : val_main_v24 (F := Ideal) (ix2 r j) = if r ≠ j then 1#1 else 0#1 := by
  rewrite [val_main_v24_apply, val_main_v23_apply, val_main_v22_apply, val_main_v19_apply, val_main_v20_apply,
    val_main_v21_apply, val_main_c_apply, cmpi_eq]
  show ~~~(if IntOp.addi (BitVec.ofNat 32 r.val) 0#32 = BitVec.ofNat 32 j.val then 1#1 else 0#1) = _
  unfold IntOp.addi
  rw [BitVec.add_zero]
  by_cases h : r = j
  · subst h; simp
  · have h' : ¬ BitVec.ofNat 32 r.val = BitVec.ofNat 32 j.val := fun e =>
      h (Fin.ext ((ofNat32_inj r.isLt j.isLt).1 e))
    rw [if_neg h', if_pos h]; decide

/-- The row's sum of the weighted exponentials off the diagonal. -/
theorem v30_apply (x0 : (⟨S8192x128, .f32⟩ : BufTy).Contents (Elt Ideal)) (x2 : (⟨S8192, .i32⟩ : BufTy).Contents (Elt Ideal))
    (r : Fin 8192) :
    val_main_v30 (F := Ideal) x0 x2 (ix1 r) = ∑ j : Fin 8192, if r ≠ j then w (Xn x0) r j else 0 := by
  rewrite [val_main_v30_apply, val_main_cst_4_apply]
  simp only [Ideal.ofBits_def, Ideal.ofBits_zero_f32, zero_add]
  refine Finset.sum_congr rfl fun j _ => ?_
  have e : idx_main_v30 (ix1 r) j = ix2 r j :=
    funext fun a => Fin.ext (by match a with | ⟨0, _⟩ => rfl | ⟨1, _⟩ => rfl)
  rewrite [e, val_main_v29_apply, v24_apply, v28_apply, val_main_call2_v1_apply, val_main_call2_v0_apply,
    val_main_cst_3_apply, select_ite]
  simp only [Ideal.ofBits_def, Ideal.ofBits_zero_f32]

/-- The row's denominator. -/
theorem v32_apply (x0 : (⟨S8192x128, .f32⟩ : BufTy).Contents (Elt Ideal)) (x2 : (⟨S8192, .i32⟩ : BufTy).Contents (Elt Ideal))
    (r : Fin 8192) : val_main_v32 (F := Ideal) x0 x2 (ix1 r) = den (Xn x0) r := by
  rewrite [val_main_v32_apply, v30_apply, val_main_v31_apply, val_main_cst_5_apply]
  simp only [den, eps, Ideal.addf_def, Ideal.ofBits_def]

end Cert.ReferenceIdeal.RefValue

end
-- ==== Proof.RefValueB.lean ====
/-
  The reference program's stages, continued: the positives' mask, the log-fractions and their row sum, the number of a
  row's positives as a 32-bit word (a sum of 8192 words each 0 or 1), and from these the row's loss and whether the row
  has a positive.
-/
import proofs.«134954_j1726576853397_1_alg».proof.Proof.RefValueA
import Idealize.ShloMosaic.PureOps.Reduce

noncomputable section

open scoped BigOperators

namespace Cert.ReferenceIdeal.RefValue

open Cert.Contrast Cert.ReferenceIdeal Cert.ReferenceIdeal.Gen Cert.ReferenceIdeal.ReadP Idealize.ShloMosaic Idealize.ShloMosaic.ValueIdx

/-- The reference's labels, as the specification's label vector. -/
abbrev Lb (x1 : (⟨S8192, .i32⟩ : BufTy).Contents (Elt Ideal)) : SL.Idx → BitVec 32 := fun j => x1 j

/-- Rows `r` and `j` carry the same label. -/
theorem v13_apply (x1 : (⟨S8192, .i32⟩ : BufTy).Contents (Elt Ideal)) (r j : Fin 8192) :
    val_main_v13 (F := Ideal) x1 (ix2 r j) = if Lb x1 (ix1 r) = Lb x1 (ix1 j) then 1#1 else 0#1 := by
  rewrite [val_main_v13_apply, val_main_v11_apply, val_main_v9_apply, val_main_v12_apply, val_main_v10_apply, cmpi_eq]
  have e1 : idx_main_v9 (idx_main_v11 (ix2 r j)) = ix1 r :=
    funext fun a => Fin.ext (by match a with | ⟨0, _⟩ => rfl)
  have e2 : idx_main_v10 (idx_main_v12 (ix2 r j)) = ix1 j :=
    funext fun a => Fin.ext (by match a with | ⟨0, _⟩ => rfl)
  rewrite [e1, e2]
  rfl

/-- The positives' mask. -/
theorem v33_apply (x1 : (⟨S8192, .i32⟩ : BufTy).Contents (Elt Ideal)) (r j : Fin 8192) :
    val_main_v33 (F := Ideal) x1 (ix2 r j) = if IsPos (Lb x1) r j then 1#1 else 0#1 := by
  rewrite [val_main_v33_apply, v13_apply, v24_apply]
  unfold IntOp.andi
  by_cases h1 : Lb x1 (ix1 r) = Lb x1 (ix1 j)
  · by_cases h2 : r ≠ j
    · rw [if_pos h1, if_pos h2, if_pos (show IsPos (Lb x1) r j from ⟨h1, h2⟩)]; rfl
    · rw [if_pos h1, if_neg h2, if_neg (show ¬ IsPos (Lb x1) r j from fun h => h2 h.2)]; rfl
  · by_cases h2 : r ≠ j
    · rw [if_neg h1, if_pos h2, if_neg (show ¬ IsPos (Lb x1) r j from fun h => h1 h.1)]; rfl
    · rw [if_neg h1, if_neg h2, if_neg (show ¬ IsPos (Lb x1) r j from fun h => h1 h.1)]; rfl

/-- The log-fraction of the pair `(r, j)`. -/
theorem v39_apply (x0 : (⟨S8192x128, .f32⟩ : BufTy).Contents (Elt Ideal)) (x2 : (⟨S8192, .i32⟩ : BufTy).Contents (Elt Ideal))
    (r j : Fin 8192) :
    val_main_v39 (F := Ideal) x0 x2 (ix2 r j) = Ideal.log (Ideal.div (w (Xn x0) r j) (den (Xn x0) r) + eps) := by
  rewrite [val_main_v39_apply, val_main_v38_apply, val_main_v36_apply, v28_apply, val_main_v35_apply, val_main_v34_apply]
  have e : idx_main_v34 (idx_main_v35 (ix2 r j)) = ix1 r :=
    funext fun a => Fin.ext (by match a with | ⟨0, _⟩ => rfl)
  rewrite [e, v32_apply, val_main_v37_apply, val_main_cst_6_apply]
  simp only [eps, Ideal.hostUnary_log_def, Ideal.addf_def, Ideal.hostDivf_def, Ideal.ofBits_def]

/-- The row's sum of log-fractions over its positives. -/
theorem v43_apply (x0 : (⟨S8192x128, .f32⟩ : BufTy).Contents (Elt Ideal)) (x1 x2 : (⟨S8192, .i32⟩ : BufTy).Contents (Elt Ideal))
    (r : Fin 8192) : val_main_v43 (F := Ideal) x0 x1 x2 (ix1 r) = logSum (Xn x0) (Lb x1) r := by
  rewrite [val_main_v43_apply, val_main_cst_9_apply]
  simp only [Ideal.ofBits_def, Ideal.ofBits_zero_f32, zero_add]
  unfold logSum
  refine Finset.sum_congr rfl fun j _ => ?_
  have e : idx_main_v43 (ix1 r) j = ix2 r j :=
    funext fun a => Fin.ext (by match a with | ⟨0, _⟩ => rfl | ⟨1, _⟩ => rfl)
  rewrite [e, val_main_v42_apply, v33_apply, v39_apply, val_main_call3_v1_apply, val_main_call3_v0_apply,
    val_main_cst_8_apply, select_ite]
  simp only [Ideal.ofBits_def, Ideal.ofBits_zero_f32]

/-- A sum, in 32-bit words, of words that are each 0 or 1 is the word of the number of ones. -/
theorem fold_addi_bits {ι : Type} [DecidableEq ι] (p : ι → Prop) [DecidablePred p] (S : Finset ι) :
    S.fold IntOp.addi 0#32 (fun k => (if p k then 1#1 else 0#1 : BitVec 1).setWidth 32)
      = BitVec.ofNat 32 (S.filter p).card := by
  induction S using Finset.induction_on with
  | empty => rfl
  | insert a S ha ih =>
    rw [Finset.fold_insert ha, ih, Finset.filter_insert]
    unfold IntOp.addi
    by_cases h : p a
    · rw [if_pos h, if_pos h, Finset.card_insert_of_notMem (fun hm => ha (Finset.mem_filter.1 hm).1),
        BitVec.ofNat_add, BitVec.add_comm]
      rfl
    · rw [if_neg h, if_neg h]
      show 0#32 + _ = _
      rw [BitVec.zero_add]

/-- The number of the row's positives, as the 32-bit word the reference counts it in. -/
theorem v41_apply (x1 : (⟨S8192, .i32⟩ : BufTy).Contents (Elt Ideal)) (r : Fin 8192) :
    val_main_v41 (F := Ideal) x1 (ix1 r) = BitVec.ofNat 32 (numPos (Lb x1) r) := by
  have hred : S8192x8192.Reduces [1] S8192 := by decide
  unfold val_main_v41 numPos
  rewrite [Host.reduce_eq_fold_single IntOp.addi _ _ reducesTo_S8192x8192_S8192_d1 hred h_S_ (ix1 r), val_main_c_7_apply]
  refine Eq.trans (Finset.fold_congr fun (k : Fin 8192) _ => ?_)
    (fold_addi_bits (fun k : Fin 8192 => IsPos (Lb x1) r k) Finset.univ)
  show val_main_v40 (F := Ideal) x1 (hred.lift (ix1 r) k) = _
  have e : hred.lift (ix1 r) k = ix2 r k :=
    funext fun a => Fin.ext (by match a with | ⟨0, _⟩ => rfl | ⟨1, _⟩ => rfl)
  rewrite [e, val_main_v40_apply, v33_apply]
  rfl

/-- A number up to 8192, as a 32-bit word read signed, is itself. -/
theorem toInt_ofNat32 {n : ℕ} (h : n ≤ 8192) : (BitVec.ofNat 32 n).toInt = (n : ℤ) := by
  have hm : n % 2 ^ 32 = n := Nat.mod_eq_of_lt (lt_of_le_of_lt h (by norm_num))
  rw [BitVec.toInt_eq_toNat_cond, BitVec.toNat_ofNat, hm, if_pos (lt_of_le_of_lt (Nat.mul_le_mul_left 2 h) (by norm_num))]

/-- The signed maximum with 1 of the word of a number up to 8192. -/
theorem maxsi_ofNat_one {n : ℕ} (h : n ≤ 8192) : IntOp.maxsi (BitVec.ofNat 32 n) 1#32 = BitVec.ofNat 32 (max n 1) := by
  unfold IntOp.maxsi
  have h1 : (1#32 : BitVec 32).toInt = 1 := by decide
  have hs : (1#32 : BitVec 32).slt (BitVec.ofNat 32 n) = decide ((1 : ℤ) < (n : ℤ)) := by
    unfold BitVec.slt; rw [toInt_ofNat32 h, h1]
  rw [hs]
  by_cases hn : 1 < n
  · rw [if_pos (decide_eq_true (by exact_mod_cast hn)), max_eq_left (le_of_lt hn)]
  · rw [if_neg (by rw [decide_eq_true_eq]; exact_mod_cast hn), max_eq_right (not_lt.1 hn)]

/-- The divisor of the row's loss: the number of positives, at least 1, as an extended real. -/
theorem v46_apply (x1 : (⟨S8192, .i32⟩ : BufTy).Contents (Elt Ideal)) (r : Fin 8192) :
    val_main_v46 (F := Ideal) x1 (ix1 r) = max ((numPos (Lb x1) r : ℕ) : EReal) 1 := by
  rewrite [val_main_v46_apply, val_main_v45_apply, v41_apply, val_main_v44_apply, val_main_c_10_apply,
    maxsi_ofNat_one (numPos_le _ _)]
  show (((BitVec.ofNat 32 (max (numPos (Lb x1) r) 1)).toInt : ℝ) : EReal) = _
  rw [toInt_ofNat32 (max_le (numPos_le _ _) (by norm_num))]
  generalize numPos (Lb x1) r = n
  rcases Nat.lt_or_ge n 1 with h | h
  · have h0 : n = 0 := by omega
    subst h0
    simp
  · have h1 : (1 : EReal) ≤ ((n : ℕ) : EReal) := by exact_mod_cast h
    rw [max_eq_left h, max_eq_left h1]
    simp

end Cert.ReferenceIdeal.RefValue

end
-- ==== Proof.RefValue.lean ====
/-
  The reference's rows: each row's loss is the specification's, and the flag of a row with a positive is the
  specification's.
-/
import proofs.«134954_j1726576853397_1_alg».proof.Proof.RefValueB

noncomputable section

open scoped BigOperators

namespace Cert.ReferenceIdeal.RefValue

open Cert.Contrast Cert.ReferenceIdeal Cert.ReferenceIdeal.ReadP Idealize.ShloMosaic Idealize.ShloMosaic.ValueIdx

/-- The reference's row loss is the specification's. -/
theorem loss_apply (x0 : (⟨S8192x128, .f32⟩ : BufTy).Contents (Elt Ideal)) (x1 x2 : (⟨S8192, .i32⟩ : BufTy).Contents (Elt Ideal))
    (r : Fin 8192) :
    val_main_v47 (F := Ideal) x0 x1 x2 (ix1 r)
      = lossVec (fun j => val_main_v4 (F := Ideal) x0 j) (fun j => x1 j) (ix1 r) := by
  rewrite [val_main_v47_apply, v43_apply, v46_apply]
  rfl

/-- The reference's flag of a row with a positive is the specification's. -/
theorem valid_apply (x1 : (⟨S8192, .i32⟩ : BufTy).Contents (Elt Ideal)) (r : Fin 8192) :
    val_main_v49 (F := Ideal) x1 (ix1 r) = validVec (fun j => x1 j) (ix1 r) := by
  rewrite [val_main_v49_apply, v41_apply, val_main_v48_apply, val_main_c_11_apply]
  show BitVec.ofBool ((0#32 : BitVec 32).slt (BitVec.ofNat 32 (numPos (Lb x1) r)))
    = if 0 < numPos (Lb x1) r then 1#1 else 0#1
  have h0 : (0#32 : BitVec 32).toInt = 0 := by decide
  have hs : (0#32 : BitVec 32).slt (BitVec.ofNat 32 (numPos (Lb x1) r)) = decide ((0 : ℤ) < (numPos (Lb x1) r : ℤ)) := by
    unfold BitVec.slt; rw [toInt_ofNat32 (numPos_le _ _), h0]
  rw [hs]
  by_cases h : 0 < numPos (Lb x1) r
  · rw [if_pos h, decide_eq_true (by exact_mod_cast h)]; rfl
  · rw [if_neg h, decide_eq_false (by exact_mod_cast h)]; rfl

end Cert.ReferenceIdeal.RefValue

end
-- ==== Proof.Bridge.lean ====
/-
  The two programs' results are one value.

  The whole-matrix program's result is its last operations applied to the rows' losses and the rows' validity; these
  operations — which rows lack a positive, their number, the sum of the valid rows' losses, its negation, the divisor
  `8192 − that number + 1` converted to a float, the quotient — are, operation for operation, the ones the tiled program
  applies after its kernel. The rows' losses and validity are on both sides the specification's arrays of the same
  normalised features (the same operations of the feature argument on both sides) and the same labels. So from
  memories that agree on the arguments both runs end with the same scalar.
-/
import proofs.«134954_j1726576853397_1_alg».proof.Defs
import proofs.«134954_j1726576853397_1_alg».proof.Proof.Gen.Pre_finite_inputs
import proofs.«134954_j1726576853397_1_alg».proof.Proof.KResult
import proofs.«134954_j1726576853397_1_alg».proof.Proof.RefRun
import proofs.«134954_j1726576853397_1_alg».proof.Proof.RefValue

set_option maxRecDepth 16384

noncomputable section

namespace Cert.Proof.Bridge

open Idealize.ShloMosaic Idealize.ShloMosaic.TcCoe Idealize.ShloMosaic.ValueIdx Idealize.SL.Sem Cert.Contrast

/-- The whole-matrix program's normalised features are the tiled program's: the same operations of the argument. -/
theorem feat_eq (x0 : (⟨Cert.ReferenceIdeal.S8192x128, .f32⟩ : BufTy).Contents (Elt Ideal)) :
    Cert.ReferenceIdeal.ReadP.val_main_v4 (F := Ideal) x0 = Cert.KernelIdeal.KValue.featK x0 := rfl

/-- The whole-matrix program's result is the tiled program's tail of its own rows' losses and validity: the same
    operations from there on. -/
theorem tail_eq (x0 : (⟨Cert.ReferenceIdeal.S8192x128, .f32⟩ : BufTy).Contents (Elt Ideal))
    (x1 x2 : (⟨Cert.ReferenceIdeal.S8192, .i32⟩ : BufTy).Contents (Elt Ideal)) :
    Cert.ReferenceIdeal.ReadP.val_main_v59 (F := Ideal) x0 x1 x2
      = Cert.KernelIdeal.KValue.kerTail (Cert.ReferenceIdeal.ReadP.val_main_v47 (F := Ideal) x0 x1 x2)
          (Cert.ReferenceIdeal.ReadP.val_main_v49 (F := Ideal) x1) := by
  unfold Cert.ReferenceIdeal.ReadP.val_main_v59 Cert.ReferenceIdeal.ReadP.val_main_v58 Cert.ReferenceIdeal.ReadP.val_main_v57 Cert.ReferenceIdeal.ReadP.val_main_c_16 Cert.ReferenceIdeal.ReadP.val_main_v56 Cert.ReferenceIdeal.ReadP.val_main_c_15 Cert.ReferenceIdeal.ReadP.val_main_v55 Cert.ReferenceIdeal.ReadP.val_main_v54 Cert.ReferenceIdeal.ReadP.val_main_cst_14 Cert.ReferenceIdeal.ReadP.val_main_v53 Cert.ReferenceIdeal.ReadP.val_main_call4_v1 Cert.ReferenceIdeal.ReadP.val_main_call4_v0 Cert.ReferenceIdeal.ReadP.val_main_cst_13 Cert.ReferenceIdeal.ReadP.val_main_v52 Cert.ReferenceIdeal.ReadP.val_main_c_12 Cert.ReferenceIdeal.ReadP.val_main_v51 Cert.ReferenceIdeal.ReadP.val_main_v50 Cert.KernelIdeal.KValue.kerTail
  generalize Cert.ReferenceIdeal.ReadP.val_main_v47 (F := Ideal) x0 x1 x2 = L
  generalize Cert.ReferenceIdeal.ReadP.val_main_v49 (F := Ideal) x1 = B
  rfl

/-- The whole-matrix program's result, of the arguments, is the tiled program's. -/
theorem result_eq (x0 : (⟨Cert.ReferenceIdeal.S8192x128, .f32⟩ : BufTy).Contents (Elt Ideal))
    (x1 x2 : (⟨Cert.ReferenceIdeal.S8192, .i32⟩ : BufTy).Contents (Elt Ideal)) :
    Cert.ReferenceIdeal.ReadP.val_main_v59 (F := Ideal) x0 x1 x2
      = Cert.KernelIdeal.KValue.kerTail (lossVec (fun j => Cert.KernelIdeal.KValue.featK x0 j) (fun j => x1 j)) (validVec (fun j => x1 j)) := by
  have h47 : Cert.ReferenceIdeal.ReadP.val_main_v47 (F := Ideal) x0 x1 x2
      = lossVec (fun j => Cert.KernelIdeal.KValue.featK x0 j) (fun j => x1 j) := by
    funext i
    obtain ⟨r, rfl⟩ : ∃ r : Fin 8192, i = ix1 r := ⟨i 0, eq_ix1 i⟩
    exact (Cert.ReferenceIdeal.RefValue.loss_apply x0 x1 x2 r).trans (by rw [feat_eq])
  have h49 : Cert.ReferenceIdeal.ReadP.val_main_v49 (F := Ideal) x1 = validVec (fun j => x1 j) := by
    funext i
    obtain ⟨r, rfl⟩ : ∃ r : Fin 8192, i = ix1 r := ⟨i 0, eq_ix1 i⟩
    exact Cert.ReferenceIdeal.RefValue.valid_apply x1 r
  rw [tail_eq, h47, h49]

/-- From memories that agree on the arguments the two idealized programs run to the end with equal results and
    unchanged arguments. -/
theorem algebraic : Cert.algebraic_KernelIdeal_ReferenceIdeal := by
  intro m ρ m' ρ' _ hagree
  refine ⟨_, Cert.KernelIdeal.KValue.run_result m ρ, ?_⟩
  refine (θ_run Cert.ReferenceIdeal.defs _ _).mono (fun _ h c => ⟨(h c).1.trans ?_, (h c).2⟩)
    (Cert.ReferenceIdeal.ValueP.run (F := Ideal) m' ρ')
  rw [(hagree c).1, (hagree c).2.1, (hagree c).2.2]
  exact result_eq _ _ _

end Cert.Proof.Bridge

end
-- ==== Proof.lean ====
/-
  A supervised contrastive loss with equal in-domain and out-of-domain weights, over 8192 rows of 128 features: a
  tiled evaluation against the whole-matrix one, equal on the extended reals.

  Both programs first divide each row of the features by `max (‖row‖, 1e-12)`; call the result `X`. For rows `r ≠ j`
  let `w r j = ½ · exp (⟨X r, X j⟩ / T)`, `T` the single-precision value of 0.07. Row `r`'s denominator is
  `(Σ_{j ≠ r} w r j) + ε`; over its positives (`j ≠ r` with `r`'s label) it sums `log (w r j / den r + ε)` and counts them;
  the loss divides each row's sum by `max (count, 1)`, keeps the rows that have a positive, sums, negates, and divides
  by `8192 − #{rows without a positive} + 1`.

  The whole-matrix program forms the 8192 × 8192 arrays; it divides the inner products by `T`, counts positives in
  integers and converts the count. The tiled program handles 512 rows per grid point and, for them, walks the columns
  in sixteen blocks of 512, twice — once for the denominator and the count (in floats), once for the log-fractions —
  multiplying the inner products by the constant `1/T`, which on the extended reals is named the exact reciprocal
  134217728/9395241 of `T = 9395241/2^27`. The two agree because: dividing an extended real by a nonzero real is
  multiplying by its reciprocal; addition of extended reals is a commutative monoid, so sixteen block sums accumulated
  from zero are the sum over the row (no finiteness is used, and the precondition is not opened); a float sum of ones
  over a set and the integer count of the set denote the same number (at most 8192, so the 32-bit count does not
  wrap); and from the rows' losses and the rows' validity on, the two programs apply the same operations.

  The modules: `Spec` (the row quantities and the two facts about sums), `BodyChunk` / `BodyRegular` / `BodyIdx` /
  `BodyValue` (one grid point of the tiled program read at a row), the `K…` modules (from the grid points' blocks to the
  tiled program's result), `RefOps` / `RefRead` / `RefRun` / `RefValue…` (the whole-matrix program's run and its rows'
  losses), `Claims` (the frames and the named constant's ledger), `Bridge` (the two results are one value).
-/
import proofs.«134954_j1726576853397_1_alg».proof.Defs
import proofs.«134954_j1726576853397_1_alg».proof.Proof.Gen.Kernel
import proofs.«134954_j1726576853397_1_alg».proof.Proof.Gen.KernelIdeal
import proofs.«134954_j1726576853397_1_alg».proof.Proof.Gen.ReferenceIdeal
import proofs.«134954_j1726576853397_1_alg».proof.Proof.Gen.Pre_finite_inputs
import proofs.«134954_j1726576853397_1_alg».proof.Proof.Claims
import proofs.«134954_j1726576853397_1_alg».proof.Proof.Bridge

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Bridge.algebraic⟩

end Cert.Proof

end
